-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x4 : Shape := ⟨2, ![50000, 4]⟩
abbrev S2x800000 : Shape := ⟨2, ![2, 800000]⟩
abbrev S256x4 : Shape := ⟨2, ![256, 4]⟩
abbrev S256 : Shape := ⟨1, ![256]⟩
abbrev S256x256 : Shape := ⟨2, ![256, 256]⟩
abbrev S4x256 : Shape := ⟨2, ![4, 256]⟩
abbrev S4 : Shape := ⟨1, ![4]⟩
abbrev S_ : Shape := ⟨0, ![]⟩

class Facts : Prop where
  bcast_S_S50000x4 : S_.BroadcastsInDim S50000x4 (![] : Fin 0 → Fin S50000x4.rank)
  reducesTo_S50000x4_S_d0_1 : S50000x4.ReducesTo [0, 1] S_
  h_S_ : 0 < S_.numel
  bcast_S_S256x4 : S_.BroadcastsInDim S256x4 (![] : Fin 0 → Fin S256x4.rank)
  reducesTo_S256x4_S_d0_1 : S256x4.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S4x256 : S_.BroadcastsInDim S4x256 (![] : Fin 0 → Fin S4x256.rank)
  reducesTo_S4x256_S_d0_1 : S4x256.ReducesTo [0, 1] S_
  bcast_S_S4 : S_.BroadcastsInDim S4 (![] : Fin 0 → Fin S4.rank)
  reducesTo_S4_S_d0 : S4.ReducesTo [0] S_

variable [Facts]

def fn_part3 {F : FTy → Type} [FloatOps F] (main_arg12 : FVec F S4x256 .f32) (main_arg13 : FVec F S4 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S4x256 .f32 := Host.absf main_arg12
  let main_cst_20 : FVec F S_ .f32 := constant S_ .f32 0x7F800000#32
  let main_v55 : FVec F S4x256 .f32 := broadcastInDim S4x256 ![] bcast_S_S4x256 main_cst_20
  let main_v56 : IVec S4x256 1 := cmpf .olt main_v54 main_v55
  let main_c_21 : IVec S_ 1 := constantI S_ 1 1#1
  let main_v57 : IVec S_ 1 := (fun x v => Host.reduce IntOp.andi x v reducesTo_S4x256_S_d0_1 h_S_) main_v56 main_c_21
  let main_v58 : IVec S_ 1 := andi main_v53 main_v57
  let main_v59 : FVec F S4 .f32 := Host.absf main_arg13
  let main_cst_22 : FVec F S_ .f32 := constant S_ .f32 0x7F800000#32
  let main_v60 : FVec F S4 .f32 := broadcastInDim S4 ![] bcast_S_S4 main_cst_22
  let main_v61 : IVec S4 1 := cmpf .olt main_v59 main_v60
  let main_c_23 : IVec S_ 1 := constantI S_ 1 1#1
  let main_v62 : IVec S_ 1 := (fun x v => Host.reduce IntOp.andi x v reducesTo_S4_S_d0 h_S_) main_v61 main_c_23
  let main_v63 : IVec S_ 1 := andi main_v58 main_v62
  main_v63

def fn_part2 {F : FTy → Type} [FloatOps F] (main_arg8 : FVec F S256 .f32) (main_arg9 : FVec F S256x256 .f32) (main_arg10 : FVec F S256 .f32) (main_arg11 : FVec F S256 .f32) (main_arg12 : FVec F S4x256 .f32) (main_arg13 : FVec F S4 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_arg13 main_v48 main_v49 main_v50

def fn_part1 {F : FTy → Type} [FloatOps F] (main_arg5 : FVec F S256 .f32) (main_arg6 : FVec F S256 .f32) (main_arg7 : FVec F S256x256 .f32) (main_arg8 : FVec F S256 .f32) (main_arg9 : FVec F S256x256 .f32) (main_arg10 : FVec F S256 .f32) (main_arg11 : FVec F S256 .f32) (main_arg12 : FVec F S4x256 .f32) (main_arg13 : FVec F S4 .f32) (main_v13 : IVec S_ 1) (main_v16 : IVec S256x4 1) : IVec S_ 1 :=
  let main_c_5 : IVec S_ 1 := constantI S_ 1 1#1
  let main_v17 : IVec S_ 1 := (fun x v => Host.reduce IntOp.andi x v reducesTo_S256x4_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x4 .f32) (main_arg1 : IVec S2x800000 32) (main_arg2 : FVec F S256x4 .f32) (main_arg3 : FVec F S256 .f32) (main_arg4 : FVec F S256x4 .f32) (main_arg5 : FVec F S256 .f32) (main_arg6 : FVec F S256 .f32) (main_arg7 : FVec F S256x256 .f32) (main_arg8 : FVec F S256 .f32) (main_arg9 : FVec F S256x256 .f32) (main_arg10 : FVec F S256 .f32) (main_arg11 : FVec F S256 .f32) (main_arg12 : FVec F S4x256 .f32) (main_arg13 : FVec F S4 .f32) : IVec S_ 1 :=
  let main_v0 : FVec F S50000x4 .f32 := Host.absf main_arg0
  let main_cst : FVec F S_ .f32 := constant S_ .f32 0x7F800000#32
  let main_v1 : FVec F S50000x4 .f32 := broadcastInDim S50000x4 ![] bcast_S_S50000x4 main_cst
  let main_v2 : IVec S50000x4 1 := cmpf .olt main_v0 main_v1
  let main_c : IVec S_ 1 := constantI S_ 1 1#1
  let main_v3 : IVec S_ 1 := (fun x v => Host.reduce IntOp.andi x v reducesTo_S50000x4_S_d0_1 h_S_) main_v2 main_c
  let main_v4 : FVec F S256x4 .f32 := Host.absf main_arg2
  let main_cst_0 : FVec F S_ .f32 := constant S_ .f32 0x7F800000#32
  let main_v5 : FVec F S256x4 .f32 := broadcastInDim S256x4 ![] bcast_S_S256x4 main_cst_0
  let main_v6 : IVec S256x4 1 := cmpf .olt main_v4 main_v5
  let main_c_1 : IVec S_ 1 := constantI S_ 1 1#1
  let main_v7 : IVec S_ 1 := (fun x v => Host.reduce IntOp.andi x v reducesTo_S256x4_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x4 .f32 := Host.absf main_arg4
  let main_cst_4 : FVec F S_ .f32 := constant S_ .f32 0x7F800000#32
  let main_v15 : FVec F S256x4 .f32 := broadcastInDim S256x4 ![] bcast_S_S256x4 main_cst_4
  let main_v16 : IVec S256x4 1 := cmpf .olt main_v14 main_v15
  fn_part1 (F := F) main_arg5 main_arg6 main_arg7 main_arg8 main_arg9 main_arg10 main_arg11 main_arg12 main_arg13 main_v13 main_v16
-- ==== Kernel.lean ====
abbrev S50000x4 : Shape := ⟨2, ![50000, 4]⟩
abbrev S2x800000 : Shape := ⟨2, ![2, 800000]⟩
abbrev S256x4 : Shape := ⟨2, ![256, 4]⟩
abbrev S256 : Shape := ⟨1, ![256]⟩
abbrev S256x256 : Shape := ⟨2, ![256, 256]⟩
abbrev S4x256 : Shape := ⟨2, ![4, 256]⟩
abbrev S4 : Shape := ⟨1, ![4]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x4 : Shape := ⟨2, ![1, 4]⟩
abbrev S800000x4 : Shape := ⟨2, ![800000, 4]⟩
abbrev S1x256 : Shape := ⟨2, ![1, 256]⟩
abbrev S50000x256 : Shape := ⟨2, ![50000, 256]⟩
abbrev S2000x4 : Shape := ⟨2, ![2000, 4]⟩
abbrev S2000x256 : Shape := ⟨2, ![2000, 256]⟩
abbrev S800000x256 : Shape := ⟨2, ![800000, 256]⟩

abbrev nBuf : Space → Nat
  | .hbm => 118
  | .vmem => 40
  | .smem => 0
  | _ => 0

abbrev bufTy : (tb : Table) → Fin (tcTables nBuf tb) → BufTy
  | .hbm, ⟨0, _⟩ => ⟨S50000x4, .f32⟩
  | .hbm, ⟨1, _⟩ => ⟨S2x800000, .i32⟩
  | .hbm, ⟨2, _⟩ => ⟨S256x4, .f32⟩
  | .hbm, ⟨3, _⟩ => ⟨S256, .f32⟩
  | .hbm, ⟨4, _⟩ => ⟨S256x4, .f32⟩
  | .hbm, ⟨5, _⟩ => ⟨S256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256, .f32⟩
  | .hbm, ⟨12, _⟩ => ⟨S4x256, .f32⟩
  | .hbm, ⟨13, _⟩ => ⟨S4, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .f32⟩
  | .hbm, ⟨19, _⟩ => ⟨S800000, .f32⟩
  | .hbm, ⟨20, _⟩ => ⟨S_, .f32⟩
  | .hbm, ⟨21, _⟩ => ⟨S50000, .f32⟩
  | .hbm, ⟨22, _⟩ => ⟨S800000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S4, .i32⟩
  | .hbm, ⟨29, _⟩ => ⟨S_, .i32⟩
  | .hbm, ⟨30, _⟩ => ⟨S4, .i32⟩
  | .hbm, ⟨31, _⟩ => ⟨S4, .i1⟩
  | .hbm, ⟨32, _⟩ => ⟨S_, .f32⟩
  | .hbm, ⟨33, _⟩ => ⟨S_, .f32⟩
  | .hbm, ⟨34, _⟩ => ⟨S4, .f32⟩
  | .hbm, ⟨35, _⟩ => ⟨S4, .f32⟩
  | .hbm, ⟨36, _⟩ => ⟨S4, .f32⟩
  | .hbm, ⟨37, _⟩ => ⟨S4, .f32⟩
  | .hbm, ⟨38, _⟩ => ⟨S1x4, .f32⟩
  | .hbm, ⟨39, _⟩ => ⟨S50000x4, .f32⟩
  | .hbm, ⟨40, _⟩ => ⟨S50000x4, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x4, .f32⟩
  | .hbm, ⟨50, _⟩ => ⟨S_, .f32⟩
  | .hbm, ⟨51, _⟩ => ⟨S50000x4, .f32⟩
  | .hbm, ⟨52, _⟩ => ⟨S800000x1, .i32⟩
  | .hbm, ⟨53, _⟩ => ⟨S50000x4, .f32⟩
  | .hbm, ⟨54, _⟩ => ⟨S50000x4, .f32⟩
  | .hbm, ⟨55, _⟩ => ⟨S50000x4, .f32⟩
  | .hbm, ⟨56, _⟩ => ⟨S1x256, .f32⟩
  | .hbm, ⟨57, _⟩ => ⟨S50000x256, .f32⟩
  | .hbm, ⟨58, _⟩ => ⟨S1x256, .f32⟩
  | .hbm, ⟨59, _⟩ => ⟨S1x256, .f32⟩
  | .hbm, ⟨60, _⟩ => ⟨S256, .f32⟩
  | .hbm, ⟨61, _⟩ => ⟨S256, .f32⟩
  | .hbm, ⟨62, _⟩ => ⟨S_, .f32⟩
  | .hbm, ⟨63, _⟩ => ⟨S256, .f32⟩
  | .hbm, ⟨64, _⟩ => ⟨S256, .f32⟩
  | .hbm, ⟨65, _⟩ => ⟨S_, .f32⟩
  | .hbm, ⟨66, _⟩ => ⟨S256, .f32⟩
  | .hbm, ⟨67, _⟩ => ⟨S256, .f32⟩
  | .hbm, ⟨68, _⟩ => ⟨S256, .f32⟩
  | .hbm, ⟨69, _⟩ => ⟨S256, .f32⟩
  | .hbm, ⟨70, _⟩ => ⟨S_, .f32⟩
  | .hbm, ⟨71, _⟩ => ⟨S256, .f32⟩
  | .hbm, ⟨72, _⟩ => ⟨S256, .f32⟩
  | .hbm, ⟨73, _⟩ => ⟨S256, .f32⟩
  | .hbm, ⟨74, _⟩ => ⟨S1x256, .f32⟩
  | .hbm, ⟨75, _⟩ => ⟨S1x256, .f32⟩
  | .hbm, ⟨76, _⟩ => ⟨S1x256, .f32⟩
  | .hbm, ⟨77, _⟩ => ⟨S1x256, .f32⟩
  | .hbm, ⟨78, _⟩ => ⟨S50000x256, .f32⟩
  | .hbm, ⟨79, _⟩ => ⟨S_, .i32⟩
  | .hbm, ⟨80, _⟩ => ⟨S800000, .i32⟩
  | .hbm, ⟨81, _⟩ => ⟨S800000, .i1⟩
  | .hbm, ⟨82, _⟩ => ⟨S_, .i32⟩
  | .hbm, ⟨83, _⟩ => ⟨S800000, .i32⟩
  | .hbm, ⟨84, _⟩ => ⟨S800000, .i32⟩
  | .hbm, ⟨85, _⟩ => ⟨S800000, .i32⟩
  | .hbm, ⟨86, _⟩ => ⟨S800000x1, .i32⟩
  | .hbm, ⟨87, _⟩ => ⟨S800000x256, .f32⟩
  | .hbm, ⟨88, _⟩ => ⟨S_, .f32⟩
  | .hbm, ⟨89, _⟩ => ⟨S50000x256, .f32⟩
  | .hbm, ⟨90, _⟩ => ⟨S800000x1, .i32⟩
  | .hbm, ⟨91, _⟩ => ⟨S50000x256, .f32⟩
  | .hbm, ⟨92, _⟩ => ⟨S50000x256, .f32⟩
  | .hbm, ⟨93, _⟩ => ⟨S50000x256, .f32⟩
  | .hbm, ⟨94, _⟩ => ⟨S1x256, .f32⟩
  | .hbm, ⟨95, _⟩ => ⟨S50000x256, .f32⟩
  | .hbm, ⟨96, _⟩ => ⟨S1x256, .f32⟩
  | .hbm, ⟨97, _⟩ => ⟨S1x256, .f32⟩
  | .hbm, ⟨98, _⟩ => ⟨S256, .f32⟩
  | .hbm, ⟨99, _⟩ => ⟨S256, .f32⟩
  | .hbm, ⟨100, _⟩ => ⟨S_, .f32⟩
  | .hbm, ⟨101, _⟩ => ⟨S256, .f32⟩
  | .hbm, ⟨102, _⟩ => ⟨S256, .f32⟩
  | .hbm, ⟨103, _⟩ => ⟨S_, .f32⟩
  | .hbm, ⟨104, _⟩ => ⟨S256, .f32⟩
  | .hbm, ⟨105, _⟩ => ⟨S256, .f32⟩
  | .hbm, ⟨106, _⟩ => ⟨S256, .f32⟩
  | .hbm, ⟨107, _⟩ => ⟨S256, .f32⟩
  | .hbm, ⟨108, _⟩ => ⟨S_, .f32⟩
  | .hbm, ⟨109, _⟩ => ⟨S256, .f32⟩
  | .hbm, ⟨110, _⟩ => ⟨S256, .f32⟩
  | .hbm, ⟨111, _⟩ => ⟨S256, .f32⟩
  | .hbm, ⟨112, _⟩ => ⟨S1x256, .f32⟩
  | .hbm, ⟨113, _⟩ => ⟨S1x256, .f32⟩
  | .hbm, ⟨114, _⟩ => ⟨S1x256, .f32⟩
  | .hbm, ⟨115, _⟩ => ⟨S1x256, .f32⟩
  | .hbm, ⟨116, _⟩ => ⟨S1x4, .f32⟩
  | .hbm, ⟨117, _⟩ => ⟨S50000x4, .f32⟩
  | .local _ .vmem, ⟨0, _⟩ => ⟨S2000x4, .f32⟩
  | .local _ .vmem, ⟨1, _⟩ => ⟨S2000x4, .f32⟩
  | .local _ .vmem, ⟨2, _⟩ => ⟨S2000x4, .f32⟩
  | .local _ .vmem, ⟨3, _⟩ => ⟨S2000x4, .f32⟩
  | .local _ .vmem, ⟨4, _⟩ => ⟨S256x4, .f32⟩
  | .local _ .vmem, ⟨5, _⟩ => ⟨S1x256, .f32⟩
  | .local _ .vmem, ⟨6, _⟩ => ⟨S256x4, .f32⟩
  | .local _ .vmem, ⟨7, _⟩ => ⟨S2000x256, .f32⟩
  | .local _ .vmem, ⟨8, _⟩ => ⟨S2000x256, .f32⟩
  | .local _ .vmem, ⟨9, _⟩ => ⟨S1x256, .f32⟩
  | .local _ .vmem, ⟨10, _⟩ => ⟨S1x256, .f32⟩
  | .local _ .vmem, ⟨11, _⟩ => ⟨S2000x256, .f32⟩
  | .local _ .vmem, ⟨12, _⟩ => ⟨S2000x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S256x256, .f32⟩
  | .local _ .vmem, ⟨24, _⟩ => ⟨S1x256, .f32⟩
  | .local _ .vmem, ⟨25, _⟩ => ⟨S256x256, .f32⟩
  | .local _ .vmem, ⟨26, _⟩ => ⟨S2000x256, .f32⟩
  | .local _ .vmem, ⟨27, _⟩ => ⟨S2000x256, .f32⟩
  | .local _ .vmem, ⟨28, _⟩ => ⟨S1x256, .f32⟩
  | .local _ .vmem, ⟨29, _⟩ => ⟨S1x256, .f32⟩
  | .local _ .vmem, ⟨30, _⟩ => ⟨S2000x256, .f32⟩
  | .local _ .vmem, ⟨31, _⟩ => ⟨S2000x256, .f32⟩
  | .local _ .vmem, ⟨32, _⟩ => ⟨S1x256, .f32⟩
  | .local _ .vmem, ⟨33, _⟩ => ⟨S1x256, .f32⟩
  | .local _ .vmem, ⟨34, _⟩ => ⟨S1x256, .f32⟩
  | .local _ .vmem, ⟨35, _⟩ => ⟨S1x256, .f32⟩
  | .local _ .vmem, ⟨36, _⟩ => ⟨S4x256, .f32⟩
  | .local _ .vmem, ⟨37, _⟩ => ⟨S1x4, .f32⟩
  | .local _ .vmem, ⟨38, _⟩ => ⟨S2000x4, .f32⟩
  | .local _ .vmem, ⟨39, _⟩ => ⟨S2000x4, .f32⟩
  | _, _ => ⟨S50000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_c_5 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_6 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32_0 : Ref sig .tc := ⟨.hbm, 57, rfl⟩
abbrev main_v32_1 : Ref sig .tc := ⟨.hbm, 58, rfl⟩
abbrev main_v32_2 : Ref sig .tc := ⟨.hbm, 59, rfl⟩
abbrev main_v33 : Ref sig .tc := ⟨.hbm, 60, rfl⟩
abbrev main_v34 : Ref sig .tc := ⟨.hbm, 61, rfl⟩
abbrev main_cst_7 : Ref sig .tc := ⟨.hbm, 62, rfl⟩
abbrev main_v35 : Ref sig .tc := ⟨.hbm, 63, rfl⟩
abbrev main_v36 : Ref sig .tc := ⟨.hbm, 64, rfl⟩
abbrev main_cst_8 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_9 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_c_10 : Ref sig .tc := ⟨.hbm, 79, rfl⟩
abbrev main_v49 : Ref sig .tc := ⟨.hbm, 80, rfl⟩
abbrev main_v50 : Ref sig .tc := ⟨.hbm, 81, rfl⟩
abbrev main_c_11 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_12 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62_0 : Ref sig .tc := ⟨.hbm, 95, rfl⟩
abbrev main_v62_1 : Ref sig .tc := ⟨.hbm, 96, rfl⟩
abbrev main_v62_2 : Ref sig .tc := ⟨.hbm, 97, rfl⟩
abbrev main_v63 : Ref sig .tc := ⟨.hbm, 98, rfl⟩
abbrev main_v64 : Ref sig .tc := ⟨.hbm, 99, rfl⟩
abbrev main_cst_13 : Ref sig .tc := ⟨.hbm, 100, rfl⟩
abbrev main_v65 : Ref sig .tc := ⟨.hbm, 101, rfl⟩
abbrev main_v66 : Ref sig .tc := ⟨.hbm, 102, rfl⟩
abbrev main_cst_14 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_cst_15 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg7_0 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg7_0 : Ref sig .tc := ⟨.vmem, 38, rfl⟩
abbrev cc3_stg7_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27
abbrev cc2_sem6_0 : DmaSem sig := 28
abbrev cc2_sem7_0 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem7_0 : DmaSem sig := 38
abbrev cc3_sem7_1 : DmaSem sig := 39

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S4x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x4 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2000x4 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S4 : S_.BroadcastsInDim S4 (![] : Fin 0 → Fin S4.rank)
  bcast_S4_S1x4_1 : S4.BroadcastsInDim S1x4 (![1] : Fin 1 → Fin S1x4.rank)
  bcast_S1x4_S50000x4_0_1 : S1x4.BroadcastsInDim S50000x4 (![0, 1] : Fin 2 → Fin S50000x4.rank)
  bcast_S_S50000x4 : S_.BroadcastsInDim S50000x4 (![] : Fin 0 → Fin S50000x4.rank)
  bcast_S50000x1_S50000x4_0_1 : S50000x1.BroadcastsInDim S50000x4 (![0, 1] : Fin 2 → Fin S50000x4.rank)
  shapeCasts_S256_S1x256 : S256.ShapeCasts S1x256
  inb_S1x256_S1x256_0_0 : ∀ a, (![0, 0] : Fin 2 → Nat) a + S1x256.size a ≤ S1x256.size a
  h_S1x256 : 0 < S1x256.numel
  inb_S2000x4_S2000x4_0_0 : ∀ a, (![0, 0] : Fin 2 → Nat) a + S2000x4.size a ≤ S2000x4.size a
  h_S2000x4 : 0 < S2000x4.numel
  shapeCasts_S2000x4_S2000x4 : S2000x4.ShapeCasts S2000x4
  bitsLt_bf16_f32 : FTy.bits .bf16 < FTy.bits .f32
  inb_S256x4_S256x4_0_0 : ∀ a, (![0, 0] : Fin 2 → Nat) a + S256x4.size a ≤ S256x4.size a
  h_S256x4 : 0 < S256x4.numel
  transposes_S256x4_p1_0_S4x256 : S256x4.Transposes [1, 0] S4x256
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  reduces_S2000x256_S256 : S2000x256.Reduces [0] S256
  shapeCasts_S1x256_S256 : S1x256.ShapeCasts S256
  bcast_S_S256 : S_.BroadcastsInDim S256 (![] : Fin 0 → Fin S256.rank)
  shapeCasts_S2000x256_S2000x256 : S2000x256.ShapeCasts S2000x256
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  inb_S256x256_S256x256_0_0 : ∀ a, (![0, 0] : Fin 2 → Nat) a + S256x256.size a ≤ S256x256.size a
  h_S256x256 : 0 < S256x256.numel
  transposes_S256x256_p1_0_S256x256 : S256x256.Transposes [1, 0] S256x256
  shapeCasts_S4_S1x4 : S4.ShapeCasts S1x4
  inb_S4x256_S4x256_0_0 : ∀ a, (![0, 0] : Fin 2 → Nat) a + S4x256.size a ≤ S4x256.size a
  h_S4x256 : 0 < S4x256.numel
  transposes_S4x256_p1_0_S256x4 : S4x256.Transposes [1, 0] S256x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S2000x4 : S1x4.Broadcasts S2000x4
  scatter_S50000_S800000x1_S800000_n_0_0_1_wf : ScatterDims.WF S50000 S800000x1 S800000 [] [0] [0] 1
  gather_S50000x4_S800000x1_S800000x4_1_0_n_n_0_1_14_wf : GatherDims.WF S50000x4 S800000x1 S800000x4 [1] [0] [] [0] [] 1 ![1, 4]
  scatter_S50000x4_S800000x1_S800000x4_1_0_0_1_wf : ScatterDims.WF S50000x4 S800000x1 S800000x4 [1] [0] [0] 1
  dot_S2000x4_S4x256_S2000x256_1_0_0_1_n_n_wf : DotDims.WF S2000x4 S4x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S2000x256_S256x4_S2000x4_1_0_0_1_n_n_wf : DotDims.WF S2000x256 S256x4 S2000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x4.size a ≤ S50000x4.size a
  hwx0_0 : ∀ i : grid0.Coords, EltTy.bits .f32 = 32 ∨ (Rect.block (s := S50000x4) S2000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x4.size a ≤ S50000x4.size a
  hwx0_1 : ∀ i : grid0.Coords, EltTy.bits .f32 = 32 ∨ (Rect.block (s := S50000x4) S2000x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x4.size a ≤ S256x4.size a
  hwx0_2 : ∀ i : grid0.Coords, EltTy.bits .f32 = 32 ∨ (Rect.block (s := S256x4) S256x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x4.size a ≤ S256x4.size a
  hwx0_4 : ∀ i : grid0.Coords, EltTy.bits .f32 = 32 ∨ (Rect.block (s := S256x4) S256x4.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S4x256.size a ≤ S4x256.size a
  hwx3_5 : ∀ i : grid3.Coords, EltTy.bits .f32 = 32 ∨ (Rect.block (s := S4x256) S4x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x4.size a ≤ S1x4.size a
  hwx3_6 : ∀ i : grid3.Coords, EltTy.bits .f32 = 32 ∨ (Rect.block (s := S1x4) S1x4.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x4.size a ≤ S50000x4.size a
  hwx3_7 : ∀ i : grid3.Coords, EltTy.bits .f32 = 32 ∨ (Rect.block (s := S50000x4) S2000x4.size (cc3_transform_7 i) (hinb3_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x4_S800000x1_S800000x4_1_0_n_n_0_1_14 : GatherDims S50000x4 S800000x1 S800000x4 where
  offsetDims := [1]
  collapsedSliceDims := [0]
  operandBatchingDims := []
  startIndicesBatchingDims := []
  startIndexMap := [0]
  indexVectorDim := 1
  sliceSizes := ![1, 4]
  wf := gather_S50000x4_S800000x1_S800000x4_1_0_n_n_0_1_14_wf
def scatter_S50000x4_S800000x1_S800000x4_1_0_0_1 : ScatterDims S50000x4 S800000x1 S800000x4 where
  updateWindowDims := [1]
  insertedWindowDims := [0]
  scatterDimsToOperandDims := [0]
  indexVectorDim := 1
  wf := scatter_S50000x4_S800000x1_S800000x4_1_0_0_1_wf
def dot_S2000x4_S4x256_S2000x256_1_0_0_1_n_n : DotDims S2000x4 S4x256 S2000x256 where
  lhsContracting := [1]
  rhsContracting := [0]
  lhsNonContracting := [0]
  rhsNonContracting := [1]
  lhsBatch := []
  rhsBatch := []
  wf := dot_S2000x4_S4x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x4_S2000x4_1_0_0_1_n_n : DotDims S2000x256 S256x4 S2000x4 where
  lhsContracting := [1]
  rhsContracting := [0]
  lhsNonContracting := [0]
  rhsNonContracting := [1]
  lhsBatch := []
  rhsBatch := []
  wf := dot_S2000x256_S256x4_S2000x4_1_0_0_1_n_n_wf

abbrev win0_0 : Pipeline.Window sig grid0 :=
  Pipeline.Window.ofSpec (Memref.whole main_v30) S2000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x4.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32_0) S2000x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v32_1) S1x256.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v32_2) S1x256.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v32_0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v60) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62_0) S2000x256.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v62_1) S1x256.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v62_2) S1x256.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v62_0) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v75) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v76) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v77) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg12) S4x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v78) S1x4.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v79) S2000x4.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S50000x4 : Shape := ⟨2, ![50000, 4]⟩
abbrev S2x800000 : Shape := ⟨2, ![2, 800000]⟩
abbrev S256x4 : Shape := ⟨2, ![256, 4]⟩
abbrev S256 : Shape := ⟨1, ![256]⟩
abbrev S256x256 : Shape := ⟨2, ![256, 256]⟩
abbrev S4x256 : Shape := ⟨2, ![4, 256]⟩
abbrev S4 : Shape := ⟨1, ![4]⟩
abbrev S1x800000 : Shape := ⟨2, ![1, 800000]⟩
abbrev S800000 : Shape := ⟨1, ![800000]⟩
abbrev S_ : Shape := ⟨0, ![]⟩
abbrev S1x4 : Shape := ⟨2, ![1, 4]⟩
abbrev S800000x1 : Shape := ⟨2, ![800000, 1]⟩
abbrev S800000x4 : Shape := ⟨2, ![800000, 4]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩

abbrev nBuf : Space → Nat
  | .hbm => 168
  | .vmem => 0
  | .smem => 0
  | _ => 0

abbrev hbmTy0_0 (i : Nat) : BufTy := match i % 128 with
  | 0 => ⟨S50000x4, .f32⟩
  | 1 => ⟨S2x800000, .i32⟩
  | 2 => ⟨S256x4, .f32⟩
  | 3 => ⟨S256, .f32⟩
  | 4 => ⟨S256x4, .f32⟩
  | 5 => ⟨S256, .f32⟩
  | 6 => ⟨S256, .f32⟩
  | 7 => ⟨S256x256, .f32⟩
  | 8 => ⟨S256, .f32⟩
  | 9 => ⟨S256x256, .f32⟩
  | 10 => ⟨S256, .f32⟩
  | 11 => ⟨S256, .f32⟩
  | 12 => ⟨S4x256, .f32⟩
  | 13 => ⟨S4, .f32⟩
  | 14 => ⟨S1x800000, .i32⟩
  | 15 => ⟨S800000, .i32⟩
  | 16 => ⟨S1x800000, .i32⟩
  | 17 => ⟨S800000, .i32⟩
  | 18 => ⟨S4, .i32⟩
  | 19 => ⟨S_, .i32⟩
  | 20 => ⟨S4, .i32⟩
  | 21 => ⟨S4, .i1⟩
  | 22 => ⟨S_, .f32⟩
  | 23 => ⟨S_, .f32⟩
  | 24 => ⟨S4, .f32⟩
  | 25 => ⟨S4, .f32⟩
  | 26 => ⟨S4, .f32⟩
  | 27 => ⟨S4, .f32⟩
  | 28 => ⟨S1x4, .f32⟩
  | 29 => ⟨S50000x4, .f32⟩
  | 30 => ⟨S50000x4, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x4, .f32⟩
  | 40 => ⟨S_, .f32⟩
  | 41 => ⟨S50000x4, .f32⟩
  | 42 => ⟨S800000x1, .i32⟩
  | 43 => ⟨S50000x4, .f32⟩
  | 44 => ⟨S_, .f32⟩
  | 45 => ⟨S800000, .f32⟩
  | 46 => ⟨S_, .f32⟩
  | 47 => ⟨S50000, .f32⟩
  | 48 => ⟨S800000x1, .i32⟩
  | 49 => ⟨S50000, .f32⟩
  | 50 => ⟨S_, .f32⟩
  | 51 => ⟨S50000, .f32⟩
  | 52 => ⟨S50000, .f32⟩
  | 53 => ⟨S50000x1, .f32⟩
  | 54 => ⟨S50000x4, .f32⟩
  | 55 => ⟨S50000x4, .f32⟩
  | 56 => ⟨S4x256, .f32⟩
  | 57 => ⟨S50000x256, .f32⟩
  | 58 => ⟨S1x256, .f32⟩
  | 59 => ⟨S50000x256, .f32⟩
  | 60 => ⟨S50000x256, .f32⟩
  | 61 => ⟨S4x256, .f32⟩
  | 62 => ⟨S50000x256, .f32⟩
  | 63 => ⟨S50000x256, .f32⟩
  | 64 => ⟨S_, .f32⟩
  | 65 => ⟨S256, .f32⟩
  | 66 => ⟨S_, .f32⟩
  | 67 => ⟨S256, .f32⟩
  | 68 => ⟨S256, .f32⟩
  | 69 => ⟨S1x256, .f32⟩
  | 70 => ⟨S50000x256, .f32⟩
  | 71 => ⟨S50000x256, .f32⟩
  | 72 => ⟨S50000x256, .f32⟩
  | 73 => ⟨S_, .f32⟩
  | 74 => ⟨S256, .f32⟩
  | 75 => ⟨S_, .f32⟩
  | 76 => ⟨S256, .f32⟩
  | 77 => ⟨S256, .f32⟩
  | 78 => ⟨S1x256, .f32⟩
  | 79 => ⟨S50000x256, .f32⟩
  | 80 => ⟨S50000x256, .f32⟩
  | 81 => ⟨S_, .f32⟩
  | 82 => ⟨S256, .f32⟩
  | 83 => ⟨S256, .f32⟩
  | 84 => ⟨S256, .f32⟩
  | 85 => ⟨S1x256, .f32⟩
  | 86 => ⟨S50000x256, .f32⟩
  | 87 => ⟨S50000x256, .f32⟩
  | 88 => ⟨S1x256, .f32⟩
  | 89 => ⟨S50000x256, .f32⟩
  | 90 => ⟨S50000x256, .f32⟩
  | 91 => ⟨S1x256, .f32⟩
  | 92 => ⟨S50000x256, .f32⟩
  | 93 => ⟨S50000x256, .f32⟩
  | 94 => ⟨S_, .f32⟩
  | 95 => ⟨S50000x256, .f32⟩
  | 96 => ⟨S50000x256, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x256, .f32⟩
  | 106 => ⟨S_, .f32⟩
  | 107 => ⟨S50000x256, .f32⟩
  | 108 => ⟨S800000x1, .i32⟩
  | 109 => ⟨S50000x256, .f32⟩
  | 110 => ⟨S_, .f32⟩
  | 111 => ⟨S800000, .f32⟩
  | 112 => ⟨S_, .f32⟩
  | 113 => ⟨S50000, .f32⟩
  | 114 => ⟨S800000x1, .i32⟩
  | 115 => ⟨S50000, .f32⟩
  | 116 => ⟨S_, .f32⟩
  | 117 => ⟨S50000, .f32⟩
  | 118 => ⟨S50000, .f32⟩
  | 119 => ⟨S50000x1, .f32⟩
  | 120 => ⟨S50000x256, .f32⟩
  | 121 => ⟨S50000x256, .f32⟩
  | 122 => ⟨S256x256, .f32⟩
  | 123 => ⟨S50000x256, .f32⟩
  | 124 => ⟨S1x256, .f32⟩
  | 125 => ⟨S50000x256, .f32⟩
  | 126 => ⟨S50000x256, .f32⟩
  | 127 => ⟨S256x256, .f32⟩
  | _ => ⟨S50000x4, .f32⟩

abbrev hbmTy0_1 (i : Nat) : BufTy := match i % 128 with
  | 0 => ⟨S50000x256, .f32⟩
  | 1 => ⟨S50000x256, .f32⟩
  | 2 => ⟨S_, .f32⟩
  | 3 => ⟨S256, .f32⟩
  | 4 => ⟨S_, .f32⟩
  | 5 => ⟨S256, .f32⟩
  | 6 => ⟨S256, .f32⟩
  | 7 => ⟨S1x256, .f32⟩
  | 8 => ⟨S50000x256, .f32⟩
  | 9 => ⟨S50000x256, .f32⟩
  | 10 => ⟨S50000x256, .f32⟩
  | 11 => ⟨S_, .f32⟩
  | 12 => ⟨S256, .f32⟩
  | 13 => ⟨S_, .f32⟩
  | 14 => ⟨S256, .f32⟩
  | 15 => ⟨S256, .f32⟩
  | 16 => ⟨S1x256, .f32⟩
  | 17 => ⟨S50000x256, .f32⟩
  | 18 => ⟨S50000x256, .f32⟩
  | 19 => ⟨S_, .f32⟩
  | 20 => ⟨S256, .f32⟩
  | 21 => ⟨S256, .f32⟩
  | 22 => ⟨S256, .f32⟩
  | 23 => ⟨S1x256, .f32⟩
  | 24 => ⟨S50000x256, .f32⟩
  | 25 => ⟨S50000x256, .f32⟩
  | 26 => ⟨S1x256, .f32⟩
  | 27 => ⟨S50000x256, .f32⟩
  | 28 => ⟨S50000x256, .f32⟩
  | 29 => ⟨S1x256, .f32⟩
  | 30 => ⟨S50000x256, .f32⟩
  | 31 => ⟨S50000x256, .f32⟩
  | 32 => ⟨S_, .f32⟩
  | 33 => ⟨S50000x256, .f32⟩
  | 34 => ⟨S50000x256, .f32⟩
  | 35 => ⟨S256x4, .f32⟩
  | 36 => ⟨S50000x4, .f32⟩
  | 37 => ⟨S1x4, .f32⟩
  | 38 => ⟨S50000x4, .f32⟩
  | 39 => ⟨S50000x4, .f32⟩
  | _ => ⟨S50000x4, .f32⟩

abbrev hbmTy (i : Nat) : BufTy := match i / 128 with
  | 0 => hbmTy0_0 i
  | 1 => hbmTy0_1 i
  | _ => ⟨S50000x4, .f32⟩

abbrev bufTy : (tb : Table) → Fin (tcTables nBuf tb) → BufTy
  | .hbm, ⟨i, _⟩ => hbmTy i
  | _, _ => ⟨S50000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c_1 : Ref sig .tc := ⟨.hbm, 31, rfl⟩
abbrev main_v12 : Ref sig .tc := ⟨.hbm, 32, rfl⟩
abbrev main_v13 : Ref sig .tc := ⟨.hbm, 33, rfl⟩
abbrev main_c_2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_3 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_4 : Ref sig .tc := ⟨.hbm, 44, rfl⟩
abbrev main_v22 : Ref sig .tc := ⟨.hbm, 45, rfl⟩
abbrev main_cst_5 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_6 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_7 : Ref sig .tc := ⟨.hbm, 64, rfl⟩
abbrev main_v39 : Ref sig .tc := ⟨.hbm, 65, rfl⟩
abbrev main_cst_8 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_9 : Ref sig .tc := ⟨.hbm, 73, rfl⟩
abbrev main_v46 : Ref sig .tc := ⟨.hbm, 74, rfl⟩
abbrev main_cst_10 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_11 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_call1_cst : Ref sig .tc := ⟨.hbm, 94, rfl⟩
abbrev main_call1_v0 : Ref sig .tc := ⟨.hbm, 95, rfl⟩
abbrev main_v64 : Ref sig .tc := ⟨.hbm, 96, rfl⟩
abbrev main_c_12 : Ref sig .tc := ⟨.hbm, 97, rfl⟩
abbrev main_v65 : Ref sig .tc := ⟨.hbm, 98, rfl⟩
abbrev main_v66 : Ref sig .tc := ⟨.hbm, 99, rfl⟩
abbrev main_c_13 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_14 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_15 : Ref sig .tc := ⟨.hbm, 110, rfl⟩
abbrev main_v75 : Ref sig .tc := ⟨.hbm, 111, rfl⟩
abbrev main_cst_16 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_17 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_18 : Ref sig .tc := ⟨.hbm, 130, rfl⟩
abbrev main_v92 : Ref sig .tc := ⟨.hbm, 131, rfl⟩
abbrev main_cst_19 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_cst_20 : Ref sig .tc := ⟨.hbm, 139, rfl⟩
abbrev main_v99 : Ref sig .tc := ⟨.hbm, 140, rfl⟩
abbrev main_cst_21 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_cst_22 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_call2_cst : Ref sig .tc := ⟨.hbm, 160, rfl⟩
abbrev main_call2_v0 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S4 : S_.BroadcastsInDim S4 (![] : Fin 0 → Fin S4.rank)
  bcast_S4_S1x4_1 : S4.BroadcastsInDim S1x4 (![1] : Fin 1 → Fin S1x4.rank)
  bcast_S1x4_S50000x4_0_1 : S1x4.BroadcastsInDim S50000x4 (![0, 1] : Fin 2 → Fin S50000x4.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x4 : S_.BroadcastsInDim S50000x4 (![] : Fin 0 → Fin S50000x4.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x4_0_1 : S50000x1.BroadcastsInDim S50000x4 (![0, 1] : Fin 2 → Fin S50000x4.rank)
  transposes_S256x4_S4x256_1_0 : S256x4.Transposes [1, 0] S4x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S256x256_S256x256_1_0 : S256x256.Transposes [1, 0] S256x256
  transposes_S4x256_S256x4_1_0 : S4x256.Transposes [1, 0] S256x4
  gather_S50000x4_S800000x1_S800000x4_1_0_n_n_0_1_14_wf : GatherDims.WF S50000x4 S800000x1 S800000x4 [1] [0] [] [0] [] 1 ![1, 4]
  scatter_S50000x4_S800000x1_S800000x4_1_0_0_1_wf : ScatterDims.WF S50000x4 S800000x1 S800000x4 [1] [0] [0] 1
  scatter_S50000_S800000x1_S800000_n_0_0_1_wf : ScatterDims.WF S50000 S800000x1 S800000 [] [0] [0] 1
  dot_S50000x4_S4x256_S50000x256_1_0_0_1_n_n_wf : DotDims.WF S50000x4 S4x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x4_S50000x4_1_0_0_1_n_n_wf : DotDims.WF S50000x256 S256x4 S50000x4 [1] [0] [0] [1] [] []

variable [Facts₀]

def gather_S50000x4_S800000x1_S800000x4_1_0_n_n_0_1_14 : GatherDims S50000x4 S800000x1 S800000x4 where
  offsetDims := [1]
  collapsedSliceDims := [0]
  operandBatchingDims := []
  startIndicesBatchingDims := []
  startIndexMap := [0]
  indexVectorDim := 1
  sliceSizes := ![1, 4]
  wf := gather_S50000x4_S800000x1_S800000x4_1_0_n_n_0_1_14_wf
def scatter_S50000x4_S800000x1_S800000x4_1_0_0_1 : ScatterDims S50000x4 S800000x1 S800000x4 where
  updateWindowDims := [1]
  insertedWindowDims := [0]
  scatterDimsToOperandDims := [0]
  indexVectorDim := 1
  wf := scatter_S50000x4_S800000x1_S800000x4_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x4_S4x256_S50000x256_1_0_0_1_n_n : DotDims S50000x4 S4x256 S50000x256 where
  lhsContracting := [1]
  rhsContracting := [0]
  lhsNonContracting := [0]
  rhsNonContracting := [1]
  lhsBatch := []
  rhsBatch := []
  wf := dot_S50000x4_S4x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x4_S50000x4_1_0_0_1_n_n : DotDims S50000x256 S256x4 S50000x4 where
  lhsContracting := [1]
  rhsContracting := [0]
  lhsNonContracting := [0]
  rhsNonContracting := [1]
  lhsBatch := []
  rhsBatch := []
  wf := dot_S50000x256_S256x4_S50000x4_1_0_0_1_n_n_wf

class Facts : Prop extends Facts₀ where

variable [Facts]
-- ==== Proof.RunBoundary.lean ====
/-
  The idealized kernel's run, with its result named. The program is ten segments — stretches of host operations and
  four kernel regions — and the run of the segments carries the contents of every buffer from one boundary to the
  next: `W0` is the launch memory, a host stretch applies its operations (`StableHlo.after`), a region replaces the
  arrays of its windows by what its write-backs leave. Every execution ends with each buffer at the last boundary's
  contents `W10`; read at the result buffer this names the program's result, and read at an argument it is the
  launch contents.
-/
import proofs.«138899_j10342281249011_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from `m` terminates, nothing faulting, with the result buffer at the
    last boundary's contents and every argument array as launched. -/
theorem run_boundary : θ_run defs (onTc (τ := τ) (main (F := F))) ⟨m, fun _ => 0, ρ⟩ (fun r => ∀ c : Dev nD,
      r.2.mem ((c.tc : Thread nD τ).loc main_v79) = W10 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v79 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c)⟩)

end Cert.KernelIdeal.RunValue

end
-- ==== Proof.Spec.lean ====
/-
  The specification both programs are measured against: a two-layer graph network on 50000 nodes, written as
  pure functions of arrays of extended reals, entry by entry.

  One layer: the node features `h` and their neighbourhood aggregate `agg h` (a fixed function of the features —
  a gather along the edges' sources, a sum into the edges' targets, a division by the in-degree; it is a parameter
  here) go through two linear maps and a bias (`lin`); each of the 256 columns of the result is normalised by its
  mean over the 50000 rows (`mu`) and its variance, scaled and shifted, and clipped below at zero (`bnrelu`).
  After two layers a last linear map to four columns (`head`).

  The variance of a column is a parameter `var` of the whole network (`out`), because the two programs compute
  it in two ways: as the mean of the squared deviations from the mean (`varDev`), and as the mean of the squares
  minus the square of the mean (`varMom`). Over the reals these agree; on extended reals they agree when the
  column is finite, which is the one law the certificate needs.
-/
import Idealize.ShloMosaic.PureOps.Ideal
import Idealize.ShloMosaic.Lib.ValueIdx

noncomputable section

namespace Cert.Spec

open Idealize.ShloMosaic Idealize.ShloMosaic.ValueIdx

/-- A matrix of extended reals with `a` rows and `b` columns, as a function of its two-coordinate index. -/
abbrev Mat (a b : Nat) : Type := (⟨2, ![a, b]⟩ : Shape).Idx → EReal
/-- A vector of extended reals of length `a`. -/
abbrev Vc (a : Nat) : Type := (⟨1, ![a]⟩ : Shape).Idx → EReal

/-- The matrix whose entry at row `p`, column `q` is `f p q`. -/
def mk2 {a b : Nat} (f : Fin a → Fin b → EReal) : Mat a b := fun j => f (j 0) (j 1)

theorem mk2_ix2 {a b : Nat} (f : Fin a → Fin b → EReal) (p : Fin a) (q : Fin b) : mk2 f (ix2 p q) = f p q := rfl

/-- The number of rows, 50000, as the float word both programs divide by. -/
def nF : EReal := Ideal.ofBits .f32 0x47435000#32
/-- The stabiliser added to a variance, as the float word both programs add. -/
def epsF : EReal := Ideal.ofBits .f32 0x3727C5AC#32
/-- The float zero word. -/
def zeroF : EReal := Ideal.ofBits .f32 0x00000000#32

/-- Two linear maps and a bias: entry (p, q) is
    (sum over k of m(p,k)·Wl(q,k)) + bl(q) + (sum over k of s(p,k)·Wr(q,k)). -/
def lin {K : Nat} (m s : Mat 50000 K) (Wl Wr : Mat 256 K) (bl : Vc 256) : Mat 50000 256 :=
  mk2 fun p q => (∑ k : Fin K, m (ix2 p k) * Wl (ix2 q k)) + bl (ix1 q) + (∑ k : Fin K, s (ix2 p k) * Wr (ix2 q k))

/-- The sum of column `q` over the 50000 rows. -/
def colSum (a : Mat 50000 256) (q : Fin 256) : EReal := ∑ p : Fin 50000, a (ix2 p q)

/-- The mean of column `q`. -/
def mu (a : Mat 50000 256) (q : Fin 256) : EReal := Ideal.div (colSum a q) nF

/-- The variance of column `q` as the mean of the squared deviations from the column's mean. -/
def varDev (a : Mat 50000 256) (q : Fin 256) : EReal :=
  Ideal.div (∑ p : Fin 50000, (a (ix2 p q) - mu a q) * (a (ix2 p q) - mu a q)) nF

/-- The variance of column `q` as the mean of the squares minus the square of the mean. -/
def varMom (a : Mat 50000 256) (q : Fin 256) : EReal :=
  Ideal.div (∑ p : Fin 50000, a (ix2 p q) * a (ix2 p q)) nF - mu a q * mu a q

/-- The reciprocal standard deviation of a column from its variance. -/
def istd (v : Fin 256 → EReal) (q : Fin 256) : EReal := Ideal.rsqrt (v q + epsF)

/-- Normalise each column by a mean `mn` and a reciprocal deviation `sd`, scale by `g`, shift by `b`, clip at zero. -/
def bnrelu (a : Mat 50000 256) (mn sd : Fin 256 → EReal) (g b : Vc 256) : Mat 50000 256 :=
  mk2 fun p q => max ((a (ix2 p q) - mn q) * sd q * g (ix1 q) + b (ix1 q)) zeroF

/-- One whole layer from the features `h` and their aggregate `ag`, with the variance computed by `var`. -/
def layer {K : Nat} (var : Mat 50000 256 → Fin 256 → EReal) (ag h : Mat 50000 K) (Wl Wr : Mat 256 K) (bl g b : Vc 256) :
    Mat 50000 256 :=
  bnrelu (lin ag h Wl Wr bl) (mu (lin ag h Wl Wr bl)) (istd (var (lin ag h Wl Wr bl))) g b

/-- The last linear map: entry (p, c) is (sum over k of h(p,k)·Wo(c,k)) + bo(c). -/
def head (h : Mat 50000 256) (Wo : Mat 4 256) (bo : Vc 4) : Mat 50000 4 :=
  mk2 fun p c => (∑ k : Fin 256, h (ix2 p k) * Wo (ix2 c k)) + bo (ix1 c)

/-- The network: two layers over the scaled input `h0`, then the head. `agg4` and `agg256` are the neighbourhood
    aggregate on 4 and on 256 feature columns; `var` is how a column's variance is computed. -/
def out (var : Mat 50000 256 → Fin 256 → EReal) (agg4 : Mat 50000 4 → Mat 50000 4) (agg256 : Mat 50000 256 → Mat 50000 256)
    (h0 : Mat 50000 4) (W1l W1r : Mat 256 4) (b1l g1 be1 : Vc 256) (W2l W2r : Mat 256 256) (b2l g2 be2 : Vc 256)
    (Wo : Mat 4 256) (bo : Vc 4) : Mat 50000 4 :=
  head (layer var (agg256 (layer var (agg4 h0) h0 W1l W1r b1l g1 be1)) (layer var (agg4 h0) h0 W1l W1r b1l g1 be1)
    W2l W2r b2l g2 be2) Wo bo

end Cert.Spec

end
-- ==== Proof.Agg.lean ====
/-
  The host side of one layer, as functions of arrays of extended reals, written with the kernel program's own
  operations.

  `h0 x`: the input with its first three columns multiplied by 1000 (a column mask `iota < 3` selects 1000 or 1).
  `srcIdx e`, `dstIdx e`: the edges' source and target node numbers, rows 0 and 1 of the edge array, laid as one
  column; a negative source is moved up by 50000 first.
  `deg e`: the in-degree of each node, a scatter-add of ones into the targets, clipped below at 1.
  `agg4 e h`, `agg256 e h`: the neighbourhood mean of the rows of `h` — gather the rows at the sources, add them
  into the targets from zero, divide each row by the node's clipped in-degree.
-/
import proofs.«138899_j10342281249011_1_alg».proof.KernelIdeal
import proofs.«138899_j10342281249011_1_alg».proof.Proof.Gen.KernelIdeal
import proofs.«138899_j10342281249011_1_alg».proof.Proof.Spec

noncomputable section

namespace Cert.Bridge

open Idealize.ShloMosaic Cert.KernelIdeal Cert.KernelIdeal.Gen

/-- The edge array: two rows of 800000 node numbers. -/
abbrev Edges : Type := (⟨S2x800000, .i32⟩ : BufTy).Contents (Elt Ideal)

/-- The column scale: 1000 on columns 0, 1, 2 and 1 on column 3. -/
def colScale : (⟨S4, .f32⟩ : BufTy).Contents (Elt Ideal) :=
  select (cmpi .slt (iotaInDim S4 32 0) (broadcastInDim S4 ![] bcast_S_S4 (constantI S_ 32 3#32)))
    (broadcastInDim S4 ![] bcast_S_S4 (constant (F := Ideal) S_ .f32 0x447A0000#32))
    (broadcastInDim S4 ![] bcast_S_S4 (constant (F := Ideal) S_ .f32 0x3F800000#32))

/-- The scaled input. -/
def h0 (x : Spec.Mat 50000 4) : Spec.Mat 50000 4 :=
  mulf (F := Ideal) (s := S50000x4) (φ := .f32) x
    (broadcastInDim S50000x4 ![0, 1] bcast_S1x4_S50000x4_0_1 (broadcastInDim S1x4 ![1] bcast_S4_S1x4_1 (id colScale)))

/-- Row `r` of the edge array as a vector of 800000 node numbers. -/
def srcRow (e : Edges) : (⟨S800000, .i32⟩ : BufTy).Contents (Elt Ideal) :=
  shapeCast S800000 (extractStridedSlice S1x800000 ![0, 0] e slices_S2x800000_S1x800000_0_0) shapeCasts_S1x800000_S800000
def dstRow (e : Edges) : (⟨S800000, .i32⟩ : BufTy).Contents (Elt Ideal) :=
  shapeCast S800000 (extractStridedSlice S1x800000 ![1, 0] e slices_S2x800000_S1x800000_1_0) shapeCasts_S1x800000_S800000

/-- The sources as one column, a negative number moved up by 50000. -/
def srcIdx (e : Edges) : (⟨S800000x1, .i32⟩ : BufTy).Contents (Elt Ideal) :=
  broadcastInDim S800000x1 ![0] bcast_S800000_S800000x1_0
    (select (cmpi .slt (srcRow e) (broadcastInDim S800000 ![] bcast_S_S800000 (constantI S_ 32 0#32)))
      (addi (srcRow e) (broadcastInDim S800000 ![] bcast_S_S800000 (constantI S_ 32 50000#32))) (srcRow e))

/-- The targets as one column. -/
def dstIdx (e : Edges) : (⟨S800000x1, .i32⟩ : BufTy).Contents (Elt Ideal) :=
  broadcastInDim S800000x1 ![0] bcast_S800000_S800000x1_0 (dstRow e)

/-- The in-degree clipped below at 1, as one column. -/
def deg (e : Edges) : (⟨S50000x1, .f32⟩ : BufTy).Contents (Elt Ideal) :=
  broadcastInDim S50000x1 ![0] bcast_S50000_S50000x1_0
    (maximumf (F := Ideal)
      (Host.scatterAdd (F := Ideal) scatter_S50000_S800000x1_S800000_n_0_0_1
        (broadcastInDim S50000 ![] bcast_S_S50000 (constant (F := Ideal) S_ .f32 0x00000000#32)) (dstIdx e)
        (broadcastInDim S800000 ![] bcast_S_S800000 (constant (F := Ideal) S_ .f32 0x3F800000#32)))
      (broadcastInDim S50000 ![] bcast_S_S50000 (constant (F := Ideal) S_ .f32 0x3F800000#32)))

/-- The neighbourhood mean on 4 feature columns. -/
def agg4 (e : Edges) (h : Spec.Mat 50000 4) : Spec.Mat 50000 4 :=
  Host.divf (F := Ideal) (s := S50000x4) (φ := .f32)
    (Host.scatterAdd (F := Ideal) scatter_S50000x4_S800000x1_S800000x4_1_0_0_1
      (broadcastInDim S50000x4 ![] bcast_S_S50000x4 (constant (F := Ideal) S_ .f32 0x00000000#32)) (dstIdx e)
      (Host.gather gather_S50000x4_S800000x1_S800000x4_1_0_n_n_0_1_14 h (srcIdx e)))
    (broadcastInDim S50000x4 ![0, 1] bcast_S50000x1_S50000x4_0_1 (deg e))

/-- The neighbourhood mean on 256 feature columns. -/
def agg256 (e : Edges) (h : Spec.Mat 50000 256) : Spec.Mat 50000 256 :=
  Host.divf (F := Ideal) (s := S50000x256) (φ := .f32)
    (Host.scatterAdd (F := Ideal) scatter_S50000x256_S800000x1_S800000x256_1_0_0_1
      (broadcastInDim S50000x256 ![] bcast_S_S50000x256 (constant (F := Ideal) S_ .f32 0x00000000#32)) (dstIdx e)
      (Host.gather gather_S50000x256_S800000x1_S800000x256_1_0_n_n_0_1_1256 h (srcIdx e)))
    (broadcastInDim S50000x256 ![0, 1] bcast_S50000x1_S50000x256_0_1 (deg e))

end Cert.Bridge

end
-- ==== Proof.ChainTypes.lean ====
/-
  The contents of the idealized kernel's buffers, boundary by boundary, as the specification's functions of the
  argument arrays.

  Before region 0 the host stretches leave the scaled input, its neighbourhood mean, the weights and the bias row.
  Region 0 leaves the first layer's linear output and the sums over the rows of each of its columns and of their
  squares. The next stretch divides the sums by the number of rows, forms the variance as the mean of the squares
  minus the square of the mean, and takes the reciprocal square root; region 1 normalises, scales, shifts and
  clips. The same again for the second layer (regions 2 and 3, region 3 also applying the last linear map).
  What each region leaves is a hypothesis here (one statement per region, for any contents at its entry); this
  module only follows the values from one boundary to the next.
-/
import proofs.«138899_j10342281249011_1_alg».proof.Proof.Gen.KernelIdeal.Frame
import proofs.«138899_j10342281249011_1_alg».proof.Proof.Agg
import Idealize.ShloMosaic.Lib.StableHlo.Run
import Idealize.ShloMosaic.Lib.Tactic
import Idealize.ShloMosaic.Lib.ValueLayout

set_option maxRecDepth 16384

noncomputable section

namespace Cert.KernelIdeal.Chain

open Cert.KernelIdeal Cert.KernelIdeal.Gen Cert.Spec Cert.Bridge
open Idealize.ShloMosaic Idealize.ShloMosaic.TcCoe Idealize.ShloMosaic.Tactic Idealize.ShloMosaic.ValueIdx
open Idealize.ShloMosaic.StableHlo Idealize.SL.Sem

/-- What a region leaves, for any contents `V` at its entry: the statements of the four regions' values. -/
structure RegionValues : Prop where
  r0_lin : ∀ (V : (c : Dev nD) → (b : Ref sig .tc) → Buf (Elt Ideal) ((c : Thread nD τ).loc b)) (c : Dev nD),
    (dat0 (F := Ideal) V c).arrAt 5 cfg0.N
      = Spec.lin (V c main_v30) (V c main_v18) (V c main_arg2) (V c main_arg4) (fun i => V c main_v31 (ix2 0 (i 0)))
  r0_sum : ∀ (V : (c : Dev nD) → (b : Ref sig .tc) → Buf (Elt Ideal) ((c : Thread nD τ).loc b)) (c : Dev nD),
    (dat0 (F := Ideal) V c).arrAt 6 cfg0.N
      = fun j => Spec.colSum (Spec.lin (V c main_v30) (V c main_v18) (V c main_arg2) (V c main_arg4)
          (fun i => V c main_v31 (ix2 0 (i 0)))) (j 1)
  r0_sq : ∀ (V : (c : Dev nD) → (b : Ref sig .tc) → Buf (Elt Ideal) ((c : Thread nD τ).loc b)) (c : Dev nD),
    (dat0 (F := Ideal) V c).arrAt 7 cfg0.N
      = fun j => ∑ p : Fin 50000,
          Spec.lin (V c main_v30) (V c main_v18) (V c main_arg2) (V c main_arg4) (fun i => V c main_v31 (ix2 0 (i 0))) (ix2 p (j 1))
          * Spec.lin (V c main_v30) (V c main_v18) (V c main_arg2) (V c main_arg4) (fun i => V c main_v31 (ix2 0 (i 0))) (ix2 p (j 1))
  r1 : ∀ (V : (c : Dev nD) → (b : Ref sig .tc) → Buf (Elt Ideal) ((c : Thread nD τ).loc b)) (c : Dev nD),
    (dat1 (F := Ideal) V c).arrAt 5 cfg1.N
      = Spec.bnrelu (V c main_v32_0) (fun q => V c main_v44 (ix2 0 q)) (fun q => V c main_v45 (ix2 0 q))
          (fun i => V c main_v46 (ix2 0 (i 0))) (fun i => V c main_v47 (ix2 0 (i 0)))
  r2_lin : ∀ (V : (c : Dev nD) → (b : Ref sig .tc) → Buf (Elt Ideal) ((c : Thread nD τ).loc b)) (c : Dev nD),
    (dat2 (F := Ideal) V c).arrAt 5 cfg2.N
      = Spec.lin (V c main_v60) (V c main_v48) (V c main_arg7) (V c main_arg9) (fun i => V c main_v61 (ix2 0 (i 0)))
  r2_sum : ∀ (V : (c : Dev nD) → (b : Ref sig .tc) → Buf (Elt Ideal) ((c : Thread nD τ).loc b)) (c : Dev nD),
    (dat2 (F := Ideal) V c).arrAt 6 cfg2.N
      = fun j => Spec.colSum (Spec.lin (V c main_v60) (V c main_v48) (V c main_arg7) (V c main_arg9)
          (fun i => V c main_v61 (ix2 0 (i 0)))) (j 1)
  r2_sq : ∀ (V : (c : Dev nD) → (b : Ref sig .tc) → Buf (Elt Ideal) ((c : Thread nD τ).loc b)) (c : Dev nD),
    (dat2 (F := Ideal) V c).arrAt 7 cfg2.N
      = fun j => ∑ p : Fin 50000,
          Spec.lin (V c main_v60) (V c main_v48) (V c main_arg7) (V c main_arg9) (fun i => V c main_v61 (ix2 0 (i 0))) (ix2 p (j 1))
          * Spec.lin (V c main_v60) (V c main_v48) (V c main_arg7) (V c main_arg9) (fun i => V c main_v61 (ix2 0 (i 0))) (ix2 p (j 1))
  r3 : ∀ (V : (c : Dev nD) → (b : Ref sig .tc) → Buf (Elt Ideal) ((c : Thread nD τ).loc b)) (c : Dev nD),
    (dat3 (F := Ideal) V c).arrAt 7 cfg3.N
      = Spec.head (Spec.bnrelu (V c main_v62_0) (fun q => V c main_v74 (ix2 0 q)) (fun q => V c main_v75 (ix2 0 q))
          (fun i => V c main_v76 (ix2 0 (i 0))) (fun i => V c main_v77 (ix2 0 (i 0)))) (V c main_arg12)
          (fun i => V c main_v78 (ix2 0 (i 0)))

end Cert.KernelIdeal.Chain

end
-- ==== Proof.ChainStats.lean ====
/-
  The host stretch between a statistics region and its normalising region: from the accumulated row of column
  sums `s` and row of column sums of squares `sq` (each a [1, 256] row) the program makes the row of means
  s / 50000 and the row of reciprocal deviations rsqrt(sq / 50000 − mean · mean + ε), each computed on [256]
  vectors and laid back as [1, 256] rows. Every operation here is pointwise, and the two reshapes only add or
  drop a unit axis, so at column q the two rows read exactly the specification's `mu` and `istd` of the variance
  taken as the mean of squares minus the squared mean, when `s` and `sq` hold the column sums of a matrix `L`.
  No float word is evaluated: 50000 and ε stay the words the specification names.
-/
import proofs.«138899_j10342281249011_1_alg».proof.Proof.Agg
import Idealize.ShloMosaic.Lib.ValueLayout
import Idealize.ShloMosaic.Lib.ValueIdx
import Idealize.ShloMosaic.Lib.IdealHost
import Idealize.ShloMosaic.PureOps.Ideal.Laws

noncomputable section

namespace Cert.KernelIdeal.Chain

open Cert.KernelIdeal Cert.KernelIdeal.Gen Cert.Spec Idealize.ShloMosaic Idealize.ShloMosaic.ValueIdx

/-- A [1, 256] row of extended reals. -/
abbrev Row256 : Type := (⟨S1x256, .f32⟩ : BufTy).Contents (Elt Ideal)

/-- The row count 50000 on every one of 256 lanes. -/
def nSplat : (⟨S256, .f32⟩ : BufTy).Contents (Elt Ideal) :=
  broadcastInDim S256 ![] bcast_S_S256 (constant (F := Ideal) S_ .f32 0x47435000#32)

/-- The variance stabiliser ε on every one of 256 lanes. -/
def epsSplat : (⟨S256, .f32⟩ : BufTy).Contents (Elt Ideal) :=
  broadcastInDim S256 ![] bcast_S_S256 (constant (F := Ideal) S_ .f32 0x3727C5AC#32)

/-- The column means as a [256] vector: the row of sums with its unit axis dropped, over 50000. -/
def meanVec (s : Row256) : (⟨S256, .f32⟩ : BufTy).Contents (Elt Ideal) :=
  Host.divf (F := Ideal) (s := S256) (φ := .f32) (shapeCast S256 s shapeCasts_S1x256_S256) nSplat

/-- The column means as a [1, 256] row. -/
def muRow (s : Row256) : Row256 := shapeCast S1x256 (meanVec s) shapeCasts_S256_S1x256

/-- The reciprocal deviations as a [1, 256] row: rsqrt(sq / 50000 − mean · mean + ε). -/
def sdRow (s sq : Row256) : Row256 :=
  shapeCast S1x256
    (Host.rsqrt (F := Ideal) (s := S256) (φ := .f32)
      (addf (F := Ideal) (s := S256) (φ := .f32)
        (subf (F := Ideal) (s := S256) (φ := .f32)
          (Host.divf (F := Ideal) (s := S256) (φ := .f32) (shapeCast S256 sq shapeCasts_S1x256_S256) nSplat)
          (mulf (F := Ideal) (s := S256) (φ := .f32) (meanVec s) (meanVec s)))
        epsSplat))
    shapeCasts_S256_S1x256

theorem nSplat_apply (j : S256.Idx) : nSplat j = Spec.nF :=
  broadcastInDim_scalar_apply bcast_S_S256 (constant (F := Ideal) S_ .f32 0x47435000#32) j

theorem epsSplat_apply (j : S256.Idx) : epsSplat j = Spec.epsF :=
  broadcastInDim_scalar_apply bcast_S_S256 (constant (F := Ideal) S_ .f32 0x3727C5AC#32) j

/-- The mean vector at lane q is the row of sums at (0, q) over 50000. -/
theorem meanVec_apply (s : Row256) (q : Fin 256) :
    meanVec s (ix1 q) = Ideal.div (s (ix2 (0 : Fin 1) q)) Spec.nF := by
  show Ideal.div (shapeCast S256 s shapeCasts_S1x256_S256 (ix1 q)) (nSplat (ix1 q)) = _
  exact congrArg₂ Ideal.div (shapeCast_1a_a_apply s shapeCasts_S1x256_S256 q) (nSplat_apply (ix1 q))

theorem muRow_apply (s : Row256) (q : Fin 256) :
    muRow s (ix2 (0 : Fin 1) q) = Ideal.div (s (ix2 (0 : Fin 1) q)) Spec.nF :=
  (shapeCast_a_1a_apply (meanVec s) shapeCasts_S256_S1x256 0 q).trans (meanVec_apply s q)

theorem sdRow_apply (s sq : Row256) (q : Fin 256) :
    sdRow s sq (ix2 (0 : Fin 1) q)
      = Ideal.rsqrt ((Ideal.div (sq (ix2 (0 : Fin 1) q)) Spec.nF
          - Ideal.div (s (ix2 (0 : Fin 1) q)) Spec.nF * Ideal.div (s (ix2 (0 : Fin 1) q)) Spec.nF) + Spec.epsF) := by
  refine (shapeCast_a_1a_apply _ shapeCasts_S256_S1x256 0 q).trans ?_
  show Ideal.rsqrt ((Ideal.div (shapeCast S256 sq shapeCasts_S1x256_S256 (ix1 q)) (nSplat (ix1 q))
      - meanVec s (ix1 q) * meanVec s (ix1 q)) + epsSplat (ix1 q)) = _
  exact congrArg Ideal.rsqrt (congrArg₂ (· + ·)
    (congrArg₂ (· - ·)
      (congrArg₂ Ideal.div (shapeCast_1a_a_apply sq shapeCasts_S1x256_S256 q) (nSplat_apply (ix1 q)))
      (congrArg₂ (· * ·) (meanVec_apply s q) (meanVec_apply s q)))
    (epsSplat_apply (ix1 q)))

/-- When `s` holds the column sums of `L`, the mean row read at column q is the specification's mean. -/
theorem muRow_eq {L : Spec.Mat 50000 256} (s : Row256) (hs : s = fun j => Spec.colSum L (j 1)) :
    (fun q : Fin 256 => muRow s (ix2 (0 : Fin 1) q)) = Spec.mu L := by
  subst hs
  funext q
  exact muRow_apply _ q

/-- When `s` and `sq` hold the column sums and the column sums of squares of `L`, the reciprocal-deviation row
    read at column q is the specification's, with the variance as the mean of squares minus the squared mean. -/
theorem sdRow_eq {L : Spec.Mat 50000 256} (s sq : Row256) (hs : s = fun j => Spec.colSum L (j 1))
    (hsq : sq = fun j => ∑ p : Fin 50000, L (ix2 p (j 1)) * L (ix2 p (j 1))) :
    (fun q : Fin 256 => sdRow s sq (ix2 (0 : Fin 1) q)) = Spec.istd (Spec.varMom L) := by
  subst hs hsq
  funext q
  exact sdRow_apply _ _ q

/-- A [256] vector laid as a [1, 256] row and read back along the row is the vector. -/
theorem row256_eq (x : (⟨S256, .f32⟩ : BufTy).Contents (Elt Ideal)) :
    (fun i : (⟨1, ![256]⟩ : Shape).Idx => shapeCast S1x256 x shapeCasts_S256_S1x256 (ix2 (0 : Fin 1) (i 0))) = x := by
  funext i
  exact (shapeCast_a_1a_apply x shapeCasts_S256_S1x256 0 (i 0)).trans (congrArg x (eq_ix1 i).symm)

/-- A [4] vector laid as a [1, 4] row and read back along the row is the vector. -/
theorem row4_eq (x : (⟨S4, .f32⟩ : BufTy).Contents (Elt Ideal)) :
    (fun i : (⟨1, ![4]⟩ : Shape).Idx => shapeCast S1x4 x shapeCasts_S4_S1x4 (ix2 (0 : Fin 1) (i 0))) = x := by
  funext i
  exact (shapeCast_a_1a_apply x shapeCasts_S4_S1x4 0 (i 0)).trans (congrArg x (eq_ix1 i).symm)

end Cert.KernelIdeal.Chain

end
-- ==== Proof.Chain.lean ====
/-
  Following the idealized kernel's values from one boundary to the next (ChainTypes.lean has the plan and the
  regions' statements): the result buffer at the last boundary is the specification's network, with the variance
  of a column computed as the mean of its squares minus the square of its mean.
-/
import proofs.«138899_j10342281249011_1_alg».proof.Proof.ChainTypes
import proofs.«138899_j10342281249011_1_alg».proof.Proof.ChainStats

set_option maxRecDepth 16384

noncomputable section

namespace Cert.KernelIdeal.Chain

open Cert.KernelIdeal Cert.KernelIdeal.Gen Cert.Spec Cert.Bridge
open Idealize.ShloMosaic Idealize.ShloMosaic.TcCoe Idealize.ShloMosaic.Tactic Idealize.ShloMosaic.ValueIdx
open Idealize.ShloMosaic.StableHlo Idealize.SL.Sem

variable (m : (ℓ : Loc nD τ sig) → Buf (Elt Ideal) ℓ) (ρ : Dev nD → PrngReg) (c : Dev nD)

/-! ## The argument arrays and the specification's intermediate arrays -/

abbrev aX : Mat 50000 4 := m ((c : Thread nD τ).loc main_arg0)
abbrev aE : Edges := m ((c : Thread nD τ).loc main_arg1)
abbrev aW1l : Mat 256 4 := m ((c : Thread nD τ).loc main_arg2)
abbrev ab1l : Vc 256 := m ((c : Thread nD τ).loc main_arg3)
abbrev aW1r : Mat 256 4 := m ((c : Thread nD τ).loc main_arg4)
abbrev ag1 : Vc 256 := m ((c : Thread nD τ).loc main_arg5)
abbrev abe1 : Vc 256 := m ((c : Thread nD τ).loc main_arg6)
abbrev aW2l : Mat 256 256 := m ((c : Thread nD τ).loc main_arg7)
abbrev ab2l : Vc 256 := m ((c : Thread nD τ).loc main_arg8)
abbrev aW2r : Mat 256 256 := m ((c : Thread nD τ).loc main_arg9)
abbrev ag2 : Vc 256 := m ((c : Thread nD τ).loc main_arg10)
abbrev abe2 : Vc 256 := m ((c : Thread nD τ).loc main_arg11)
abbrev aWo : Mat 4 256 := m ((c : Thread nD τ).loc main_arg12)
abbrev abo : Vc 4 := m ((c : Thread nD τ).loc main_arg13)

/-- The scaled input. -/
abbrev H0 : Mat 50000 4 := h0 (aX m c)
/-- The first layer's linear output. -/
abbrev L1 : Mat 50000 256 := Spec.lin (agg4 (aE m c) (H0 m c)) (H0 m c) (aW1l m c) (aW1r m c) (ab1l m c)
/-- The first layer's output. -/
abbrev H1 : Mat 50000 256 :=
  Spec.layer Spec.varMom (agg4 (aE m c) (H0 m c)) (H0 m c) (aW1l m c) (aW1r m c) (ab1l m c) (ag1 m c) (abe1 m c)
/-- The second layer's linear output. -/
abbrev L2 : Mat 50000 256 := Spec.lin (agg256 (aE m c) (H1 m c)) (H1 m c) (aW2l m c) (aW2r m c) (ab2l m c)

/-! ## An argument array is untouched up to each boundary -/

theorem w3_arg5 : W3 (F := Ideal) m ρ c (Proc.devRef .tc main_arg5) = m ((c : Thread nD τ).loc main_arg5) := by
  show after hostOps0_2 (after hostOps0_1 (after hostOps0 (W0 m ρ c))) (Proc.devRef .tc main_arg5) = _
  after_results
theorem w4_arg5 : W4 (F := Ideal) m ρ c (Proc.devRef .tc main_arg5) = m ((c : Thread nD τ).loc main_arg5) :=
  (W4_of_ne m ρ c main_arg5 (by decide)).trans (w3_arg5 m ρ c)

theorem w3_arg6 : W3 (F := Ideal) m ρ c (Proc.devRef .tc main_arg6) = m ((c : Thread nD τ).loc main_arg6) := by
  show after hostOps0_2 (after hostOps0_1 (after hostOps0 (W0 m ρ c))) (Proc.devRef .tc main_arg6) = _
  after_results
theorem w4_arg6 : W4 (F := Ideal) m ρ c (Proc.devRef .tc main_arg6) = m ((c : Thread nD τ).loc main_arg6) :=
  (W4_of_ne m ρ c main_arg6 (by decide)).trans (w3_arg6 m ρ c)

theorem w3_arg7 : W3 (F := Ideal) m ρ c (Proc.devRef .tc main_arg7) = m ((c : Thread nD τ).loc main_arg7) := by
  show after hostOps0_2 (after hostOps0_1 (after hostOps0 (W0 m ρ c))) (Proc.devRef .tc main_arg7) = _
  after_results
theorem w4_arg7 : W4 (F := Ideal) m ρ c (Proc.devRef .tc main_arg7) = m ((c : Thread nD τ).loc main_arg7) :=
  (W4_of_ne m ρ c main_arg7 (by decide)).trans (w3_arg7 m ρ c)
theorem w5_arg7 : W5 (F := Ideal) m ρ c (Proc.devRef .tc main_arg7) = m ((c : Thread nD τ).loc main_arg7) := by
  show after hostOps1 (W4 m ρ c) (Proc.devRef .tc main_arg7) = _
  after_results
  exact w4_arg7 m ρ c
theorem w6_arg7 : W6 (F := Ideal) m ρ c (Proc.devRef .tc main_arg7) = m ((c : Thread nD τ).loc main_arg7) :=
  (W6_of_ne m ρ c main_arg7 (by decide)).trans (w5_arg7 m ρ c)
theorem w7_arg7 : W7 (F := Ideal) m ρ c (Proc.devRef .tc main_arg7) = m ((c : Thread nD τ).loc main_arg7) := by
  show after hostOps2 (W6 m ρ c) (Proc.devRef .tc main_arg7) = _
  after_results
  exact w6_arg7 m ρ c

theorem w3_arg8 : W3 (F := Ideal) m ρ c (Proc.devRef .tc main_arg8) = m ((c : Thread nD τ).loc main_arg8) := by
  show after hostOps0_2 (after hostOps0_1 (after hostOps0 (W0 m ρ c))) (Proc.devRef .tc main_arg8) = _
  after_results
theorem w4_arg8 : W4 (F := Ideal) m ρ c (Proc.devRef .tc main_arg8) = m ((c : Thread nD τ).loc main_arg8) :=
  (W4_of_ne m ρ c main_arg8 (by decide)).trans (w3_arg8 m ρ c)
theorem w5_arg8 : W5 (F := Ideal) m ρ c (Proc.devRef .tc main_arg8) = m ((c : Thread nD τ).loc main_arg8) := by
  show after hostOps1 (W4 m ρ c) (Proc.devRef .tc main_arg8) = _
  after_results
  exact w4_arg8 m ρ c
theorem w6_arg8 : W6 (F := Ideal) m ρ c (Proc.devRef .tc main_arg8) = m ((c : Thread nD τ).loc main_arg8) :=
  (W6_of_ne m ρ c main_arg8 (by decide)).trans (w5_arg8 m ρ c)
theorem w7_arg8 : W7 (F := Ideal) m ρ c (Proc.devRef .tc main_arg8) = m ((c : Thread nD τ).loc main_arg8) := by
  show after hostOps2 (W6 m ρ c) (Proc.devRef .tc main_arg8) = _
  after_results
  exact w6_arg8 m ρ c
theorem w8_arg8 : W8 (F := Ideal) m ρ c (Proc.devRef .tc main_arg8) = m ((c : Thread nD τ).loc main_arg8) :=
  (W8_of_ne m ρ c main_arg8 (by decide)).trans (w7_arg8 m ρ c)

theorem w3_arg9 : W3 (F := Ideal) m ρ c (Proc.devRef .tc main_arg9) = m ((c : Thread nD τ).loc main_arg9) := by
  show after hostOps0_2 (after hostOps0_1 (after hostOps0 (W0 m ρ c))) (Proc.devRef .tc main_arg9) = _
  after_results
theorem w4_arg9 : W4 (F := Ideal) m ρ c (Proc.devRef .tc main_arg9) = m ((c : Thread nD τ).loc main_arg9) :=
  (W4_of_ne m ρ c main_arg9 (by decide)).trans (w3_arg9 m ρ c)
theorem w5_arg9 : W5 (F := Ideal) m ρ c (Proc.devRef .tc main_arg9) = m ((c : Thread nD τ).loc main_arg9) := by
  show after hostOps1 (W4 m ρ c) (Proc.devRef .tc main_arg9) = _
  after_results
  exact w4_arg9 m ρ c
theorem w6_arg9 : W6 (F := Ideal) m ρ c (Proc.devRef .tc main_arg9) = m ((c : Thread nD τ).loc main_arg9) :=
  (W6_of_ne m ρ c main_arg9 (by decide)).trans (w5_arg9 m ρ c)
theorem w7_arg9 : W7 (F := Ideal) m ρ c (Proc.devRef .tc main_arg9) = m ((c : Thread nD τ).loc main_arg9) := by
  show after hostOps2 (W6 m ρ c) (Proc.devRef .tc main_arg9) = _
  after_results
  exact w6_arg9 m ρ c

theorem w3_arg10 : W3 (F := Ideal) m ρ c (Proc.devRef .tc main_arg10) = m ((c : Thread nD τ).loc main_arg10) := by
  show after hostOps0_2 (after hostOps0_1 (after hostOps0 (W0 m ρ c))) (Proc.devRef .tc main_arg10) = _
  after_results
theorem w4_arg10 : W4 (F := Ideal) m ρ c (Proc.devRef .tc main_arg10) = m ((c : Thread nD τ).loc main_arg10) :=
  (W4_of_ne m ρ c main_arg10 (by decide)).trans (w3_arg10 m ρ c)
theorem w5_arg10 : W5 (F := Ideal) m ρ c (Proc.devRef .tc main_arg10) = m ((c : Thread nD τ).loc main_arg10) := by
  show after hostOps1 (W4 m ρ c) (Proc.devRef .tc main_arg10) = _
  after_results
  exact w4_arg10 m ρ c
theorem w6_arg10 : W6 (F := Ideal) m ρ c (Proc.devRef .tc main_arg10) = m ((c : Thread nD τ).loc main_arg10) :=
  (W6_of_ne m ρ c main_arg10 (by decide)).trans (w5_arg10 m ρ c)
theorem w7_arg10 : W7 (F := Ideal) m ρ c (Proc.devRef .tc main_arg10) = m ((c : Thread nD τ).loc main_arg10) := by
  show after hostOps2 (W6 m ρ c) (Proc.devRef .tc main_arg10) = _
  after_results
  exact w6_arg10 m ρ c
theorem w8_arg10 : W8 (F := Ideal) m ρ c (Proc.devRef .tc main_arg10) = m ((c : Thread nD τ).loc main_arg10) :=
  (W8_of_ne m ρ c main_arg10 (by decide)).trans (w7_arg10 m ρ c)

theorem w3_arg11 : W3 (F := Ideal) m ρ c (Proc.devRef .tc main_arg11) = m ((c : Thread nD τ).loc main_arg11) := by
  show after hostOps0_2 (after hostOps0_1 (after hostOps0 (W0 m ρ c))) (Proc.devRef .tc main_arg11) = _
  after_results
theorem w4_arg11 : W4 (F := Ideal) m ρ c (Proc.devRef .tc main_arg11) = m ((c : Thread nD τ).loc main_arg11) :=
  (W4_of_ne m ρ c main_arg11 (by decide)).trans (w3_arg11 m ρ c)
theorem w5_arg11 : W5 (F := Ideal) m ρ c (Proc.devRef .tc main_arg11) = m ((c : Thread nD τ).loc main_arg11) := by
  show after hostOps1 (W4 m ρ c) (Proc.devRef .tc main_arg11) = _
  after_results
  exact w4_arg11 m ρ c
theorem w6_arg11 : W6 (F := Ideal) m ρ c (Proc.devRef .tc main_arg11) = m ((c : Thread nD τ).loc main_arg11) :=
  (W6_of_ne m ρ c main_arg11 (by decide)).trans (w5_arg11 m ρ c)
theorem w7_arg11 : W7 (F := Ideal) m ρ c (Proc.devRef .tc main_arg11) = m ((c : Thread nD τ).loc main_arg11) := by
  show after hostOps2 (W6 m ρ c) (Proc.devRef .tc main_arg11) = _
  after_results
  exact w6_arg11 m ρ c
theorem w8_arg11 : W8 (F := Ideal) m ρ c (Proc.devRef .tc main_arg11) = m ((c : Thread nD τ).loc main_arg11) :=
  (W8_of_ne m ρ c main_arg11 (by decide)).trans (w7_arg11 m ρ c)

theorem w3_arg12 : W3 (F := Ideal) m ρ c (Proc.devRef .tc main_arg12) = m ((c : Thread nD τ).loc main_arg12) := by
  show after hostOps0_2 (after hostOps0_1 (after hostOps0 (W0 m ρ c))) (Proc.devRef .tc main_arg12) = _
  after_results
theorem w4_arg12 : W4 (F := Ideal) m ρ c (Proc.devRef .tc main_arg12) = m ((c : Thread nD τ).loc main_arg12) :=
  (W4_of_ne m ρ c main_arg12 (by decide)).trans (w3_arg12 m ρ c)
theorem w5_arg12 : W5 (F := Ideal) m ρ c (Proc.devRef .tc main_arg12) = m ((c : Thread nD τ).loc main_arg12) := by
  show after hostOps1 (W4 m ρ c) (Proc.devRef .tc main_arg12) = _
  after_results
  exact w4_arg12 m ρ c
theorem w6_arg12 : W6 (F := Ideal) m ρ c (Proc.devRef .tc main_arg12) = m ((c : Thread nD τ).loc main_arg12) :=
  (W6_of_ne m ρ c main_arg12 (by decide)).trans (w5_arg12 m ρ c)
theorem w7_arg12 : W7 (F := Ideal) m ρ c (Proc.devRef .tc main_arg12) = m ((c : Thread nD τ).loc main_arg12) := by
  show after hostOps2 (W6 m ρ c) (Proc.devRef .tc main_arg12) = _
  after_results
  exact w6_arg12 m ρ c
theorem w8_arg12 : W8 (F := Ideal) m ρ c (Proc.devRef .tc main_arg12) = m ((c : Thread nD τ).loc main_arg12) :=
  (W8_of_ne m ρ c main_arg12 (by decide)).trans (w7_arg12 m ρ c)

theorem w3_arg13 : W3 (F := Ideal) m ρ c (Proc.devRef .tc main_arg13) = m ((c : Thread nD τ).loc main_arg13) := by
  show after hostOps0_2 (after hostOps0_1 (after hostOps0 (W0 m ρ c))) (Proc.devRef .tc main_arg13) = _
  after_results
theorem w4_arg13 : W4 (F := Ideal) m ρ c (Proc.devRef .tc main_arg13) = m ((c : Thread nD τ).loc main_arg13) :=
  (W4_of_ne m ρ c main_arg13 (by decide)).trans (w3_arg13 m ρ c)
theorem w5_arg13 : W5 (F := Ideal) m ρ c (Proc.devRef .tc main_arg13) = m ((c : Thread nD τ).loc main_arg13) := by
  show after hostOps1 (W4 m ρ c) (Proc.devRef .tc main_arg13) = _
  after_results
  exact w4_arg13 m ρ c
theorem w6_arg13 : W6 (F := Ideal) m ρ c (Proc.devRef .tc main_arg13) = m ((c : Thread nD τ).loc main_arg13) :=
  (W6_of_ne m ρ c main_arg13 (by decide)).trans (w5_arg13 m ρ c)
theorem w7_arg13 : W7 (F := Ideal) m ρ c (Proc.devRef .tc main_arg13) = m ((c : Thread nD τ).loc main_arg13) := by
  show after hostOps2 (W6 m ρ c) (Proc.devRef .tc main_arg13) = _
  after_results
  exact w6_arg13 m ρ c
theorem w8_arg13 : W8 (F := Ideal) m ρ c (Proc.devRef .tc main_arg13) = m ((c : Thread nD τ).loc main_arg13) :=
  (W8_of_ne m ρ c main_arg13 (by decide)).trans (w7_arg13 m ρ c)

/-! ## The edge numbers and the in-degree, computed once, are untouched up to region 2's entry -/

set_option maxHeartbeats 4000000 in
theorem w3_src : W3 (F := Ideal) m ρ c (Proc.devRef .tc main_v1) = srcRow (aE m c) := by
  show after hostOps0_2 (after hostOps0_1 (after hostOps0 (W0 m ρ c))) (Proc.devRef .tc main_v1) = _
  after_results_simp
  rfl
set_option maxHeartbeats 4000000 in
theorem w3_dst : W3 (F := Ideal) m ρ c (Proc.devRef .tc main_v3) = dstRow (aE m c) := by
  show after hostOps0_2 (after hostOps0_1 (after hostOps0 (W0 m ρ c))) (Proc.devRef .tc main_v3) = _
  after_results_simp
  rfl
set_option maxHeartbeats 4000000 in
theorem w3_deg : W3 (F := Ideal) m ρ c (Proc.devRef .tc main_v10) = deg (aE m c) := by
  show after hostOps0_2 (after hostOps0_1 (after hostOps0 (W0 m ρ c))) (Proc.devRef .tc main_v10) = _
  after_results_simp
  rfl

/-! ## Region 0: its entry and what it leaves -/

set_option maxHeartbeats 4000000 in
theorem e0_self : (V3 (F := Ideal) m ρ c main_v18 : Mat 50000 4) = H0 m c := by
  show after hostOps0_2 (after hostOps0_1 (after hostOps0 (W0 m ρ c))) (Proc.devRef .tc main_v18) = _
  after_results_simp
  rfl

set_option maxHeartbeats 4000000 in
theorem e0_agg : (V3 (F := Ideal) m ρ c main_v30 : Mat 50000 4) = agg4 (aE m c) (H0 m c) := by
  show after hostOps0_2 (after hostOps0_1 (after hostOps0 (W0 m ρ c))) (Proc.devRef .tc main_v30) = _
  after_results_simp
  rfl

theorem e0_Wl : V3 (F := Ideal) m ρ c main_arg2 = aW1l m c := by
  show after hostOps0_2 (after hostOps0_1 (after hostOps0 (W0 m ρ c))) (Proc.devRef .tc main_arg2) = _
  after_results

theorem e0_Wr : V3 (F := Ideal) m ρ c main_arg4 = aW1r m c := by
  show after hostOps0_2 (after hostOps0_1 (after hostOps0 (W0 m ρ c))) (Proc.devRef .tc main_arg4) = _
  after_results

theorem e0_b : (fun i : (⟨1, ![256]⟩ : Shape).Idx => V3 (F := Ideal) m ρ c main_v31 (ix2 (0 : Fin 1) (i 0))) = ab1l m c := by
  have e : V3 (F := Ideal) m ρ c main_v31 = shapeCast S1x256 (ab1l m c) shapeCasts_S256_S1x256 := by
    show after hostOps0_2 (after hostOps0_1 (after hostOps0 (W0 m ρ c))) (Proc.devRef .tc main_v31) = _
    after_results
    rfl
  rw [e]
  exact row256_eq _

theorem x0_lin (RV : RegionValues) : (W4 (F := Ideal) m ρ c (Proc.devRef .tc main_v32_0) : Mat 50000 256) = L1 m c := by
  refine (W4_arr (F := Ideal) m ρ c 5).trans ((RV.r0_lin (V3 m ρ) c).trans ?_)
  rw [e0_agg, e0_self, e0_Wl, e0_Wr, e0_b]

theorem x0_sum (RV : RegionValues) : (W4 (F := Ideal) m ρ c (Proc.devRef .tc main_v32_1) : Row256) = fun j => Spec.colSum (L1 m c) (j 1) := by
  refine (W4_arr (F := Ideal) m ρ c 6).trans ((RV.r0_sum (V3 m ρ) c).trans ?_)
  rw [e0_agg, e0_self, e0_Wl, e0_Wr, e0_b]

theorem x0_sq (RV : RegionValues) : (W4 (F := Ideal) m ρ c (Proc.devRef .tc main_v32_2) : Row256)
    = fun j => ∑ p : Fin 50000, L1 m c (ix2 p (j 1)) * L1 m c (ix2 p (j 1)) := by
  refine (W4_arr (F := Ideal) m ρ c 7).trans ((RV.r0_sq (V3 m ρ) c).trans ?_)
  rw [e0_agg, e0_self, e0_Wl, e0_Wr, e0_b]

/-! ## Region 1: its entry and what it leaves -/

theorem e1_x (RV : RegionValues) : (V5 (F := Ideal) m ρ c main_v32_0 : Mat 50000 256) = L1 m c := by
  show after hostOps1 (W4 m ρ c) (Proc.devRef .tc main_v32_0) = _
  after_results
  exact x0_lin m ρ c RV

set_option maxHeartbeats 4000000 in
theorem e1_mu (RV : RegionValues) : (fun q : Fin 256 => V5 (F := Ideal) m ρ c main_v44 (ix2 (0 : Fin 1) q)) = Spec.mu (L1 m c) := by
  have e : V5 (F := Ideal) m ρ c main_v44 = muRow (W4 m ρ c (Proc.devRef .tc main_v32_1)) := by
    show after hostOps1 (W4 m ρ c) (Proc.devRef .tc main_v44) = _
    after_results_simp
    rfl
  rw [e]
  exact muRow_eq _ (x0_sum m ρ c RV)

set_option maxHeartbeats 4000000 in
theorem e1_sd (RV : RegionValues) : (fun q : Fin 256 => V5 (F := Ideal) m ρ c main_v45 (ix2 (0 : Fin 1) q)) = Spec.istd (Spec.varMom (L1 m c)) := by
  have e : V5 (F := Ideal) m ρ c main_v45 = sdRow (W4 m ρ c (Proc.devRef .tc main_v32_1)) (W4 m ρ c (Proc.devRef .tc main_v32_2)) := by
    show after hostOps1 (W4 m ρ c) (Proc.devRef .tc main_v45) = _
    after_results_simp
    rfl
  rw [e]
  exact sdRow_eq _ _ (x0_sum m ρ c RV) (x0_sq m ρ c RV)

theorem e1_g : (fun i : (⟨1, ![256]⟩ : Shape).Idx => V5 (F := Ideal) m ρ c main_v46 (ix2 (0 : Fin 1) (i 0))) = ag1 m c := by
  have e : V5 (F := Ideal) m ρ c main_v46 = shapeCast S1x256 (ag1 m c) shapeCasts_S256_S1x256 := by
    show after hostOps1 (W4 m ρ c) (Proc.devRef .tc main_v46) = _
    after_results
    rw [w4_arg5]
    rfl
  rw [e]
  exact row256_eq _

theorem e1_b : (fun i : (⟨1, ![256]⟩ : Shape).Idx => V5 (F := Ideal) m ρ c main_v47 (ix2 (0 : Fin 1) (i 0))) = abe1 m c := by
  have e : V5 (F := Ideal) m ρ c main_v47 = shapeCast S1x256 (abe1 m c) shapeCasts_S256_S1x256 := by
    show after hostOps1 (W4 m ρ c) (Proc.devRef .tc main_v47) = _
    after_results
    rw [w4_arg6]
    rfl
  rw [e]
  exact row256_eq _

theorem x1 (RV : RegionValues) : (W6 (F := Ideal) m ρ c (Proc.devRef .tc main_v48) : Mat 50000 256) = H1 m c := by
  refine (W6_arr (F := Ideal) m ρ c 5).trans ((RV.r1 (V5 m ρ) c).trans ?_)
  rw [e1_x m ρ c RV, e1_mu m ρ c RV, e1_sd m ρ c RV, e1_g, e1_b]
  rfl

/-! ## Region 2: its entry and what it leaves -/

theorem w6_src : W6 (F := Ideal) m ρ c (Proc.devRef .tc main_v1) = srcRow (aE m c) := by
  refine (W6_of_ne m ρ c main_v1 (by decide)).trans ?_
  show after hostOps1 (W4 m ρ c) (Proc.devRef .tc main_v1) = _
  after_results
  exact (W4_of_ne m ρ c main_v1 (by decide)).trans (w3_src m ρ c)
theorem w6_dst : W6 (F := Ideal) m ρ c (Proc.devRef .tc main_v3) = dstRow (aE m c) := by
  refine (W6_of_ne m ρ c main_v3 (by decide)).trans ?_
  show after hostOps1 (W4 m ρ c) (Proc.devRef .tc main_v3) = _
  after_results
  exact (W4_of_ne m ρ c main_v3 (by decide)).trans (w3_dst m ρ c)
theorem w6_deg : W6 (F := Ideal) m ρ c (Proc.devRef .tc main_v10) = deg (aE m c) := by
  refine (W6_of_ne m ρ c main_v10 (by decide)).trans ?_
  show after hostOps1 (W4 m ρ c) (Proc.devRef .tc main_v10) = _
  after_results
  exact (W4_of_ne m ρ c main_v10 (by decide)).trans (w3_deg m ρ c)

theorem e2_self (RV : RegionValues) : (V7 (F := Ideal) m ρ c main_v48 : Mat 50000 256) = H1 m c := by
  show after hostOps2 (W6 m ρ c) (Proc.devRef .tc main_v48) = _
  after_results
  exact x1 m ρ c RV

set_option maxHeartbeats 4000000 in
theorem e2_agg (RV : RegionValues) : (V7 (F := Ideal) m ρ c main_v60 : Mat 50000 256) = agg256 (aE m c) (H1 m c) := by
  show after hostOps2 (W6 m ρ c) (Proc.devRef .tc main_v60) = _
  after_results_simp
  rw [w6_src, w6_dst, w6_deg, x1 m ρ c RV]
  rfl

theorem e2_Wl : V7 (F := Ideal) m ρ c main_arg7 = aW2l m c := w7_arg7 m ρ c
theorem e2_Wr : V7 (F := Ideal) m ρ c main_arg9 = aW2r m c := w7_arg9 m ρ c

theorem e2_b : (fun i : (⟨1, ![256]⟩ : Shape).Idx => V7 (F := Ideal) m ρ c main_v61 (ix2 (0 : Fin 1) (i 0))) = ab2l m c := by
  have e : V7 (F := Ideal) m ρ c main_v61 = shapeCast S1x256 (ab2l m c) shapeCasts_S256_S1x256 := by
    show after hostOps2 (W6 m ρ c) (Proc.devRef .tc main_v61) = _
    after_results
    rw [w6_arg8]
    rfl
  rw [e]
  exact row256_eq _

theorem x2_lin (RV : RegionValues) : (W8 (F := Ideal) m ρ c (Proc.devRef .tc main_v62_0) : Mat 50000 256) = L2 m c := by
  refine (W8_arr (F := Ideal) m ρ c 5).trans ((RV.r2_lin (V7 m ρ) c).trans ?_)
  rw [e2_agg m ρ c RV, e2_self m ρ c RV, e2_Wl, e2_Wr, e2_b]

theorem x2_sum (RV : RegionValues) : (W8 (F := Ideal) m ρ c (Proc.devRef .tc main_v62_1) : Row256) = fun j => Spec.colSum (L2 m c) (j 1) := by
  refine (W8_arr (F := Ideal) m ρ c 6).trans ((RV.r2_sum (V7 m ρ) c).trans ?_)
  rw [e2_agg m ρ c RV, e2_self m ρ c RV, e2_Wl, e2_Wr, e2_b]

theorem x2_sq (RV : RegionValues) : (W8 (F := Ideal) m ρ c (Proc.devRef .tc main_v62_2) : Row256)
    = fun j => ∑ p : Fin 50000, L2 m c (ix2 p (j 1)) * L2 m c (ix2 p (j 1)) := by
  refine (W8_arr (F := Ideal) m ρ c 7).trans ((RV.r2_sq (V7 m ρ) c).trans ?_)
  rw [e2_agg m ρ c RV, e2_self m ρ c RV, e2_Wl, e2_Wr, e2_b]

/-! ## Region 3: its entry and the result -/

theorem e3_x (RV : RegionValues) : (V9 (F := Ideal) m ρ c main_v62_0 : Mat 50000 256) = L2 m c := by
  show after hostOps3 (W8 m ρ c) (Proc.devRef .tc main_v62_0) = _
  after_results
  exact x2_lin m ρ c RV

set_option maxHeartbeats 4000000 in
theorem e3_mu (RV : RegionValues) : (fun q : Fin 256 => V9 (F := Ideal) m ρ c main_v74 (ix2 (0 : Fin 1) q)) = Spec.mu (L2 m c) := by
  have e : V9 (F := Ideal) m ρ c main_v74 = muRow (W8 m ρ c (Proc.devRef .tc main_v62_1)) := by
    show after hostOps3 (W8 m ρ c) (Proc.devRef .tc main_v74) = _
    after_results_simp
    rfl
  rw [e]
  exact muRow_eq _ (x2_sum m ρ c RV)

set_option maxHeartbeats 4000000 in
theorem e3_sd (RV : RegionValues) : (fun q : Fin 256 => V9 (F := Ideal) m ρ c main_v75 (ix2 (0 : Fin 1) q)) = Spec.istd (Spec.varMom (L2 m c)) := by
  have e : V9 (F := Ideal) m ρ c main_v75 = sdRow (W8 m ρ c (Proc.devRef .tc main_v62_1)) (W8 m ρ c (Proc.devRef .tc main_v62_2)) := by
    show after hostOps3 (W8 m ρ c) (Proc.devRef .tc main_v75) = _
    after_results_simp
    rfl
  rw [e]
  exact sdRow_eq _ _ (x2_sum m ρ c RV) (x2_sq m ρ c RV)

theorem e3_g : (fun i : (⟨1, ![256]⟩ : Shape).Idx => V9 (F := Ideal) m ρ c main_v76 (ix2 (0 : Fin 1) (i 0))) = ag2 m c := by
  have e : V9 (F := Ideal) m ρ c main_v76 = shapeCast S1x256 (ag2 m c) shapeCasts_S256_S1x256 := by
    show after hostOps3 (W8 m ρ c) (Proc.devRef .tc main_v76) = _
    after_results
    rw [w8_arg10]
    rfl
  rw [e]
  exact row256_eq _

theorem e3_b : (fun i : (⟨1, ![256]⟩ : Shape).Idx => V9 (F := Ideal) m ρ c main_v77 (ix2 (0 : Fin 1) (i 0))) = abe2 m c := by
  have e : V9 (F := Ideal) m ρ c main_v77 = shapeCast S1x256 (abe2 m c) shapeCasts_S256_S1x256 := by
    show after hostOps3 (W8 m ρ c) (Proc.devRef .tc main_v77) = _
    after_results
    rw [w8_arg11]
    rfl
  rw [e]
  exact row256_eq _

theorem e3_Wo : V9 (F := Ideal) m ρ c main_arg12 = aWo m c := by
  show after hostOps3 (W8 m ρ c) (Proc.devRef .tc main_arg12) = _
  after_results
  exact w8_arg12 m ρ c

theorem e3_bo : (fun i : (⟨1, ![4]⟩ : Shape).Idx => V9 (F := Ideal) m ρ c main_v78 (ix2 (0 : Fin 1) (i 0))) = abo m c := by
  have e : V9 (F := Ideal) m ρ c main_v78 = shapeCast S1x4 (abo m c) shapeCasts_S4_S1x4 := by
    show after hostOps3 (W8 m ρ c) (Proc.devRef .tc main_v78) = _
    after_results
    rw [w8_arg13]
    rfl
  rw [e]
  exact row4_eq _

/-- The result buffer at the last boundary is the specification's network of the argument arrays, the variance of a
    column computed as the mean of its squares minus the square of its mean. -/
theorem result (RV : RegionValues) : (W10 (F := Ideal) m ρ c (Proc.devRef .tc main_v79) : Mat 50000 4)
    = Spec.out Spec.varMom (agg4 (aE m c)) (agg256 (aE m c)) (H0 m c) (aW1l m c) (aW1r m c) (ab1l m c) (ag1 m c) (abe1 m c)
        (aW2l m c) (aW2r m c) (ab2l m c) (ag2 m c) (abe2 m c) (aWo m c) (abo m c) := by
  refine (W10_arr (F := Ideal) m ρ c 7).trans ((RV.r3 (V9 m ρ) c).trans ?_)
  rw [e3_x m ρ c RV, e3_mu m ρ c RV, e3_sd m ρ c RV, e3_g, e3_b, e3_Wo, e3_bo]
  rfl

end Cert.KernelIdeal.Chain

end
-- ==== Proof.Region0Blocks.lean ====
/-
  Twenty-five blocks of two thousand rows are the fifty thousand rows.

  A sum over the 50000 rows of a matrix can be taken block by block: first over the 25 blocks, inside a block over
  its 2000 rows. Row `r` of block `t` is row `2000 t + r`; every row is reached once, so this is a re-indexing of a
  finite sum in a commutative monoid and needs no finiteness. A running total over the first blocks is written as a
  sum over a range of naturals, with the blocks past the last contributing nothing; over all 25 it is the sum over
  the blocks.
-/
import Idealize.ShloMosaic.Lib.ValueIdx

namespace Cert.KernelIdeal.RegionValue

/-- Row `r` of block `t`, as a row of the whole array. -/
def row (t : Fin 25) (r : Fin 2000) : Fin 50000 :=
  ⟨2000 * t.val + r.val, by have := t.isLt; have := r.isLt; omega⟩

theorem row_val (t : Fin 25) (r : Fin 2000) : (row t r).val = 2000 * t.val + r.val := rfl

/-- The sum over all rows, block by block. -/
theorem sum_blocks {M : Type*} [AddCommMonoid M] (g : Fin 50000 → M) :
    ∑ t : Fin 25, ∑ r : Fin 2000, g (row t r) = ∑ p : Fin 50000, g p := by
  rw [← Fintype.sum_prod_type']
  refine Fintype.sum_equiv (finProdFinEquiv.trans (finCongr (by norm_num))) _ _ fun x => congrArg g (Fin.ext ?_)
  show 2000 * x.1.val + x.2.val = x.2.val + 2000 * x.1.val
  omega

/-- The running total over the first blocks, the blocks numbered by naturals: past the last block nothing is added. -/
def upTo {M : Type*} [AddCommMonoid M] (f : Fin 25 → M) (n : ℕ) : M :=
  ∑ s ∈ Finset.range (n + 1), if h : s < 25 then f ⟨s, h⟩ else 0

theorem upTo_zero {M : Type*} [AddCommMonoid M] (f : Fin 25 → M) : upTo f 0 = f 0 := by
  unfold upTo
  rw [Finset.sum_range_one]
  exact dif_pos (by norm_num)

theorem upTo_succ {M : Type*} [AddCommMonoid M] (f : Fin 25 → M) (n : ℕ) (h : n + 1 < 25) :
    upTo f (n + 1) = upTo f n + f ⟨n + 1, h⟩ := by
  unfold upTo
  rw [Finset.sum_range_succ _ (n + 1), dif_pos h]

/-- Over all 25 blocks the running total is the sum over the blocks. -/
theorem upTo_last {M : Type*} [AddCommMonoid M] (f : Fin 25 → M) : upTo f 24 = ∑ t : Fin 25, f t := by
  unfold upTo
  rw [← Fin.sum_univ_eq_sum_range (fun s => if h : s < 25 then f ⟨s, h⟩ else 0) (24 + 1)]
  exact Finset.sum_congr rfl fun t _ => dif_pos t.isLt

end Cert.KernelIdeal.RegionValue
-- ==== Proof.LibPlainDot.lean ====
/-
  A plain matrix product read at an index, on the extended reals.

  For the dimension numbers of an M×K by K×N product (contract the left operand's axis 1 with the right operand's
  axis 0, no batch axis), the product at row `r`, column `n` is the sum over the K contraction positions of
  `l (r, k) · r' (k, n)`. The contraction index of the dimension record is a one-coordinate index; it is re-indexed by
  that coordinate, and the operand indices at an output index and a contraction position are read off coordinate by
  coordinate. Stated for a kernel's matrix unit accumulating into the zero splat and for a host `dot_general`.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The contraction shape of a plain product has one axis, -/
theorem contr_rank : (DotDims.plain M K N).contr.rank = 1 := rfl

/-- of extent K. -/
theorem contr_size : (DotDims.plain M K N).contr.size ⟨0, by rw [contr_rank]; exact Nat.one_pos⟩ = K := rfl

/-- The left operand's index at output index `j` and contraction position `k` is (row of `j`, `k`). -/
theorem lhsIdx_eq (j : (⟨2, ![M, N]⟩ : Shape).Idx) (k : Fin K) :
    (DotDims.plain M K N).lhsIdx j ((contrEquiv1 (DotDims.plain M K N) K (contr_rank M K N) (contr_size M K N)).symm k)
      = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand's index at output index `j` and contraction position `k` is (`k`, column of `j`). -/
theorem rhsIdx_eq (j : (⟨2, ![M, N]⟩ : Shape).Idx) (k : Fin K) :
    (DotDims.plain M K N).rhsIdx j ((contrEquiv1 (DotDims.plain M K N) K (contr_rank M K N) (contr_size M K N)).symm k)
      = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The sum over the record's contraction index is the sum over the K positions. -/
theorem sum_contr (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K (contr_rank M K N) (contr_size M K N)).symm]
  exact Finset.sum_congr rfl fun k _ =>
    congrArg₂ (fun a b => l a * r b) (lhsIdx_eq M K N j k) (rhsIdx_eq M K N j k)

/-- A kernel's matrix unit accumulating into the zero splat, at an index: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_contr M K N l r j)

/-- A host `dot_general` at an index: the same sum, whatever the precision and schedule keys. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_contr M K N l r j)

end Cert.LibPlainDot

end
-- ==== Proof.LibSublaneSum.lean ====
/-
  A column sum of a matrix, read by coordinates.

  A float sum of an `[a, b]` array over its first axis, started from the zero pattern, is at column `c` the sum over the
  row coordinate `k` of the entry `(k, c)`: on the extended reals a sum has no order, and the zero it starts from adds
  nothing. Stated for any extents; the companion of the lane sum (the sum over the second axis).
-/
import Idealize.ShloMosaic.Lib.Pipeline.Value
import Idealize.ShloMosaic.Lib.ValueIdx
import Idealize.ShloMosaic.PureOps.Ideal.Laws

namespace Cert.SublaneSum

open Idealize.ShloMosaic Idealize.ShloMosaic.ValueIdx

/-- A float sum of an `[a, b]` array over axis 0 from the zero pattern, read at column `c`, is the sum over the row
    coordinate `k` of the entry `(k, c)`. -/
theorem sublaneSum_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (c : Fin b) :
    multiReduction .add [0] ⟨1, ![b]⟩ src 0x00000000#32 h hφ hacc (ix1 c) = ∑ k : Fin a, src (ix2 k c) := by
  refine (Ideal.multiReduction_add_single src _ h hφ hacc (ix1 c)).trans ?_
  refine Finset.sum_congr rfl fun k _ => congrArg src ?_
  funext d
  apply Fin.ext
  match d with
  | ⟨0, _⟩ => rfl
  | ⟨1, _⟩ => rfl

end Cert.SublaneSum
-- ==== Proof.Region0Pay.lean ====
/-
  The arithmetic of one block of the first linear layer, read entry by entry on the extended reals.

  At one grid point the body holds a block of 2000 rows of the aggregate `a` and of the features `s` (four columns
  each), the two weight matrices `wl`, `wr` (256 rows of four) and the bias `b` (one row of 256). It forms

    y(p, q) = (sum over k of a(p, k) · wl(q, k)) + (sum over k of s(p, k) · wr(q, k)) + b(q)

  — a change of float format is the identity on the extended reals, a product against the transposed weights
  contracts the two second coordinates, and the bias row is repeated down the rows. It then adds to a running row
  `acc` the column sums of `y`, and to a second running row the column sums of `y · y`. The zero rows the first grid
  point starts from are the zero of the extended reals. When the block's rows are rows `2000 t + r` of whole arrays,
  `y` is those rows of the specification's linear part: the specification adds the bias before the second sum, the
  body after it, and addition on the extended reals is commutative and associative without any finiteness.
-/
import proofs.«138899_j10342281249011_1_alg».proof.Proof.Gen.KernelIdeal.Skeleton
import proofs.«138899_j10342281249011_1_alg».proof.Proof.Spec
import proofs.«138899_j10342281249011_1_alg».proof.Proof.LibPlainDot
import proofs.«138899_j10342281249011_1_alg».proof.Proof.LibSublaneSum
import proofs.«138899_j10342281249011_1_alg».proof.Proof.Region0Blocks
import Idealize.ShloMosaic.Lib.ValueLayout
import Idealize.ShloMosaic.PureOps.Ideal.Laws

noncomputable section

namespace Cert.KernelIdeal.RegionValue

open Idealize.ShloMosaic Idealize.ShloMosaic.ValueIdx
open Cert.KernelIdeal Cert.KernelIdeal.Gen Cert.KernelIdeal.RegionValue

/-- One block of the layer's linear part at row `p`, column `q`. -/
theorem pay4_apply (a s : Vec Ideal S2000x4 .f32) (wl wr : Vec Ideal S256x4 .f32) (b : Vec Ideal S1x256 .f32)
    (p : Fin 2000) (q : Fin 256) :
    k0_pay4 (F := Ideal) a s wl wr b (ix2 p q)
      = (∑ k : Fin 4, a (ix2 p k) * wl (ix2 q k)) + (∑ k : Fin 4, s (ix2 p k) * wr (ix2 q k))
          + b (ix2 (0 : Fin 1) q) := by
  unfold k0_pay4
  refine congrArg₂ (· + ·) (congrArg₂ (· + ·) ?_ ?_) ?_
  · refine (Cert.LibPlainDot.matmul_zero_apply 2000 4 256 none _ _ (ix2 p q)).trans ?_
    refine Finset.sum_congr rfl fun k _ => congrArg₂ (· * ·) ?_ ?_
    · exact congrFun (shapeCast_self a _) (ix2 p k)
    · exact transpose_ix2_apply _ _ k q
  · refine (Cert.LibPlainDot.matmul_zero_apply 2000 4 256 none _ _ (ix2 p q)).trans ?_
    refine Finset.sum_congr rfl fun k _ => congrArg₂ (· * ·) ?_ ?_
    · exact congrFun (shapeCast_self s _) (ix2 p k)
    · exact transpose_ix2_apply _ _ k q
  · exact (broadcastTo_1b_ab_apply _ _ p q).trans (congrFun (shapeCast_self b _) _)

/-- The running row of column sums after one more block: what it held plus the block's column sums. -/
theorem pay5_apply (a s : Vec Ideal S2000x4 .f32) (wl wr : Vec Ideal S256x4 .f32) (b acc : Vec Ideal S1x256 .f32)
    (q : Fin 256) :
    k0_pay5 (F := Ideal) a s wl wr b acc (ix2 (0 : Fin 1) q)
      = acc (ix2 (0 : Fin 1) q) + ∑ r : Fin 2000, k0_pay4 (F := Ideal) a s wl wr b (ix2 r q) := by
  unfold k0_pay5
  refine congrArg₂ (· + ·) (congrFun (shapeCast_self acc _) _) ?_
  refine (shapeCast_a_1a_apply _ _ (0 : Fin 1) q).trans ?_
  exact Cert.SublaneSum.sublaneSum_apply _ _ _ _ q

/-- The running row of column sums of squares after one more block. -/
theorem pay1_apply (acc : FVec Ideal S1x256 .f32) (sq : FVec Ideal S2000x256 .f32) (q : Fin 256) :
    k0_pay1 (F := Ideal) acc sq (ix2 (0 : Fin 1) q) = acc (ix2 (0 : Fin 1) q) + ∑ r : Fin 2000, sq (ix2 r q) := by
  unfold k0_pay1
  refine congrArg₂ (· + ·) rfl ?_
  refine (shapeCast_a_1a_apply _ _ (0 : Fin 1) q).trans ?_
  exact Cert.SublaneSum.sublaneSum_apply _ _ _ _ q

/-- The running row is read back through a cast to its own shape: unchanged. -/
theorem pay6_eq (x : Vec Ideal S1x256 .f32) : k0_pay6 (F := Ideal) x = x := shapeCast_self x _

/-- The block of squares, entry by entry. -/
theorem pay7_apply (a s : Vec Ideal S2000x4 .f32) (wl wr : Vec Ideal S256x4 .f32) (b : Vec Ideal S1x256 .f32)
    (j : S2000x256.Idx) :
    k0_pay7 (F := Ideal) a s wl wr b j
      = k0_pay4 (F := Ideal) a s wl wr b j * k0_pay4 (F := Ideal) a s wl wr b j := rfl

/-- The row the first grid point resets the column sums to is zero. -/
theorem pay2_apply (j : S1x256.Idx) : k0_pay2 (F := Ideal) j = 0 := Ideal.ofBits_zero_f32

/-- The row the first grid point resets the sums of squares to is zero. -/
theorem pay3_apply (j : S1x256.Idx) : k0_pay3 (F := Ideal) j = 0 := Ideal.ofBits_zero_f32

/-- When the block's rows are rows `2000 t + r` of whole arrays, the block of the linear part is those rows of the
    specification's linear part of the whole arrays. -/
theorem blockLin (a s : Vec Ideal S2000x4 .f32) (wl wr : Vec Ideal S256x4 .f32) (b : Vec Ideal S1x256 .f32)
    (A S : Cert.Spec.Mat 50000 4) (Wl Wr : Cert.Spec.Mat 256 4) (B : Cert.Spec.Mat 1 256) (t : Fin 25)
    (ha : ∀ (r : Fin 2000) (k : Fin 4), a (ix2 r k) = A (ix2 (row t r) k))
    (hs : ∀ (r : Fin 2000) (k : Fin 4), s (ix2 r k) = S (ix2 (row t r) k))
    (hwl : ∀ (q : Fin 256) (k : Fin 4), wl (ix2 q k) = Wl (ix2 q k))
    (hwr : ∀ (q : Fin 256) (k : Fin 4), wr (ix2 q k) = Wr (ix2 q k))
    (hb : ∀ q : Fin 256, b (ix2 (0 : Fin 1) q) = B (ix2 (0 : Fin 1) q)) (r : Fin 2000) (q : Fin 256) :
    k0_pay4 (F := Ideal) a s wl wr b (ix2 r q)
      = Cert.Spec.lin A S Wl Wr (fun i => B (ix2 (0 : Fin 1) (i 0))) (ix2 (row t r) q) := by
  refine (pay4_apply a s wl wr b r q).trans ?_
  refine (add_right_comm _ _ _).trans ?_
  exact congrArg₂ (· + ·)
    (congrArg₂ (· + ·) (Finset.sum_congr rfl fun k _ => congrArg₂ (· * ·) (ha r k) (hwl q k)) (hb q))
    (Finset.sum_congr rfl fun k _ => congrArg₂ (· * ·) (hs r k) (hwr q k))

end Cert.KernelIdeal.RegionValue

end
-- ==== Proof.Region0Pieces.lean ====
/-
  What one run of the body of region 0 leaves in its three output blocks, as the body's arithmetic of the blocks it read.

  The body stores each output block whole, so a block's contents after the body are the value of its last store, and
  a load that follows a store of the whole block reads that store's value back. At the first grid point the two
  carried rows are first set to zero and then updated; at the other points they are updated from what the point
  before left. This gives a recursion on the point for the three blocks' contents, at any float model.
-/
import proofs.«138899_j10342281249011_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.RegionValue

open Cert.KernelIdeal Cert.KernelIdeal.Gen

variable {F : FTy → Type} [FloatOps F]

theorem hz : (![0, 0] : Fin 2 → Nat) = fun _ => 0 := funext fun a => by fin_cases a <;> rfl

/-! ## The first grid point (the carried rows are reset first) -/

theorem out_A_5 (c : Dev nD) (i : grid0.Coords) (a1 : Memref sig .tc .vmem S2000x4 .f32) (h1 : a1.IsWhole) (a2 : Memref sig .tc .vmem S2000x4 .f32) (h2 : a2.IsWhole) (a3 : Memref sig .tc .vmem S256x4 .f32) (h3 : a3.IsWhole) (a4 : Memref sig .tc .vmem S1x256 .f32) (h4 : a4.IsWhole) (a5 : Memref sig .tc .vmem S256x4 .f32) (h5 : a5.IsWhole) (a6 : Memref sig .tc .vmem S2000x256 .f32) (h6 : a6.IsWhole) (a7 : Memref sig .tc .vmem S1x256 .f32) (h7 : a7.IsWhole) (a8 : Memref sig .tc .vmem S1x256 .f32) (h8 : a8.IsWhole) (hc : cond0_0 i)
    (x0 : Vec F S2000x4 .f32) (x1 : Vec F S2000x4 .f32) (x2 : Vec F S256x4 .f32) (x3 : Vec F S1x256 .f32) (x4 : Vec F S256x4 .f32) :
    out0_A_5 c i a1 h1 a2 h2 a3 h3 a4 h4 a5 h5 a6 h6 a7 h7 a8 h8 hc x0 x1 x2 x3 x4 = k0_pay4 x0 x1 x2 x4 x3 := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S2000x4) hz, View.ld_unit_zero (S := S256x4) hz, View.ld_unit_zero (S := S1x256) hz, View.ld_unit_zero (S := S2000x256) hz]

theorem out_A_6 (c : Dev nD) (i : grid0.Coords) (a1 : Memref sig .tc .vmem S2000x4 .f32) (h1 : a1.IsWhole) (a2 : Memref sig .tc .vmem S2000x4 .f32) (h2 : a2.IsWhole) (a3 : Memref sig .tc .vmem S256x4 .f32) (h3 : a3.IsWhole) (a4 : Memref sig .tc .vmem S1x256 .f32) (h4 : a4.IsWhole) (a5 : Memref sig .tc .vmem S256x4 .f32) (h5 : a5.IsWhole) (a6 : Memref sig .tc .vmem S2000x256 .f32) (h6 : a6.IsWhole) (a7 : Memref sig .tc .vmem S1x256 .f32) (h7 : a7.IsWhole) (a8 : Memref sig .tc .vmem S1x256 .f32) (h8 : a8.IsWhole) (hc : cond0_0 i)
    (x0 : Vec F S2000x4 .f32) (x1 : Vec F S2000x4 .f32) (x2 : Vec F S256x4 .f32) (x3 : Vec F S1x256 .f32) (x4 : Vec F S256x4 .f32) :
    out0_A_6 c i a1 h1 a2 h2 a3 h3 a4 h4 a5 h5 a6 h6 a7 h7 a8 h8 hc x0 x1 x2 x3 x4 = k0_pay5 x0 x1 x2 x4 x3 (k0_pay2 (F := F)) := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  sl_unfold_words
  rw [View.canon_cons_unit_zero (S := S1x256) hz, View.readCov_unit_zero (S := S1x256) _ hz]
  simp only [View.readAt_eq_ld, h1.read_unread, h2.read_unread, h3.read_unread, h4.read_unread, h5.read_unread, h6.read_unread, h7.read_unread, h8.read_unread, View.ld_unit_zero (S := S2000x4) hz, View.ld_unit_zero (S := S256x4) hz, View.ld_unit_zero (S := S1x256) hz, View.ld_unit_zero (S := S2000x256) hz]

theorem out_A_7 (c : Dev nD) (i : grid0.Coords) (a1 : Memref sig .tc .vmem S2000x4 .f32) (h1 : a1.IsWhole) (a2 : Memref sig .tc .vmem S2000x4 .f32) (h2 : a2.IsWhole) (a3 : Memref sig .tc .vmem S256x4 .f32) (h3 : a3.IsWhole) (a4 : Memref sig .tc .vmem S1x256 .f32) (h4 : a4.IsWhole) (a5 : Memref sig .tc .vmem S256x4 .f32) (h5 : a5.IsWhole) (a6 : Memref sig .tc .vmem S2000x256 .f32) (h6 : a6.IsWhole) (a7 : Memref sig .tc .vmem S1x256 .f32) (h7 : a7.IsWhole) (a8 : Memref sig .tc .vmem S1x256 .f32) (h8 : a8.IsWhole) (hc : cond0_0 i)
    (x0 : Vec F S2000x4 .f32) (x1 : Vec F S2000x4 .f32) (x2 : Vec F S256x4 .f32) (x3 : Vec F S1x256 .f32) (x4 : Vec F S256x4 .f32) :
    out0_A_7 c i a1 h1 a2 h2 a3 h3 a4 h4 a5 h5 a6 h6 a7 h7 a8 h8 hc x0 x1 x2 x3 x4 = k0_pay1 (k0_pay6 (k0_pay3 (F := F))) (k0_pay7 x0 x1 x2 x4 x3) := by
  unfold out0_A_7
  rw [View.read_writes_eq_canon _ _ _ (cover0_A_7 c i a1 h1 a2 h2 a3 h3 a4 h4 a5 h5 a6 h6 a7 h7 a8 h8 hc x0 x1 x2 x3 x4)]
  unfold kernelRun0_A
  dsimp only
  sl_unfold_words
  rw [View.canon_cons_unit_zero (S := S1x256) hz, View.readCov_unit_zero (S := S1x256) _ hz]
  simp only [View.readAt_eq_ld, h1.read_unread, h2.read_unread, h3.read_unread, h4.read_unread, h5.read_unread, h6.read_unread, h7.read_unread, h8.read_unread, View.ld_unit_zero (S := S2000x4) hz, View.ld_unit_zero (S := S256x4) hz, View.ld_unit_zero (S := S1x256) hz, View.ld_unit_zero (S := S2000x256) hz]

/-! ## The other grid points (the carried rows hold what the point before left) -/

theorem out_B_5 (c : Dev nD) (i : grid0.Coords) (a1 : Memref sig .tc .vmem S2000x4 .f32) (h1 : a1.IsWhole) (a2 : Memref sig .tc .vmem S2000x4 .f32) (h2 : a2.IsWhole) (a3 : Memref sig .tc .vmem S256x4 .f32) (h3 : a3.IsWhole) (a4 : Memref sig .tc .vmem S1x256 .f32) (h4 : a4.IsWhole) (a5 : Memref sig .tc .vmem S256x4 .f32) (h5 : a5.IsWhole) (a6 : Memref sig .tc .vmem S2000x256 .f32) (h6 : a6.IsWhole) (a7 : Memref sig .tc .vmem S1x256 .f32) (h7 : a7.IsWhole) (a8 : Memref sig .tc .vmem S1x256 .f32) (h8 : a8.IsWhole) (hc : ¬cond0_0 i)
    (x0 : Vec F S2000x4 .f32) (x1 : Vec F S2000x4 .f32) (x2 : Vec F S256x4 .f32) (x3 : Vec F S1x256 .f32) (x4 : Vec F S256x4 .f32) (xo6 xo7 : Vec F S1x256 .f32) :
    out0_B_5 c i a1 h1 a2 h2 a3 h3 a4 h4 a5 h5 a6 h6 a7 h7 a8 h8 hc x0 x1 x2 x3 x4 xo6 xo7 = k0_pay4 x0 x1 x2 x4 x3 := by
  unfold out0_B_5
  rw [View.read_writes_eq_canon _ _ _ (cover0_B_5 c i a1 h1 a2 h2 a3 h3 a4 h4 a5 h5 a6 h6 a7 h7 a8 h8 hc x0 x1 x2 x3 x4 xo6 xo7)]
  unfold kernelRun0_B
  dsimp only
  rw [View.canon_unit_zero hz]
  simp only [View.readAt_eq_ld, h1.read_unread, h2.read_unread, h3.read_unread, h4.read_unread, h5.read_unread, h6.read_unread, h7.read_unread, h8.read_unread, View.ld_unit_zero (S := S2000x4) hz, View.ld_unit_zero (S := S256x4) hz, View.ld_unit_zero (S := S1x256) hz, View.ld_unit_zero (S := S2000x256) hz]

theorem out_B_6 (c : Dev nD) (i : grid0.Coords) (a1 : Memref sig .tc .vmem S2000x4 .f32) (h1 : a1.IsWhole) (a2 : Memref sig .tc .vmem S2000x4 .f32) (h2 : a2.IsWhole) (a3 : Memref sig .tc .vmem S256x4 .f32) (h3 : a3.IsWhole) (a4 : Memref sig .tc .vmem S1x256 .f32) (h4 : a4.IsWhole) (a5 : Memref sig .tc .vmem S256x4 .f32) (h5 : a5.IsWhole) (a6 : Memref sig .tc .vmem S2000x256 .f32) (h6 : a6.IsWhole) (a7 : Memref sig .tc .vmem S1x256 .f32) (h7 : a7.IsWhole) (a8 : Memref sig .tc .vmem S1x256 .f32) (h8 : a8.IsWhole) (hc : ¬cond0_0 i)
    (x0 : Vec F S2000x4 .f32) (x1 : Vec F S2000x4 .f32) (x2 : Vec F S256x4 .f32) (x3 : Vec F S1x256 .f32) (x4 : Vec F S256x4 .f32) (xo6 xo7 : Vec F S1x256 .f32) :
    out0_B_6 c i a1 h1 a2 h2 a3 h3 a4 h4 a5 h5 a6 h6 a7 h7 a8 h8 hc x0 x1 x2 x3 x4 xo6 xo7 = k0_pay5 x0 x1 x2 x4 x3 xo6 := by
  unfold out0_B_6
  rw [View.read_writes_eq_canon _ _ _ (cover0_B_6 c i a1 h1 a2 h2 a3 h3 a4 h4 a5 h5 a6 h6 a7 h7 a8 h8 hc x0 x1 x2 x3 x4 xo6 xo7)]
  unfold kernelRun0_B
  dsimp only
  rw [View.canon_unit_zero hz]
  simp only [View.readAt_eq_ld, h1.read_unread, h2.read_unread, h3.read_unread, h4.read_unread, h5.read_unread, h6.read_unread, h7.read_unread, h8.read_unread, View.ld_unit_zero (S := S2000x4) hz, View.ld_unit_zero (S := S256x4) hz, View.ld_unit_zero (S := S1x256) hz, View.ld_unit_zero (S := S2000x256) hz]

theorem out_B_7 (c : Dev nD) (i : grid0.Coords) (a1 : Memref sig .tc .vmem S2000x4 .f32) (h1 : a1.IsWhole) (a2 : Memref sig .tc .vmem S2000x4 .f32) (h2 : a2.IsWhole) (a3 : Memref sig .tc .vmem S256x4 .f32) (h3 : a3.IsWhole) (a4 : Memref sig .tc .vmem S1x256 .f32) (h4 : a4.IsWhole) (a5 : Memref sig .tc .vmem S256x4 .f32) (h5 : a5.IsWhole) (a6 : Memref sig .tc .vmem S2000x256 .f32) (h6 : a6.IsWhole) (a7 : Memref sig .tc .vmem S1x256 .f32) (h7 : a7.IsWhole) (a8 : Memref sig .tc .vmem S1x256 .f32) (h8 : a8.IsWhole) (hc : ¬cond0_0 i)
    (x0 : Vec F S2000x4 .f32) (x1 : Vec F S2000x4 .f32) (x2 : Vec F S256x4 .f32) (x3 : Vec F S1x256 .f32) (x4 : Vec F S256x4 .f32) (xo6 xo7 : Vec F S1x256 .f32) :
    out0_B_7 c i a1 h1 a2 h2 a3 h3 a4 h4 a5 h5 a6 h6 a7 h7 a8 h8 hc x0 x1 x2 x3 x4 xo6 xo7 = k0_pay1 (k0_pay6 xo7) (k0_pay7 x0 x1 x2 x4 x3) := by
  unfold out0_B_7
  rw [View.read_writes_eq_canon _ _ _ (cover0_B_7 c i a1 h1 a2 h2 a3 h3 a4 h4 a5 h5 a6 h6 a7 h7 a8 h8 hc x0 x1 x2 x3 x4 xo6 xo7)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S2000x4) hz, View.ld_unit_zero (S := S256x4) hz, View.ld_unit_zero (S := S1x256) hz, View.ld_unit_zero (S := S2000x256) hz]

/-! ## The recursion on the point -/

variable (V : (c : Dev nD) → (b : Ref sig .tc) → Buf (Elt F) ((c : Thread nD τ).loc b))

/-- After the first point: the block of the linear part, and the two carried rows updated from zero. -/
theorem outsAt0_zero (c : Dev nD) (h : 0 < cfg0.N) :
    outsAt0 V c 0 h =
      (k0_pay4 (iblk0 V c 0 ⟨0, h⟩) (iblk0 V c 1 ⟨0, h⟩) (iblk0 V c 2 ⟨0, h⟩) (iblk0 V c 4 ⟨0, h⟩) (iblk0 V c 3 ⟨0, h⟩),
       k0_pay5 (iblk0 V c 0 ⟨0, h⟩) (iblk0 V c 1 ⟨0, h⟩) (iblk0 V c 2 ⟨0, h⟩) (iblk0 V c 4 ⟨0, h⟩) (iblk0 V c 3 ⟨0, h⟩) (k0_pay2 (F := F)),
       k0_pay1 (k0_pay6 (k0_pay3 (F := F))) (k0_pay7 (iblk0 V c 0 ⟨0, h⟩) (iblk0 V c 1 ⟨0, h⟩) (iblk0 V c 2 ⟨0, h⟩) (iblk0 V c 4 ⟨0, h⟩) (iblk0 V c 3 ⟨0, h⟩))) :=
  (outsAt0_A V c ⟨0, h⟩ rfl).trans
    (congrArg₂ Prod.mk
      (out_A_5 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) ((hcond0_0 ⟨0, h⟩).mpr rfl) (iblk0 V c 0 ⟨0, h⟩) (iblk0 V c 1 ⟨0, h⟩) (iblk0 V c 2 ⟨0, h⟩) (iblk0 V c 3 ⟨0, h⟩) (iblk0 V c 4 ⟨0, h⟩))
      (congrArg₂ Prod.mk
        (out_A_6 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) ((hcond0_0 ⟨0, h⟩).mpr rfl) (iblk0 V c 0 ⟨0, h⟩) (iblk0 V c 1 ⟨0, h⟩) (iblk0 V c 2 ⟨0, h⟩) (iblk0 V c 3 ⟨0, h⟩) (iblk0 V c 4 ⟨0, h⟩))
        (out_A_7 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) ((hcond0_0 ⟨0, h⟩).mpr rfl) (iblk0 V c 0 ⟨0, h⟩) (iblk0 V c 1 ⟨0, h⟩) (iblk0 V c 2 ⟨0, h⟩) (iblk0 V c 3 ⟨0, h⟩) (iblk0 V c 4 ⟨0, h⟩))))

/-- After a later point: the block of the linear part, and the two carried rows updated from the point before. -/
theorem outsAt0_succ (c : Dev nD) (n : ℕ) (h : n + 1 < cfg0.N) :
    outsAt0 V c (n + 1) h =
      (k0_pay4 (iblk0 V c 0 ⟨n + 1, h⟩) (iblk0 V c 1 ⟨n + 1, h⟩) (iblk0 V c 2 ⟨n + 1, h⟩) (iblk0 V c 4 ⟨n + 1, h⟩) (iblk0 V c 3 ⟨n + 1, h⟩),
       k0_pay5 (iblk0 V c 0 ⟨n + 1, h⟩) (iblk0 V c 1 ⟨n + 1, h⟩) (iblk0 V c 2 ⟨n + 1, h⟩) (iblk0 V c 4 ⟨n + 1, h⟩) (iblk0 V c 3 ⟨n + 1, h⟩) (outsAt0 V c n (Nat.lt_of_succ_lt h)).2.1,
       k0_pay1 (k0_pay6 (outsAt0 V c n (Nat.lt_of_succ_lt h)).2.2) (k0_pay7 (iblk0 V c 0 ⟨n + 1, h⟩) (iblk0 V c 1 ⟨n + 1, h⟩) (iblk0 V c 2 ⟨n + 1, h⟩) (iblk0 V c 4 ⟨n + 1, h⟩) (iblk0 V c 3 ⟨n + 1, h⟩))) := by
  have hN : cfg0.N = 25 := N_0
  have hB : ¬(⟨n + 1, h⟩ : Fin cfg0.N).val % 25 = 0 := by dsimp only; omega
  exact (outsAt0_B V c ⟨n + 1, h⟩ hB).trans
    (congrArg₂ Prod.mk
      (out_B_5 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (fun hh => hB ((hcond0_0 ⟨n + 1, h⟩).mp hh)) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (outsAt0 V c ((⟨n + 1, h⟩ : Fin cfg0.N).val - 1) (Nat.lt_of_le_of_lt (Nat.sub_le _ _) (⟨n + 1, h⟩ : Fin cfg0.N).isLt)).2.1 (outsAt0 V c ((⟨n + 1, h⟩ : Fin cfg0.N).val - 1) (Nat.lt_of_le_of_lt (Nat.sub_le _ _) (⟨n + 1, h⟩ : Fin cfg0.N).isLt)).2.2)
      (congrArg₂ Prod.mk
        (out_B_6 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (fun hh => hB ((hcond0_0 ⟨n + 1, h⟩).mp hh)) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (outsAt0 V c ((⟨n + 1, h⟩ : Fin cfg0.N).val - 1) (Nat.lt_of_le_of_lt (Nat.sub_le _ _) (⟨n + 1, h⟩ : Fin cfg0.N).isLt)).2.1 (outsAt0 V c ((⟨n + 1, h⟩ : Fin cfg0.N).val - 1) (Nat.lt_of_le_of_lt (Nat.sub_le _ _) (⟨n + 1, h⟩ : Fin cfg0.N).isLt)).2.2)
        (out_B_7 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (fun hh => hB ((hcond0_0 ⟨n + 1, h⟩).mp hh)) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (outsAt0 V c ((⟨n + 1, h⟩ : Fin cfg0.N).val - 1) (Nat.lt_of_le_of_lt (Nat.sub_le _ _) (⟨n + 1, h⟩ : Fin cfg0.N).isLt)).2.1 (outsAt0 V c ((⟨n + 1, h⟩ : Fin cfg0.N).val - 1) (Nat.lt_of_le_of_lt (Nat.sub_le _ _) (⟨n + 1, h⟩ : Fin cfg0.N).isLt)).2.2)))

end Cert.KernelIdeal.RegionValue

end
-- ==== Proof.Region0.lean ====
/-
  The first linear layer with its column statistics, as region 0 of the kernel leaves them.

  The region runs 25 grid points; point `t` holds rows `2000 t … 2000 t + 1999` of the aggregate and of the features,
  and the whole weight matrices and bias. It writes back those rows of the layer's linear part (output window 5, one
  block per point), and carries two rows of 256 across the points (output windows 6 and 7: reset at the first point,
  written back once after the last): the column sums of the linear part and the column sums of its squares.

  What each point leaves is read off as a recursion on the point: the block of the linear part; the running row plus
  the block's column sums; the running row plus the block's column sums of squares. By induction the running rows
  after point `n` are the sums over the blocks `0 … n`; after the last point they are the sums over all 25 blocks of
  2000 rows, which are the sums over the 50000 rows. The blocks written back by window 5 tile its array, and the
  last point's write-back of windows 6 and 7 is their whole array.
-/
import proofs.«138899_j10342281249011_1_alg».proof.Proof.Gen.KernelIdeal.Frame
import proofs.«138899_j10342281249011_1_alg».proof.Proof.Spec
import proofs.«138899_j10342281249011_1_alg».proof.Proof.Region0Blocks
import proofs.«138899_j10342281249011_1_alg».proof.Proof.Region0Pay
import proofs.«138899_j10342281249011_1_alg».proof.Proof.Region0Pieces
import Idealize.ShloMosaic.Lib.Pipeline.Value
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)

namespace Cert.KernelIdeal.RegionValue

open Cert.KernelIdeal Cert.KernelIdeal.Gen Cert.KernelIdeal.RegionValue

variable (V : (c : Dev nD) → (b : Ref sig .tc) → Buf (Elt Ideal) ((c : Thread nD τ).loc b))

theorem hN0 : cfg0.N = 25 := N_0

/-- The block of rows a grid point works on. -/
def blockOf0 (t : Fin cfg0.N) : Fin 25 := Fin.cast hN0 t

/-- The windows' block indices, decided over the grid: windows 0, 1 and 5 move down the rows with the point, the
    others stay on their one block. -/
theorem idx0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = t.val
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0 :=
  (by decide +kernel : ∀ t : Fin grid0.N, _)

/-! ## The input blocks, read off their arrays -/

/-- Row `r` of window 0's block at point `t` is row `2000 t + r` of its array. -/
theorem read0_0 (c : Dev nD) (t : Fin cfg0.N) (r : Fin 2000) (k : Fin 4) :
    iblk0 V c 0 t (ix2 r k) = V c main_v30 (ix2 (row (blockOf0 t) r) k) := by
  unfold iblk0
  rw [View.read_apply]
  show V c main_v30 (((cfg0.win 0).blk t).view.emb (ix2 r k)) = V c main_v30 _
  refine congrArg (V c main_v30) (funext fun a => Fin.ext ?_)
  obtain ⟨e00, e01, e10, e11, e20, e21, e30, e31, e40, e41, e50, e51, e60, e61, e70, e71⟩ := idx0 t
  match a with
  | ⟨0, _⟩ => show win0_0.index t (0 : Fin 2) * 2000 + 1 * r.val = 2000 * t.val + r.val; rw [e00]; omega
  | ⟨1, _⟩ => show win0_0.index t (1 : Fin 2) * 4 + 1 * k.val = k.val; rw [e01]; omega

/-- Row `r` of window 1's block at point `t` is row `2000 t + r` of its array. -/
theorem read0_1 (c : Dev nD) (t : Fin cfg0.N) (r : Fin 2000) (k : Fin 4) :
    iblk0 V c 1 t (ix2 r k) = V c main_v18 (ix2 (row (blockOf0 t) r) k) := by
  unfold iblk0
  rw [View.read_apply]
  show V c main_v18 (((cfg0.win 1).blk t).view.emb (ix2 r k)) = V c main_v18 _
  refine congrArg (V c main_v18) (funext fun a => Fin.ext ?_)
  obtain ⟨e00, e01, e10, e11, e20, e21, e30, e31, e40, e41, e50, e51, e60, e61, e70, e71⟩ := idx0 t
  match a with
  | ⟨0, _⟩ => show win0_1.index t (0 : Fin 2) * 2000 + 1 * r.val = 2000 * t.val + r.val; rw [e10]; omega
  | ⟨1, _⟩ => show win0_1.index t (1 : Fin 2) * 4 + 1 * k.val = k.val; rw [e11]; omega

/-- Window 2's one block is its whole array. -/
theorem read0_2 (c : Dev nD) (t : Fin cfg0.N) (p : Fin 256) (k : Fin 4) :
    iblk0 V c 2 t (ix2 p k) = V c main_arg2 (ix2 p k) := by
  unfold iblk0
  rw [View.read_apply]
  show V c main_arg2 (((cfg0.win 2).blk t).view.emb (ix2 p k)) = V c main_arg2 _
  refine congrArg (V c main_arg2) (funext fun a => Fin.ext ?_)
  obtain ⟨e00, e01, e10, e11, e20, e21, e30, e31, e40, e41, e50, e51, e60, e61, e70, e71⟩ := idx0 t
  match a with
  | ⟨0, _⟩ => show win0_2.index t (0 : Fin 2) * 256 + 1 * p.val = p.val; rw [e20]; omega
  | ⟨1, _⟩ => show win0_2.index t (1 : Fin 2) * 4 + 1 * k.val = k.val; rw [e21]; omega

/-- Window 3's one block is its whole array. -/
theorem read0_3 (c : Dev nD) (t : Fin cfg0.N) (p : Fin 1) (k : Fin 256) :
    iblk0 V c 3 t (ix2 p k) = V c main_v31 (ix2 p k) := by
  unfold iblk0
  rw [View.read_apply]
  show V c main_v31 (((cfg0.win 3).blk t).view.emb (ix2 p k)) = V c main_v31 _
  refine congrArg (V c main_v31) (funext fun a => Fin.ext ?_)
  obtain ⟨e00, e01, e10, e11, e20, e21, e30, e31, e40, e41, e50, e51, e60, e61, e70, e71⟩ := idx0 t
  match a with
  | ⟨0, _⟩ => show win0_3.index t (0 : Fin 2) * 1 + 1 * p.val = p.val; rw [e30]; omega
  | ⟨1, _⟩ => show win0_3.index t (1 : Fin 2) * 256 + 1 * k.val = k.val; rw [e31]; omega

/-- Window 4's one block is its whole array. -/
theorem read0_4 (c : Dev nD) (t : Fin cfg0.N) (p : Fin 256) (k : Fin 4) :
    iblk0 V c 4 t (ix2 p k) = V c main_arg4 (ix2 p k) := by
  unfold iblk0
  rw [View.read_apply]
  show V c main_arg4 (((cfg0.win 4).blk t).view.emb (ix2 p k)) = V c main_arg4 _
  refine congrArg (V c main_arg4) (funext fun a => Fin.ext ?_)
  obtain ⟨e00, e01, e10, e11, e20, e21, e30, e31, e40, e41, e50, e51, e60, e61, e70, e71⟩ := idx0 t
  match a with
  | ⟨0, _⟩ => show win0_4.index t (0 : Fin 2) * 256 + 1 * p.val = p.val; rw [e40]; omega
  | ⟨1, _⟩ => show win0_4.index t (1 : Fin 2) * 4 + 1 * k.val = k.val; rw [e41]; omega

/-! ## One grid point -/

/-- The layer's linear part of the arrays as the region finds them. -/
abbrev lin0 (c : Dev nD) : Cert.Spec.Mat 50000 256 :=
  Cert.Spec.lin (K := 4) (V c main_v30) (V c main_v18) (V c main_arg2) (V c main_arg4) (fun i => V c main_v31 (ValueIdx.ix2 0 (i 0)))

/-- The column sums of block `t` of the linear part. -/
def colBlock0 (c : Dev nD) (q : Fin 256) (t : Fin 25) : EReal :=
  ∑ r : Fin 2000, lin0 V c (ix2 (row t r) q)

/-- The column sums of squares of block `t` of the linear part. -/
def sqBlock0 (c : Dev nD) (q : Fin 256) (t : Fin 25) : EReal :=
  ∑ r : Fin 2000, lin0 V c (ix2 (row t r) q) * lin0 V c (ix2 (row t r) q)

/-- The block of the linear part a point computes is its block of rows of the whole linear part. -/
theorem point_lin (c : Dev nD) (t : Fin cfg0.N) (r : Fin 2000) (q : Fin 256) :
    k0_pay4 (F := Ideal) (iblk0 V c 0 t) (iblk0 V c 1 t) (iblk0 V c 2 t) (iblk0 V c 4 t) (iblk0 V c 3 t) (ix2 r q)
      = lin0 V c (ix2 (row (blockOf0 t) r) q) :=
  blockLin (iblk0 V c 0 t) (iblk0 V c 1 t) (iblk0 V c 2 t) (iblk0 V c 4 t) (iblk0 V c 3 t)
    (V c main_v30) (V c main_v18) (V c main_arg2) (V c main_arg4) (V c main_v31) (blockOf0 t)
    (read0_0 V c t) (read0_1 V c t) (read0_2 V c t) (read0_4 V c t) (read0_3 V c t (0 : Fin 1)) r q

/-- The running row of column sums after a point: what it held plus the point's block's column sums. -/
theorem point_sum (c : Dev nD) (t : Fin cfg0.N) (acc : Vec Ideal S1x256 .f32) (q : Fin 256) :
    k0_pay5 (F := Ideal) (iblk0 V c 0 t) (iblk0 V c 1 t) (iblk0 V c 2 t) (iblk0 V c 4 t) (iblk0 V c 3 t) acc (ix2 (0 : Fin 1) q)
      = acc (ix2 (0 : Fin 1) q) + colBlock0 V c q (blockOf0 t) :=
  (pay5_apply (iblk0 V c 0 t) (iblk0 V c 1 t) (iblk0 V c 2 t) (iblk0 V c 4 t) (iblk0 V c 3 t) acc q).trans
    (congrArg (acc (ix2 (0 : Fin 1) q) + ·) (Finset.sum_congr rfl fun r _ => point_lin V c t r q))

/-- The running row of column sums of squares after a point. -/
theorem point_sq (c : Dev nD) (t : Fin cfg0.N) (acc : Vec Ideal S1x256 .f32) (q : Fin 256) :
    k0_pay1 (F := Ideal) (k0_pay6 acc) (k0_pay7 (iblk0 V c 0 t) (iblk0 V c 1 t) (iblk0 V c 2 t) (iblk0 V c 4 t) (iblk0 V c 3 t)) (ix2 (0 : Fin 1) q)
      = acc (ix2 (0 : Fin 1) q) + sqBlock0 V c q (blockOf0 t) :=
  (pay1_apply (k0_pay6 acc) (k0_pay7 (iblk0 V c 0 t) (iblk0 V c 1 t) (iblk0 V c 2 t) (iblk0 V c 4 t) (iblk0 V c 3 t)) q).trans
    (congrArg₂ (· + ·) (congrFun (pay6_eq acc) _)
      (Finset.sum_congr rfl fun r _ => congrArg₂ (· * ·) (point_lin V c t r q) (point_lin V c t r q)))

/-! ## All the points: the running rows are the sums over the blocks so far -/

theorem outsAt0_eq (c : Dev nD) : ∀ (n : ℕ) (h : n < cfg0.N),
    (∀ (r : Fin 2000) (q : Fin 256),
        (outsAt0 V c n h).1 (ix2 r q) = lin0 V c (ix2 (row (blockOf0 ⟨n, h⟩) r) q))
    ∧ (∀ q : Fin 256, (outsAt0 V c n h).2.1 (ix2 (0 : Fin 1) q) = upTo (colBlock0 V c q) n)
    ∧ (∀ q : Fin 256, (outsAt0 V c n h).2.2 (ix2 (0 : Fin 1) q) = upTo (sqBlock0 V c q) n)
  | 0, h => by
    rw [outsAt0_zero V c h]
    refine ⟨fun r q => point_lin V c ⟨0, h⟩ r q, fun q => ?_, fun q => ?_⟩
    · refine (point_sum V c ⟨0, h⟩ (k0_pay2 (F := Ideal)) q).trans ?_
      exact (congrArg₂ (· + ·) (pay2_apply _) rfl).trans ((zero_add _).trans (upTo_zero (colBlock0 V c q)).symm)
    · refine (point_sq V c ⟨0, h⟩ (k0_pay3 (F := Ideal)) q).trans ?_
      exact (congrArg₂ (· + ·) (pay3_apply _) rfl).trans ((zero_add _).trans (upTo_zero (sqBlock0 V c q)).symm)
  | n + 1, h => by
    obtain ⟨-, ih6, ih7⟩ := outsAt0_eq c n (Nat.lt_of_succ_lt h)
    have hn : n + 1 < 25 := hN0 ▸ h
    rw [outsAt0_succ V c n h]
    refine ⟨fun r q => point_lin V c ⟨n + 1, h⟩ r q, fun q => ?_, fun q => ?_⟩
    · refine (point_sum V c ⟨n + 1, h⟩ (outsAt0 V c n (Nat.lt_of_succ_lt h)).2.1 q).trans ?_
      exact (congrArg₂ (· + ·) (ih6 q) rfl).trans (upTo_succ (colBlock0 V c q) n hn).symm
    · refine (point_sq V c ⟨n + 1, h⟩ (outsAt0 V c n (Nat.lt_of_succ_lt h)).2.2 q).trans ?_
      exact (congrArg₂ (· + ·) (ih7 q) rfl).trans (upTo_succ (sqBlock0 V c q) n hn).symm

/-! ## Output window 5: the linear part, block by block -/

theorem flushed0_5 (c : Dev nD) (t : Fin cfg0.N) :
    (dat0 V c).flushed 5 t = ((cfg0.win 5).blk t).view.read (Elt Ideal) (lin0 V c) := by
  show (cfg0.win 5).cut (grid0.coords t) ((dat0 V c).after 5 t) = _
  rw [after0_5]
  funext j
  obtain ⟨p, q, rfl⟩ : ∃ (p : Fin 2000) (q : Fin 256), j = ix2 p q := ⟨j 0, j 1, eq_ix2 j⟩
  rw [View.read_apply]
  refine ((outsAt0_eq V c t.val t.isLt).1 p q).trans ?_
  show lin0 V c (ix2 (row (blockOf0 t) p) q) = lin0 V c (((cfg0.win 5).blk t).view.emb (ix2 p q))
  refine congrArg (lin0 V c) (funext fun a => Fin.ext ?_)
  obtain ⟨e00, e01, e10, e11, e20, e21, e30, e31, e40, e41, e50, e51, e60, e61, e70, e71⟩ := idx0 t
  match a with
  | ⟨0, _⟩ => show 2000 * t.val + p.val = win0_5.index t (0 : Fin 2) * 2000 + 1 * p.val; rw [e50]; omega
  | ⟨1, _⟩ => show q.val = win0_5.index t (1 : Fin 2) * 256 + 1 * q.val; rw [e51]; omega

/-- An index of the array is in point `t`'s block iff each coordinate is in the block's range on its axis. -/
theorem mem_blk0_5 (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v32_0).slice (win0_5.rect t)).set ↔ _
  rw [View.set_slice_whole, Rect.mem_set_unit]
  exact Iff.rfl

/-- Row `p` of the array is in the block of point `p / 2000`. -/
theorem cover0_5 (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  have hN := hN0
  have ht : (i 0).val / 2000 < cfg0.N := by rw [hN]; omega
  obtain ⟨t, htv⟩ : ∃ t : Fin cfg0.N, t.val = (i 0).val / 2000 := ⟨⟨(i 0).val / 2000, ht⟩, rfl⟩
  obtain ⟨e00, e01, e10, e11, e20, e21, e30, e31, e40, e41, e50, e51, e60, e61, e70, e71⟩ := idx0 t
  refine ⟨t, flush0_5 t, ?_⟩
  rw [mem_blk0_5]
  intro a
  match a with
  | ⟨0, _⟩ =>
    show win0_5.index t (0 : Fin 2) * 2000 ≤ (i 0).val ∧ (i 0).val < win0_5.index t (0 : Fin 2) * 2000 + 2000
    rw [e50, htv]; omega
  | ⟨1, _⟩ =>
    show win0_5.index t (1 : Fin 2) * 256 ≤ (i 1).val ∧ (i 1).val < win0_5.index t (1 : Fin 2) * 256 + 256
    rw [e51]; omega

/-- The array of output window 5 ends holding the layer's linear part. -/
theorem region0_lin (c : Dev nD) :
    (dat0 (F := Ideal) V c).arrAt 5 cfg0.N = Cert.Spec.lin (K := 4) (V c main_v30) (V c main_v18) (V c main_arg2) (V c main_arg4) (fun i => V c main_v31 (ValueIdx.ix2 0 (i 0))) :=
  (dat0 V c).arrAt_eq_of_cover 5 (lin0 V c) (fun t _ => flushed0_5 V c t) (cover0_5)

/-! ## Output windows 6 and 7: the column sums and the column sums of squares, written back after the last point -/

/-- The sum of column `q` of the linear part over the 50000 rows. -/
def colSumOf0 (c : Dev nD) (q : Fin 256) : EReal := Cert.Spec.colSum (lin0 V c) q

/-- The sum of the squares of column `q` of the linear part over the 50000 rows. -/
def sqSumOf0 (c : Dev nD) (q : Fin 256) : EReal :=
  ∑ p : Fin 50000, lin0 V c (ix2 p q) * lin0 V c (ix2 p q)

/-- The sum over the 25 blocks of the blocks' column sums is the column sum over the 50000 rows. -/
theorem upTo_col (c : Dev nD) (q : Fin 256) : upTo (colBlock0 V c q) 24 = colSumOf0 V c q :=
  (upTo_last _).trans (sum_blocks fun p => lin0 V c (ix2 p q))

theorem upTo_sq (c : Dev nD) (q : Fin 256) : upTo (sqBlock0 V c q) 24 = sqSumOf0 V c q :=
  (upTo_last _).trans (sum_blocks fun p => lin0 V c (ix2 p q) * lin0 V c (ix2 p q))

/-- The one block of window 6 is its whole row: a row given column by column is read back column by column. -/
theorem read_row0_6 (t : Fin cfg0.N) (g : Fin 256 → EReal) (q : Fin 256) :
    ((cfg0.win 6).blk t).view.read (Elt Ideal) (fun j : S1x256.Idx => g (j 1)) (ix2 (0 : Fin 1) q) = g q := by
  rw [View.read_apply]
  obtain ⟨e00, e01, e10, e11, e20, e21, e30, e31, e40, e41, e50, e51, e60, e61, e70, e71⟩ := idx0 t
  show g ((((cfg0.win 6).blk t).view.emb (ix2 (0 : Fin 1) q)) 1) = g q
  refine congrArg g (Fin.ext ?_)
  show win0_6.index t (1 : Fin 2) * 256 + 1 * q.val = q.val
  rw [e61]; omega

theorem flushed0_6 (c : Dev nD) (t : Fin cfg0.N) (hf : (cfg0.win 6).flush t = true) :
    (dat0 V c).flushed 6 t = ((cfg0.win 6).blk t).view.read (Elt Ideal)
      (fun j : S1x256.Idx => colSumOf0 V c (j 1)) := by
  have hN := hN0
  have h24 : t.val = 24 := by have := (flush0_6 t).mp hf; have := t.isLt; omega
  show (cfg0.win 6).cut (grid0.coords t) ((dat0 V c).after 6 t) = _
  rw [after0_6]
  funext j
  obtain ⟨u, q, rfl⟩ : ∃ (u : Fin 1) (q : Fin 256), j = ix2 u q := ⟨j 0, j 1, eq_ix2 j⟩
  obtain rfl : u = 0 := Subsingleton.elim _ _
  refine ((outsAt0_eq V c t.val t.isLt).2.1 q).trans ?_
  refine (congrArg (upTo (colBlock0 V c q)) h24).trans ((upTo_col V c q).trans ?_)
  exact (read_row0_6 t (colSumOf0 V c) q).symm

theorem mem_blk0_6 (t : Fin cfg0.N) (i : S1x256.Idx) :
    i ∈ ((cfg0.win 6).blk t).view.set ↔ ∀ a : Fin 2, win0_6.index t a * S1x256.size a ≤ (i a).val ∧ (i a).val < win0_6.index t a * S1x256.size a + S1x256.size a := by
  show i ∈ ((View.whole main_v32_1).slice (win0_6.rect t)).set ↔ _
  rw [View.set_slice_whole, Rect.mem_set_unit]
  exact Iff.rfl

theorem cover0_6 (i : S1x256.Idx) :
    ∃ t : Fin cfg0.N, (cfg0.win 6).flush t = true ∧ i ∈ ((cfg0.win 6).blk t).view.set := by
  have hi0 : (i 0).val < 1 := (i 0).isLt
  have hi1 : (i 1).val < 256 := (i 1).isLt
  have hN := hN0
  obtain ⟨t, htv⟩ : ∃ t : Fin cfg0.N, t.val = 24 := ⟨⟨24, by rw [hN]; omega⟩, rfl⟩
  obtain ⟨e00, e01, e10, e11, e20, e21, e30, e31, e40, e41, e50, e51, e60, e61, e70, e71⟩ := idx0 t
  refine ⟨t, (flush0_6 t).mpr (by rw [htv]), ?_⟩
  rw [mem_blk0_6]
  intro a
  match a with
  | ⟨0, _⟩ =>
    show win0_6.index t (0 : Fin 2) * 1 ≤ (i 0).val ∧ (i 0).val < win0_6.index t (0 : Fin 2) * 1 + 1
    rw [e60]; omega
  | ⟨1, _⟩ =>
    show win0_6.index t (1 : Fin 2) * 256 ≤ (i 1).val ∧ (i 1).val < win0_6.index t (1 : Fin 2) * 256 + 256
    rw [e61]; omega

/-- The one block of window 7 is its whole row: a row given column by column is read back column by column. -/
theorem read_row0_7 (t : Fin cfg0.N) (g : Fin 256 → EReal) (q : Fin 256) :
    ((cfg0.win 7).blk t).view.read (Elt Ideal) (fun j : S1x256.Idx => g (j 1)) (ix2 (0 : Fin 1) q) = g q := by
  rw [View.read_apply]
  obtain ⟨e00, e01, e10, e11, e20, e21, e30, e31, e40, e41, e50, e51, e60, e61, e70, e71⟩ := idx0 t
  show g ((((cfg0.win 7).blk t).view.emb (ix2 (0 : Fin 1) q)) 1) = g q
  refine congrArg g (Fin.ext ?_)
  show win0_7.index t (1 : Fin 2) * 256 + 1 * q.val = q.val
  rw [e71]; omega

theorem flushed0_7 (c : Dev nD) (t : Fin cfg0.N) (hf : (cfg0.win 7).flush t = true) :
    (dat0 V c).flushed 7 t = ((cfg0.win 7).blk t).view.read (Elt Ideal)
      (fun j : S1x256.Idx => sqSumOf0 V c (j 1)) := by
  have hN := hN0
  have h24 : t.val = 24 := by have := (flush0_7 t).mp hf; have := t.isLt; omega
  show (cfg0.win 7).cut (grid0.coords t) ((dat0 V c).after 7 t) = _
  rw [after0_7]
  funext j
  obtain ⟨u, q, rfl⟩ : ∃ (u : Fin 1) (q : Fin 256), j = ix2 u q := ⟨j 0, j 1, eq_ix2 j⟩
  obtain rfl : u = 0 := Subsingleton.elim _ _
  refine ((outsAt0_eq V c t.val t.isLt).2.2 q).trans ?_
  refine (congrArg (upTo (sqBlock0 V c q)) h24).trans ((upTo_sq V c q).trans ?_)
  exact (read_row0_7 t (sqSumOf0 V c) q).symm

theorem mem_blk0_7 (t : Fin cfg0.N) (i : S1x256.Idx) :
    i ∈ ((cfg0.win 7).blk t).view.set ↔ ∀ a : Fin 2, win0_7.index t a * S1x256.size a ≤ (i a).val ∧ (i a).val < win0_7.index t a * S1x256.size a + S1x256.size a := by
  show i ∈ ((View.whole main_v32_2).slice (win0_7.rect t)).set ↔ _
  rw [View.set_slice_whole, Rect.mem_set_unit]
  exact Iff.rfl

theorem cover0_7 (i : S1x256.Idx) :
    ∃ t : Fin cfg0.N, (cfg0.win 7).flush t = true ∧ i ∈ ((cfg0.win 7).blk t).view.set := by
  have hi0 : (i 0).val < 1 := (i 0).isLt
  have hi1 : (i 1).val < 256 := (i 1).isLt
  have hN := hN0
  obtain ⟨t, htv⟩ : ∃ t : Fin cfg0.N, t.val = 24 := ⟨⟨24, by rw [hN]; omega⟩, rfl⟩
  obtain ⟨e00, e01, e10, e11, e20, e21, e30, e31, e40, e41, e50, e51, e60, e61, e70, e71⟩ := idx0 t
  refine ⟨t, (flush0_7 t).mpr (by rw [htv]), ?_⟩
  rw [mem_blk0_7]
  intro a
  match a with
  | ⟨0, _⟩ =>
    show win0_7.index t (0 : Fin 2) * 1 ≤ (i 0).val ∧ (i 0).val < win0_7.index t (0 : Fin 2) * 1 + 1
    rw [e70]; omega
  | ⟨1, _⟩ =>
    show win0_7.index t (1 : Fin 2) * 256 ≤ (i 1).val ∧ (i 1).val < win0_7.index t (1 : Fin 2) * 256 + 256
    rw [e71]; omega

/-- The array of output window 6 ends holding the column sums of the layer's linear part. -/
theorem region0_sum (c : Dev nD) :
    (dat0 (F := Ideal) V c).arrAt 6 cfg0.N
      = fun j : S1x256.Idx => Cert.Spec.colSum (Cert.Spec.lin (K := 4) (V c main_v30) (V c main_v18) (V c main_arg2) (V c main_arg4) (fun i => V c main_v31 (ValueIdx.ix2 0 (i 0)))) (j 1) :=
  (dat0 V c).arrAt_eq_of_cover 6 (fun j : S1x256.Idx => colSumOf0 V c (j 1)) (flushed0_6 V c) (cover0_6)

/-- The array of output window 7 ends holding the column sums of squares of the layer's linear part. -/
theorem region0_sumsq (c : Dev nD) :
    (dat0 (F := Ideal) V c).arrAt 7 cfg0.N
      = fun j : S1x256.Idx => (∑ p : Fin 50000, (Cert.Spec.lin (K := 4) (V c main_v30) (V c main_v18) (V c main_arg2) (V c main_arg4) (fun i => V c main_v31 (ValueIdx.ix2 0 (i 0)))) (ValueIdx.ix2 p (j 1)) * (Cert.Spec.lin (K := 4) (V c main_v30) (V c main_v18) (V c main_arg2) (V c main_arg4) (fun i => V c main_v31 (ValueIdx.ix2 0 (i 0)))) (ValueIdx.ix2 p (j 1)) : EReal) :=
  (dat0 V c).arrAt_eq_of_cover 7 (fun j : S1x256.Idx => sqSumOf0 V c (j 1)) (flushed0_7 V c) (cover0_7)

end Cert.KernelIdeal.RegionValue

end
-- ==== Proof.Region1Pay.lean ====
/-
  The arithmetic of the normalise-scale-shift-clip body, read at one entry.

  The body receives a block `x0` of 2000 rows and 256 columns and four rows of 256 entries: a mean `x1`, a
  reciprocal deviation `x2`, a scale `x3` and a shift `x4`. Each of the four rows is repeated down the 2000
  rows, and the entry at row `p`, column `q` of the result is
  max (((x0(p,q) − x1(q)) · x2(q)) · x3(q) + x4(q), 0), every operation the exact one on extended reals.
-/
import proofs.«138899_j10342281249011_1_alg».proof.Proof.Gen.KernelIdeal.Skeleton
import proofs.«138899_j10342281249011_1_alg».proof.Proof.Spec
import Idealize.ShloMosaic.Lib.Pipeline.Value
import Idealize.ShloMosaic.Lib.ValueIdx
import Idealize.ShloMosaic.Lib.ValueLayout

noncomputable section

namespace Cert.KernelIdeal.PointwiseRegion

open Idealize.ShloMosaic Idealize.ShloMosaic.ValueIdx Cert.KernelIdeal Cert.KernelIdeal.Gen

/-- The normalised, scaled, shifted and clipped entry at row `p`, column `q` of a block, from the block's entry
    and the four rows' entries at column `q`. -/
theorem pay1_apply (x0 : Vec Ideal S2000x256 .f32) (x1 x2 x3 x4 : Vec Ideal S1x256 .f32) (p : Fin 2000) (q : Fin 256) :
    k1_pay1 (F := Ideal) x0 x1 x2 x3 x4 (ix2 p q)
      = max ((x0 (ix2 p q) - x1 (ix2 (0 : Fin 1) q)) * x2 (ix2 (0 : Fin 1) q) * x3 (ix2 (0 : Fin 1) q)
          + x4 (ix2 (0 : Fin 1) q)) Cert.Spec.zeroF := by
  unfold k1_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply]
  rfl

end Cert.KernelIdeal.PointwiseRegion

end
-- ==== Proof.Region1.lean ====
/-
  Region 1 read as a value: the array the normalise-scale-shift-clip region leaves.

  The region walks 25 grid points. Point `t` receives rows 2000·t … 2000·t + 1999 of the 50000-row input and the
  four one-row operands whole, and writes rows 2000·t … 2000·t + 1999 of the output. Row `r` of the output is
  therefore written by point `r / 2000`, and every entry (r, q) ends as
  max (((a(r,q) − mean(q)) · rdev(q)) · scale(q) + shift(q), 0): the specification's `bnrelu` of the arrays the
  region finds.
-/
import proofs.«138899_j10342281249011_1_alg».proof.Proof.Gen.KernelIdeal.Frame
import proofs.«138899_j10342281249011_1_alg».proof.Proof.Region1Pay
import Idealize.ShloMosaic.Lib.Pipeline.Value

noncomputable section

namespace Cert.KernelIdeal.PointwiseRegion

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero_off2 : (![0, 0] : Fin 2 → Nat) = fun _ => 0 := funext fun a => by fin_cases a <;> rfl

/-- One entry of a block, over plain arrays: when the block's entry `y` is the array's entry `i` in the same
    column and the four one-row blocks are the four one-row arrays, the body's entry at `y` is the
    specification's entry at `i`. -/
theorem point1 (A : S50000x256.Idx → EReal) (M D G B : S1x256.Idx → EReal)
    (x0 : Vec Ideal S2000x256 .f32) (x1 x2 x3 x4 : Vec Ideal S1x256 .f32)
    (y : S2000x256.Idx) (i : S50000x256.Idx)
    (hx0 : x0 y = A i) (hx1 : ∀ z, x1 z = M z) (hx2 : ∀ z, x2 z = D z) (hx3 : ∀ z, x3 z = G z) (hx4 : ∀ z, x4 z = B z)
    (hcol : (i 1).val = (y 1).val) :
    k1_pay1 (F := Ideal) x0 x1 x2 x3 x4 y
      = Cert.Spec.bnrelu A (fun q => M (ix2 (0 : Fin 1) q)) (fun q => D (ix2 (0 : Fin 1) q))
          (fun j => G (ix2 (0 : Fin 1) (j 0))) (fun j => B (ix2 (0 : Fin 1) (j 0))) i := by
  obtain ⟨p, q, rfl⟩ : ∃ (p : Fin 2000) (q : Fin 256), y = ix2 p q := ⟨y 0, y 1, eq_ix2 y⟩
  obtain ⟨r, q', rfl⟩ : ∃ (r : Fin 50000) (q' : Fin 256), i = ix2 r q' := ⟨i 0, i 1, eq_ix2 i⟩
  obtain rfl : q' = q := Fin.ext hcol
  rw [pay1_apply, hx0, hx1, hx2, hx3, hx4]
  rfl

/-- Where each window's block sits at point `t`: the two 2000-row windows at block row `t`, the one-row windows
    at their only block. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The array the region leaves, as the specification states it. -/
abbrev G1 (c : Dev nD) : S50000x256.Idx → EReal :=
  Cert.Spec.bnrelu (V c main_v32_0) (fun q => V c main_v44 (ix2 (0 : Fin 1) q)) (fun q => V c main_v45 (ix2 (0 : Fin 1) q))
    (fun j => V c main_v46 (ix2 (0 : Fin 1) (j 0))) (fun j => V c main_v47 (ix2 (0 : Fin 1) (j 0)))

/-- What point `t` writes back is block `t` of that array. -/
theorem flushed1_eq (c : Dev nD) (t : Fin cfg1.N) :
    (dat1 (F := Ideal) V c).flushed 5 t = ((cfg1.win 5).blk t).view.read (Elt Ideal) (G1 V c) := by
  show (cfg1.win 5).cut (grid1.coords t) ((dat1 (F := Ideal) V c).after 5 t) = _
  rw [after1_5]
  unfold out1_5
  rw [View.canon_unit_zero zero_off2]
  simp only [View.ld_unit_zero (S := S2000x256) zero_off2, View.ld_unit_zero (S := S1x256) zero_off2]
  obtain ⟨e00, e01, e10, e11, e20, e21, e30, e31, e40, e41, e50, e51⟩ := idx1 t
  funext j
  refine point1 (V c main_v32_0) (V c main_v44) (V c main_v45) (V c main_v46) (V c main_v47)
    (iblk1 V c 0 t) (iblk1 V c 1 t) (iblk1 V c 2 t) (iblk1 V c 3 t) (iblk1 V c 4 t) j
    (((cfg1.win 5).blk t).view.emb j) ?_ ?_ ?_ ?_ ?_ ?_
  · show V c main_v32_0 (((cfg1.win 0).blk t).view.emb j) = V c main_v32_0 (((cfg1.win 5).blk t).view.emb j)
    refine congrArg _ (funext fun a => Fin.ext ?_)
    match a with
    | ⟨0, _⟩ => show win1_0.index t (0 : Fin 2) * 2000 + 1 * (j 0).val = win1_5.index t (0 : Fin 2) * 2000 + 1 * (j 0).val; omega
    | ⟨1, _⟩ => show win1_0.index t (1 : Fin 2) * 256 + 1 * (j 1).val = win1_5.index t (1 : Fin 2) * 256 + 1 * (j 1).val; omega
  · intro z
    show V c main_v44 (((cfg1.win 1).blk t).view.emb z) = V c main_v44 z
    refine congrArg _ (funext fun a => Fin.ext ?_)
    match a with
    | ⟨0, _⟩ => show win1_1.index t (0 : Fin 2) * 1 + 1 * (z 0).val = (z 0).val; omega
    | ⟨1, _⟩ => show win1_1.index t (1 : Fin 2) * 256 + 1 * (z 1).val = (z 1).val; omega
  · intro z
    show V c main_v45 (((cfg1.win 2).blk t).view.emb z) = V c main_v45 z
    refine congrArg _ (funext fun a => Fin.ext ?_)
    match a with
    | ⟨0, _⟩ => show win1_2.index t (0 : Fin 2) * 1 + 1 * (z 0).val = (z 0).val; omega
    | ⟨1, _⟩ => show win1_2.index t (1 : Fin 2) * 256 + 1 * (z 1).val = (z 1).val; omega
  · intro z
    show V c main_v46 (((cfg1.win 3).blk t).view.emb z) = V c main_v46 z
    refine congrArg _ (funext fun a => Fin.ext ?_)
    match a with
    | ⟨0, _⟩ => show win1_3.index t (0 : Fin 2) * 1 + 1 * (z 0).val = (z 0).val; omega
    | ⟨1, _⟩ => show win1_3.index t (1 : Fin 2) * 256 + 1 * (z 1).val = (z 1).val; omega
  · intro z
    show V c main_v47 (((cfg1.win 4).blk t).view.emb z) = V c main_v47 z
    refine congrArg _ (funext fun a => Fin.ext ?_)
    match a with
    | ⟨0, _⟩ => show win1_4.index t (0 : Fin 2) * 1 + 1 * (z 0).val = (z 0).val; omega
    | ⟨1, _⟩ => show win1_4.index t (1 : Fin 2) * 256 + 1 * (z 1).val = (z 1).val; omega
  · show win1_5.index t (1 : Fin 2) * 256 + 1 * (j 1).val = (j 1).val
    omega

/-- An entry of the output array lies in point `t`'s block exactly when each coordinate lies in the block's range. -/
theorem mem_blk1 (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v48).slice (win1_5.rect t)).set ↔ _
  rw [View.set_slice_whole, Rect.mem_set_unit]
  exact Iff.rfl

/-- Every entry of the output array is written by some point: row `r` by point `r / 2000`. -/
theorem cover1 (i : S50000x256.Idx) :
    ∃ t : Fin cfg1.N, (cfg1.win 5).flush t = true ∧ i ∈ ((cfg1.win 5).blk t).view.set := by
  have hN : cfg1.N = 25 := N_1
  have hi0 : (i 0).val < 50000 := (i 0).isLt
  have hi1 : (i 1).val < 256 := (i 1).isLt
  let t : Fin cfg1.N := ⟨(i 0).val / 2000, by rw [hN]; omega⟩
  have ht : t.val = (i 0).val / 2000 := rfl
  obtain ⟨e00, e01, e10, e11, e20, e21, e30, e31, e40, e41, e50, e51⟩ := idx1 t
  refine ⟨t, flush1_5 t, ?_⟩
  rw [mem_blk1]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 256 ≤ (i 1).val ∧ (i 1).val < win1_5.index t (1 : Fin 2) * 256 + 256; omega

/-- The array region 1 leaves is the specification's normalise-scale-shift-clip of the arrays it finds. -/
theorem region1_val (c : Dev nD) :
    (dat1 (F := Ideal) V c).arrAt 5 cfg1.N
      = Cert.Spec.bnrelu (V c main_v32_0) (fun q => V c main_v44 (ix2 (0 : Fin 1) q)) (fun q => V c main_v45 (ix2 (0 : Fin 1) q))
          (fun j => V c main_v46 (ix2 (0 : Fin 1) (j 0))) (fun j => V c main_v47 (ix2 (0 : Fin 1) (j 0))) :=
  (dat1 (F := Ideal) V c).arrAt_eq_of_cover 5 (G1 V c) (fun t _ => flushed1_eq V c t) (cover1)

end Cert.KernelIdeal.PointwiseRegion

end
-- ==== Proof.Region2Pay.lean ====
/-
  The arithmetic of one block of the second linear layer, read entry by entry on the extended reals.

  At one grid point the body holds a block of 2000 rows of the aggregate `a` and of the features `s` (256 columns
  each), the two weight matrices `wl`, `wr` (256 rows of 256) and the bias `b` (one row of 256). It forms

    y(p, q) = (sum over k of a(p, k) · wl(q, k)) + (sum over k of s(p, k) · wr(q, k)) + b(q)

  — a change of float format is the identity on the extended reals, a product against the transposed weights
  contracts the two second coordinates, and the bias row is repeated down the rows. It then adds to a running row
  `acc` the column sums of `y`, and to a second running row the column sums of `y · y`. The zero rows the first grid
  point starts from are the zero of the extended reals. When the block's rows are rows `2000 t + r` of whole arrays,
  `y` is those rows of the specification's linear part: the specification adds the bias before the second sum, the
  body after it, and addition on the extended reals is commutative and associative without any finiteness.
-/
import proofs.«138899_j10342281249011_1_alg».proof.Proof.Gen.KernelIdeal.Skeleton
import proofs.«138899_j10342281249011_1_alg».proof.Proof.Spec
import proofs.«138899_j10342281249011_1_alg».proof.Proof.LibPlainDot
import proofs.«138899_j10342281249011_1_alg».proof.Proof.LibSublaneSum
import proofs.«138899_j10342281249011_1_alg».proof.Proof.Region0Blocks
import Idealize.ShloMosaic.Lib.ValueLayout
import Idealize.ShloMosaic.PureOps.Ideal.Laws

noncomputable section

namespace Cert.KernelIdeal.RegionValue.R2

open Idealize.ShloMosaic Idealize.ShloMosaic.ValueIdx
open Cert.KernelIdeal Cert.KernelIdeal.Gen Cert.KernelIdeal.RegionValue

/-- One block of the layer's linear part at row `p`, column `q`. -/
theorem pay4_apply (a s : Vec Ideal S2000x256 .f32) (wl wr : Vec Ideal S256x256 .f32) (b : Vec Ideal S1x256 .f32)
    (p : Fin 2000) (q : Fin 256) :
    k2_pay4 (F := Ideal) a s wl wr b (ix2 p q)
      = (∑ k : Fin 256, a (ix2 p k) * wl (ix2 q k)) + (∑ k : Fin 256, s (ix2 p k) * wr (ix2 q k))
          + b (ix2 (0 : Fin 1) q) := by
  unfold k2_pay4
  refine congrArg₂ (· + ·) (congrArg₂ (· + ·) ?_ ?_) ?_
  · refine (Cert.LibPlainDot.matmul_zero_apply 2000 256 256 none _ _ (ix2 p q)).trans ?_
    refine Finset.sum_congr rfl fun k _ => congrArg₂ (· * ·) ?_ ?_
    · exact congrFun (shapeCast_self a _) (ix2 p k)
    · exact transpose_ix2_apply _ _ k q
  · refine (Cert.LibPlainDot.matmul_zero_apply 2000 256 256 none _ _ (ix2 p q)).trans ?_
    refine Finset.sum_congr rfl fun k _ => congrArg₂ (· * ·) ?_ ?_
    · exact congrFun (shapeCast_self s _) (ix2 p k)
    · exact transpose_ix2_apply _ _ k q
  · exact (broadcastTo_1b_ab_apply _ _ p q).trans (congrFun (shapeCast_self b _) _)

/-- The running row of column sums after one more block: what it held plus the block's column sums. -/
theorem pay5_apply (a s : Vec Ideal S2000x256 .f32) (wl wr : Vec Ideal S256x256 .f32) (b acc : Vec Ideal S1x256 .f32)
    (q : Fin 256) :
    k2_pay5 (F := Ideal) a s wl wr b acc (ix2 (0 : Fin 1) q)
      = acc (ix2 (0 : Fin 1) q) + ∑ r : Fin 2000, k2_pay4 (F := Ideal) a s wl wr b (ix2 r q) := by
  unfold k2_pay5
  refine congrArg₂ (· + ·) (congrFun (shapeCast_self acc _) _) ?_
  refine (shapeCast_a_1a_apply _ _ (0 : Fin 1) q).trans ?_
  exact Cert.SublaneSum.sublaneSum_apply _ _ _ _ q

/-- The running row of column sums of squares after one more block. -/
theorem pay1_apply (acc : FVec Ideal S1x256 .f32) (sq : FVec Ideal S2000x256 .f32) (q : Fin 256) :
    k2_pay1 (F := Ideal) acc sq (ix2 (0 : Fin 1) q) = acc (ix2 (0 : Fin 1) q) + ∑ r : Fin 2000, sq (ix2 r q) := by
  unfold k2_pay1
  refine congrArg₂ (· + ·) rfl ?_
  refine (shapeCast_a_1a_apply _ _ (0 : Fin 1) q).trans ?_
  exact Cert.SublaneSum.sublaneSum_apply _ _ _ _ q

/-- The running row is read back through a cast to its own shape: unchanged. -/
theorem pay6_eq (x : Vec Ideal S1x256 .f32) : k2_pay6 (F := Ideal) x = x := shapeCast_self x _

/-- The block of squares, entry by entry. -/
theorem pay7_apply (a s : Vec Ideal S2000x256 .f32) (wl wr : Vec Ideal S256x256 .f32) (b : Vec Ideal S1x256 .f32)
    (j : S2000x256.Idx) :
    k2_pay7 (F := Ideal) a s wl wr b j
      = k2_pay4 (F := Ideal) a s wl wr b j * k2_pay4 (F := Ideal) a s wl wr b j := rfl

/-- The row the first grid point resets the column sums to is zero. -/
theorem pay2_apply (j : S1x256.Idx) : k2_pay2 (F := Ideal) j = 0 := Ideal.ofBits_zero_f32

/-- The row the first grid point resets the sums of squares to is zero. -/
theorem pay3_apply (j : S1x256.Idx) : k2_pay3 (F := Ideal) j = 0 := Ideal.ofBits_zero_f32

/-- When the block's rows are rows `2000 t + r` of whole arrays, the block of the linear part is those rows of the
    specification's linear part of the whole arrays. -/
theorem blockLin (a s : Vec Ideal S2000x256 .f32) (wl wr : Vec Ideal S256x256 .f32) (b : Vec Ideal S1x256 .f32)
    (A S : Cert.Spec.Mat 50000 256) (Wl Wr : Cert.Spec.Mat 256 256) (B : Cert.Spec.Mat 1 256) (t : Fin 25)
    (ha : ∀ (r : Fin 2000) (k : Fin 256), a (ix2 r k) = A (ix2 (row t r) k))
    (hs : ∀ (r : Fin 2000) (k : Fin 256), s (ix2 r k) = S (ix2 (row t r) k))
    (hwl : ∀ (q : Fin 256) (k : Fin 256), wl (ix2 q k) = Wl (ix2 q k))
    (hwr : ∀ (q : Fin 256) (k : Fin 256), wr (ix2 q k) = Wr (ix2 q k))
    (hb : ∀ q : Fin 256, b (ix2 (0 : Fin 1) q) = B (ix2 (0 : Fin 1) q)) (r : Fin 2000) (q : Fin 256) :
    k2_pay4 (F := Ideal) a s wl wr b (ix2 r q)
      = Cert.Spec.lin A S Wl Wr (fun i => B (ix2 (0 : Fin 1) (i 0))) (ix2 (row t r) q) := by
  refine (pay4_apply a s wl wr b r q).trans ?_
  refine (add_right_comm _ _ _).trans ?_
  exact congrArg₂ (· + ·)
    (congrArg₂ (· + ·) (Finset.sum_congr rfl fun k _ => congrArg₂ (· * ·) (ha r k) (hwl q k)) (hb q))
    (Finset.sum_congr rfl fun k _ => congrArg₂ (· * ·) (hs r k) (hwr q k))

end Cert.KernelIdeal.RegionValue.R2

end
-- ==== Proof.Region2Pieces.lean ====
/-
  What one run of the body of region 2 leaves in its three output blocks, as the body's arithmetic of the blocks it read.

  The body stores each output block whole, so a block's contents after the body are the value of its last store, and
  a load that follows a store of the whole block reads that store's value back. At the first grid point the two
  carried rows are first set to zero and then updated; at the other points they are updated from what the point
  before left. This gives a recursion on the point for the three blocks' contents, at any float model.
-/
import proofs.«138899_j10342281249011_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.RegionValue.R2

open Cert.KernelIdeal Cert.KernelIdeal.Gen

variable {F : FTy → Type} [FloatOps F]

theorem hz : (![0, 0] : Fin 2 → Nat) = fun _ => 0 := funext fun a => by fin_cases a <;> rfl

/-! ## The first grid point (the carried rows are reset first) -/

theorem out_A_5 (c : Dev nD) (i : grid2.Coords) (a1 : Memref sig .tc .vmem S2000x256 .f32) (h1 : a1.IsWhole) (a2 : Memref sig .tc .vmem S2000x256 .f32) (h2 : a2.IsWhole) (a3 : Memref sig .tc .vmem S256x256 .f32) (h3 : a3.IsWhole) (a4 : Memref sig .tc .vmem S1x256 .f32) (h4 : a4.IsWhole) (a5 : Memref sig .tc .vmem S256x256 .f32) (h5 : a5.IsWhole) (a6 : Memref sig .tc .vmem S2000x256 .f32) (h6 : a6.IsWhole) (a7 : Memref sig .tc .vmem S1x256 .f32) (h7 : a7.IsWhole) (a8 : Memref sig .tc .vmem S1x256 .f32) (h8 : a8.IsWhole) (hc : cond2_0 i)
    (x0 : Vec F S2000x256 .f32) (x1 : Vec F S2000x256 .f32) (x2 : Vec F S256x256 .f32) (x3 : Vec F S1x256 .f32) (x4 : Vec F S256x256 .f32) :
    out2_A_5 c i a1 h1 a2 h2 a3 h3 a4 h4 a5 h5 a6 h6 a7 h7 a8 h8 hc x0 x1 x2 x3 x4 = k2_pay4 x0 x1 x2 x4 x3 := by
  unfold out2_A_5
  rw [View.read_writes_eq_canon _ _ _ (cover2_A_5 c i a1 h1 a2 h2 a3 h3 a4 h4 a5 h5 a6 h6 a7 h7 a8 h8 hc x0 x1 x2 x3 x4)]
  unfold kernelRun2_A
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S2000x256) hz, View.ld_unit_zero (S := S256x256) hz, View.ld_unit_zero (S := S1x256) hz, View.ld_unit_zero (S := S2000x256) hz]

theorem out_A_6 (c : Dev nD) (i : grid2.Coords) (a1 : Memref sig .tc .vmem S2000x256 .f32) (h1 : a1.IsWhole) (a2 : Memref sig .tc .vmem S2000x256 .f32) (h2 : a2.IsWhole) (a3 : Memref sig .tc .vmem S256x256 .f32) (h3 : a3.IsWhole) (a4 : Memref sig .tc .vmem S1x256 .f32) (h4 : a4.IsWhole) (a5 : Memref sig .tc .vmem S256x256 .f32) (h5 : a5.IsWhole) (a6 : Memref sig .tc .vmem S2000x256 .f32) (h6 : a6.IsWhole) (a7 : Memref sig .tc .vmem S1x256 .f32) (h7 : a7.IsWhole) (a8 : Memref sig .tc .vmem S1x256 .f32) (h8 : a8.IsWhole) (hc : cond2_0 i)
    (x0 : Vec F S2000x256 .f32) (x1 : Vec F S2000x256 .f32) (x2 : Vec F S256x256 .f32) (x3 : Vec F S1x256 .f32) (x4 : Vec F S256x256 .f32) :
    out2_A_6 c i a1 h1 a2 h2 a3 h3 a4 h4 a5 h5 a6 h6 a7 h7 a8 h8 hc x0 x1 x2 x3 x4 = k2_pay5 x0 x1 x2 x4 x3 (k2_pay2 (F := F)) := by
  unfold out2_A_6
  rw [View.read_writes_eq_canon _ _ _ (cover2_A_6 c i a1 h1 a2 h2 a3 h3 a4 h4 a5 h5 a6 h6 a7 h7 a8 h8 hc x0 x1 x2 x3 x4)]
  unfold kernelRun2_A
  dsimp only
  sl_unfold_words
  rw [View.canon_cons_unit_zero (S := S1x256) hz, View.readCov_unit_zero (S := S1x256) _ hz]
  simp only [View.readAt_eq_ld, h1.read_unread, h2.read_unread, h3.read_unread, h4.read_unread, h5.read_unread, h6.read_unread, h7.read_unread, h8.read_unread, View.ld_unit_zero (S := S2000x256) hz, View.ld_unit_zero (S := S256x256) hz, View.ld_unit_zero (S := S1x256) hz, View.ld_unit_zero (S := S2000x256) hz]

theorem out_A_7 (c : Dev nD) (i : grid2.Coords) (a1 : Memref sig .tc .vmem S2000x256 .f32) (h1 : a1.IsWhole) (a2 : Memref sig .tc .vmem S2000x256 .f32) (h2 : a2.IsWhole) (a3 : Memref sig .tc .vmem S256x256 .f32) (h3 : a3.IsWhole) (a4 : Memref sig .tc .vmem S1x256 .f32) (h4 : a4.IsWhole) (a5 : Memref sig .tc .vmem S256x256 .f32) (h5 : a5.IsWhole) (a6 : Memref sig .tc .vmem S2000x256 .f32) (h6 : a6.IsWhole) (a7 : Memref sig .tc .vmem S1x256 .f32) (h7 : a7.IsWhole) (a8 : Memref sig .tc .vmem S1x256 .f32) (h8 : a8.IsWhole) (hc : cond2_0 i)
    (x0 : Vec F S2000x256 .f32) (x1 : Vec F S2000x256 .f32) (x2 : Vec F S256x256 .f32) (x3 : Vec F S1x256 .f32) (x4 : Vec F S256x256 .f32) :
    out2_A_7 c i a1 h1 a2 h2 a3 h3 a4 h4 a5 h5 a6 h6 a7 h7 a8 h8 hc x0 x1 x2 x3 x4 = k2_pay1 (k2_pay6 (k2_pay3 (F := F))) (k2_pay7 x0 x1 x2 x4 x3) := by
  unfold out2_A_7
  rw [View.read_writes_eq_canon _ _ _ (cover2_A_7 c i a1 h1 a2 h2 a3 h3 a4 h4 a5 h5 a6 h6 a7 h7 a8 h8 hc x0 x1 x2 x3 x4)]
  unfold kernelRun2_A
  dsimp only
  sl_unfold_words
  rw [View.canon_cons_unit_zero (S := S1x256) hz, View.readCov_unit_zero (S := S1x256) _ hz]
  simp only [View.readAt_eq_ld, h1.read_unread, h2.read_unread, h3.read_unread, h4.read_unread, h5.read_unread, h6.read_unread, h7.read_unread, h8.read_unread, View.ld_unit_zero (S := S2000x256) hz, View.ld_unit_zero (S := S256x256) hz, View.ld_unit_zero (S := S1x256) hz, View.ld_unit_zero (S := S2000x256) hz]

/-! ## The other grid points (the carried rows hold what the point before left) -/

theorem out_B_5 (c : Dev nD) (i : grid2.Coords) (a1 : Memref sig .tc .vmem S2000x256 .f32) (h1 : a1.IsWhole) (a2 : Memref sig .tc .vmem S2000x256 .f32) (h2 : a2.IsWhole) (a3 : Memref sig .tc .vmem S256x256 .f32) (h3 : a3.IsWhole) (a4 : Memref sig .tc .vmem S1x256 .f32) (h4 : a4.IsWhole) (a5 : Memref sig .tc .vmem S256x256 .f32) (h5 : a5.IsWhole) (a6 : Memref sig .tc .vmem S2000x256 .f32) (h6 : a6.IsWhole) (a7 : Memref sig .tc .vmem S1x256 .f32) (h7 : a7.IsWhole) (a8 : Memref sig .tc .vmem S1x256 .f32) (h8 : a8.IsWhole) (hc : ¬cond2_0 i)
    (x0 : Vec F S2000x256 .f32) (x1 : Vec F S2000x256 .f32) (x2 : Vec F S256x256 .f32) (x3 : Vec F S1x256 .f32) (x4 : Vec F S256x256 .f32) (xo6 xo7 : Vec F S1x256 .f32) :
    out2_B_5 c i a1 h1 a2 h2 a3 h3 a4 h4 a5 h5 a6 h6 a7 h7 a8 h8 hc x0 x1 x2 x3 x4 xo6 xo7 = k2_pay4 x0 x1 x2 x4 x3 := by
  unfold out2_B_5
  rw [View.read_writes_eq_canon _ _ _ (cover2_B_5 c i a1 h1 a2 h2 a3 h3 a4 h4 a5 h5 a6 h6 a7 h7 a8 h8 hc x0 x1 x2 x3 x4 xo6 xo7)]
  unfold kernelRun2_B
  dsimp only
  rw [View.canon_unit_zero hz]
  simp only [View.readAt_eq_ld, h1.read_unread, h2.read_unread, h3.read_unread, h4.read_unread, h5.read_unread, h6.read_unread, h7.read_unread, h8.read_unread, View.ld_unit_zero (S := S2000x256) hz, View.ld_unit_zero (S := S256x256) hz, View.ld_unit_zero (S := S1x256) hz, View.ld_unit_zero (S := S2000x256) hz]

theorem out_B_6 (c : Dev nD) (i : grid2.Coords) (a1 : Memref sig .tc .vmem S2000x256 .f32) (h1 : a1.IsWhole) (a2 : Memref sig .tc .vmem S2000x256 .f32) (h2 : a2.IsWhole) (a3 : Memref sig .tc .vmem S256x256 .f32) (h3 : a3.IsWhole) (a4 : Memref sig .tc .vmem S1x256 .f32) (h4 : a4.IsWhole) (a5 : Memref sig .tc .vmem S256x256 .f32) (h5 : a5.IsWhole) (a6 : Memref sig .tc .vmem S2000x256 .f32) (h6 : a6.IsWhole) (a7 : Memref sig .tc .vmem S1x256 .f32) (h7 : a7.IsWhole) (a8 : Memref sig .tc .vmem S1x256 .f32) (h8 : a8.IsWhole) (hc : ¬cond2_0 i)
    (x0 : Vec F S2000x256 .f32) (x1 : Vec F S2000x256 .f32) (x2 : Vec F S256x256 .f32) (x3 : Vec F S1x256 .f32) (x4 : Vec F S256x256 .f32) (xo6 xo7 : Vec F S1x256 .f32) :
    out2_B_6 c i a1 h1 a2 h2 a3 h3 a4 h4 a5 h5 a6 h6 a7 h7 a8 h8 hc x0 x1 x2 x3 x4 xo6 xo7 = k2_pay5 x0 x1 x2 x4 x3 xo6 := by
  unfold out2_B_6
  rw [View.read_writes_eq_canon _ _ _ (cover2_B_6 c i a1 h1 a2 h2 a3 h3 a4 h4 a5 h5 a6 h6 a7 h7 a8 h8 hc x0 x1 x2 x3 x4 xo6 xo7)]
  unfold kernelRun2_B
  dsimp only
  rw [View.canon_unit_zero hz]
  simp only [View.readAt_eq_ld, h1.read_unread, h2.read_unread, h3.read_unread, h4.read_unread, h5.read_unread, h6.read_unread, h7.read_unread, h8.read_unread, View.ld_unit_zero (S := S2000x256) hz, View.ld_unit_zero (S := S256x256) hz, View.ld_unit_zero (S := S1x256) hz, View.ld_unit_zero (S := S2000x256) hz]

theorem out_B_7 (c : Dev nD) (i : grid2.Coords) (a1 : Memref sig .tc .vmem S2000x256 .f32) (h1 : a1.IsWhole) (a2 : Memref sig .tc .vmem S2000x256 .f32) (h2 : a2.IsWhole) (a3 : Memref sig .tc .vmem S256x256 .f32) (h3 : a3.IsWhole) (a4 : Memref sig .tc .vmem S1x256 .f32) (h4 : a4.IsWhole) (a5 : Memref sig .tc .vmem S256x256 .f32) (h5 : a5.IsWhole) (a6 : Memref sig .tc .vmem S2000x256 .f32) (h6 : a6.IsWhole) (a7 : Memref sig .tc .vmem S1x256 .f32) (h7 : a7.IsWhole) (a8 : Memref sig .tc .vmem S1x256 .f32) (h8 : a8.IsWhole) (hc : ¬cond2_0 i)
    (x0 : Vec F S2000x256 .f32) (x1 : Vec F S2000x256 .f32) (x2 : Vec F S256x256 .f32) (x3 : Vec F S1x256 .f32) (x4 : Vec F S256x256 .f32) (xo6 xo7 : Vec F S1x256 .f32) :
    out2_B_7 c i a1 h1 a2 h2 a3 h3 a4 h4 a5 h5 a6 h6 a7 h7 a8 h8 hc x0 x1 x2 x3 x4 xo6 xo7 = k2_pay1 (k2_pay6 xo7) (k2_pay7 x0 x1 x2 x4 x3) := by
  unfold out2_B_7
  rw [View.read_writes_eq_canon _ _ _ (cover2_B_7 c i a1 h1 a2 h2 a3 h3 a4 h4 a5 h5 a6 h6 a7 h7 a8 h8 hc x0 x1 x2 x3 x4 xo6 xo7)]
  unfold kernelRun2_B
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S2000x256) hz, View.ld_unit_zero (S := S256x256) hz, View.ld_unit_zero (S := S1x256) hz, View.ld_unit_zero (S := S2000x256) hz]

/-! ## The recursion on the point -/

variable (V : (c : Dev nD) → (b : Ref sig .tc) → Buf (Elt F) ((c : Thread nD τ).loc b))

/-- After the first point: the block of the linear part, and the two carried rows updated from zero. -/
theorem outsAt2_zero (c : Dev nD) (h : 0 < cfg2.N) :
    outsAt2 V c 0 h =
      (k2_pay4 (iblk2 V c 0 ⟨0, h⟩) (iblk2 V c 1 ⟨0, h⟩) (iblk2 V c 2 ⟨0, h⟩) (iblk2 V c 4 ⟨0, h⟩) (iblk2 V c 3 ⟨0, h⟩),
       k2_pay5 (iblk2 V c 0 ⟨0, h⟩) (iblk2 V c 1 ⟨0, h⟩) (iblk2 V c 2 ⟨0, h⟩) (iblk2 V c 4 ⟨0, h⟩) (iblk2 V c 3 ⟨0, h⟩) (k2_pay2 (F := F)),
       k2_pay1 (k2_pay6 (k2_pay3 (F := F))) (k2_pay7 (iblk2 V c 0 ⟨0, h⟩) (iblk2 V c 1 ⟨0, h⟩) (iblk2 V c 2 ⟨0, h⟩) (iblk2 V c 4 ⟨0, h⟩) (iblk2 V c 3 ⟨0, h⟩))) :=
  (outsAt2_A V c ⟨0, h⟩ rfl).trans
    (congrArg₂ Prod.mk
      (out_A_5 c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) (ms2_6 ⟨0, h⟩) (hs2_6 ⟨0, h⟩) (ms2_7 ⟨0, h⟩) (hs2_7 ⟨0, h⟩) ((hcond2_0 ⟨0, h⟩).mpr rfl) (iblk2 V c 0 ⟨0, h⟩) (iblk2 V c 1 ⟨0, h⟩) (iblk2 V c 2 ⟨0, h⟩) (iblk2 V c 3 ⟨0, h⟩) (iblk2 V c 4 ⟨0, h⟩))
      (congrArg₂ Prod.mk
        (out_A_6 c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) (ms2_6 ⟨0, h⟩) (hs2_6 ⟨0, h⟩) (ms2_7 ⟨0, h⟩) (hs2_7 ⟨0, h⟩) ((hcond2_0 ⟨0, h⟩).mpr rfl) (iblk2 V c 0 ⟨0, h⟩) (iblk2 V c 1 ⟨0, h⟩) (iblk2 V c 2 ⟨0, h⟩) (iblk2 V c 3 ⟨0, h⟩) (iblk2 V c 4 ⟨0, h⟩))
        (out_A_7 c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) (ms2_6 ⟨0, h⟩) (hs2_6 ⟨0, h⟩) (ms2_7 ⟨0, h⟩) (hs2_7 ⟨0, h⟩) ((hcond2_0 ⟨0, h⟩).mpr rfl) (iblk2 V c 0 ⟨0, h⟩) (iblk2 V c 1 ⟨0, h⟩) (iblk2 V c 2 ⟨0, h⟩) (iblk2 V c 3 ⟨0, h⟩) (iblk2 V c 4 ⟨0, h⟩))))

/-- After a later point: the block of the linear part, and the two carried rows updated from the point before. -/
theorem outsAt2_succ (c : Dev nD) (n : ℕ) (h : n + 1 < cfg2.N) :
    outsAt2 V c (n + 1) h =
      (k2_pay4 (iblk2 V c 0 ⟨n + 1, h⟩) (iblk2 V c 1 ⟨n + 1, h⟩) (iblk2 V c 2 ⟨n + 1, h⟩) (iblk2 V c 4 ⟨n + 1, h⟩) (iblk2 V c 3 ⟨n + 1, h⟩),
       k2_pay5 (iblk2 V c 0 ⟨n + 1, h⟩) (iblk2 V c 1 ⟨n + 1, h⟩) (iblk2 V c 2 ⟨n + 1, h⟩) (iblk2 V c 4 ⟨n + 1, h⟩) (iblk2 V c 3 ⟨n + 1, h⟩) (outsAt2 V c n (Nat.lt_of_succ_lt h)).2.1,
       k2_pay1 (k2_pay6 (outsAt2 V c n (Nat.lt_of_succ_lt h)).2.2) (k2_pay7 (iblk2 V c 0 ⟨n + 1, h⟩) (iblk2 V c 1 ⟨n + 1, h⟩) (iblk2 V c 2 ⟨n + 1, h⟩) (iblk2 V c 4 ⟨n + 1, h⟩) (iblk2 V c 3 ⟨n + 1, h⟩))) := by
  have hN : cfg2.N = 25 := N_2
  have hB : ¬(⟨n + 1, h⟩ : Fin cfg2.N).val % 25 = 0 := by dsimp only; omega
  exact (outsAt2_B V c ⟨n + 1, h⟩ hB).trans
    (congrArg₂ Prod.mk
      (out_B_5 c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) (ms2_7 ⟨n + 1, h⟩) (hs2_7 ⟨n + 1, h⟩) (fun hh => hB ((hcond2_0 ⟨n + 1, h⟩).mp hh)) (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (outsAt2 V c ((⟨n + 1, h⟩ : Fin cfg2.N).val - 1) (Nat.lt_of_le_of_lt (Nat.sub_le _ _) (⟨n + 1, h⟩ : Fin cfg2.N).isLt)).2.1 (outsAt2 V c ((⟨n + 1, h⟩ : Fin cfg2.N).val - 1) (Nat.lt_of_le_of_lt (Nat.sub_le _ _) (⟨n + 1, h⟩ : Fin cfg2.N).isLt)).2.2)
      (congrArg₂ Prod.mk
        (out_B_6 c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) (ms2_7 ⟨n + 1, h⟩) (hs2_7 ⟨n + 1, h⟩) (fun hh => hB ((hcond2_0 ⟨n + 1, h⟩).mp hh)) (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (outsAt2 V c ((⟨n + 1, h⟩ : Fin cfg2.N).val - 1) (Nat.lt_of_le_of_lt (Nat.sub_le _ _) (⟨n + 1, h⟩ : Fin cfg2.N).isLt)).2.1 (outsAt2 V c ((⟨n + 1, h⟩ : Fin cfg2.N).val - 1) (Nat.lt_of_le_of_lt (Nat.sub_le _ _) (⟨n + 1, h⟩ : Fin cfg2.N).isLt)).2.2)
        (out_B_7 c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) (ms2_7 ⟨n + 1, h⟩) (hs2_7 ⟨n + 1, h⟩) (fun hh => hB ((hcond2_0 ⟨n + 1, h⟩).mp hh)) (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (outsAt2 V c ((⟨n + 1, h⟩ : Fin cfg2.N).val - 1) (Nat.lt_of_le_of_lt (Nat.sub_le _ _) (⟨n + 1, h⟩ : Fin cfg2.N).isLt)).2.1 (outsAt2 V c ((⟨n + 1, h⟩ : Fin cfg2.N).val - 1) (Nat.lt_of_le_of_lt (Nat.sub_le _ _) (⟨n + 1, h⟩ : Fin cfg2.N).isLt)).2.2)))

end Cert.KernelIdeal.RegionValue.R2

end
-- ==== Proof.Region2.lean ====
/-
  The second linear layer with its column statistics, as region 2 of the kernel leaves them.

  The region runs 25 grid points; point `t` holds rows `2000 t … 2000 t + 1999` of the aggregate and of the features,
  and the whole weight matrices and bias. It writes back those rows of the layer's linear part (output window 5, one
  block per point), and carries two rows of 256 across the points (output windows 6 and 7: reset at the first point,
  written back once after the last): the column sums of the linear part and the column sums of its squares.

  What each point leaves is read off as a recursion on the point: the block of the linear part; the running row plus
  the block's column sums; the running row plus the block's column sums of squares. By induction the running rows
  after point `n` are the sums over the blocks `0 … n`; after the last point they are the sums over all 25 blocks of
  2000 rows, which are the sums over the 50000 rows. The blocks written back by window 5 tile its array, and the
  last point's write-back of windows 6 and 7 is their whole array.
-/
import proofs.«138899_j10342281249011_1_alg».proof.Proof.Gen.KernelIdeal.Frame
import proofs.«138899_j10342281249011_1_alg».proof.Proof.Spec
import proofs.«138899_j10342281249011_1_alg».proof.Proof.Region0Blocks
import proofs.«138899_j10342281249011_1_alg».proof.Proof.Region2Pay
import proofs.«138899_j10342281249011_1_alg».proof.Proof.Region2Pieces
import Idealize.ShloMosaic.Lib.Pipeline.Value
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)

namespace Cert.KernelIdeal.RegionValue.R2

open Cert.KernelIdeal Cert.KernelIdeal.Gen Cert.KernelIdeal.RegionValue

variable (V : (c : Dev nD) → (b : Ref sig .tc) → Buf (Elt Ideal) ((c : Thread nD τ).loc b))

theorem hN2 : cfg2.N = 25 := N_2

/-- The block of rows a grid point works on. -/
def blockOf2 (t : Fin cfg2.N) : Fin 25 := Fin.cast hN2 t

/-- The windows' block indices, decided over the grid: windows 0, 1 and 5 move down the rows with the point, the
    others stay on their one block. -/
theorem idx2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = t.val
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0 :=
  (by decide +kernel : ∀ t : Fin grid2.N, _)

/-! ## The input blocks, read off their arrays -/

/-- Row `r` of window 0's block at point `t` is row `2000 t + r` of its array. -/
theorem read2_0 (c : Dev nD) (t : Fin cfg2.N) (r : Fin 2000) (k : Fin 256) :
    iblk2 V c 0 t (ix2 r k) = V c main_v60 (ix2 (row (blockOf2 t) r) k) := by
  unfold iblk2
  rw [View.read_apply]
  show V c main_v60 (((cfg2.win 0).blk t).view.emb (ix2 r k)) = V c main_v60 _
  refine congrArg (V c main_v60) (funext fun a => Fin.ext ?_)
  obtain ⟨e00, e01, e10, e11, e20, e21, e30, e31, e40, e41, e50, e51, e60, e61, e70, e71⟩ := idx2 t
  match a with
  | ⟨0, _⟩ => show win2_0.index t (0 : Fin 2) * 2000 + 1 * r.val = 2000 * t.val + r.val; rw [e00]; omega
  | ⟨1, _⟩ => show win2_0.index t (1 : Fin 2) * 256 + 1 * k.val = k.val; rw [e01]; omega

/-- Row `r` of window 1's block at point `t` is row `2000 t + r` of its array. -/
theorem read2_1 (c : Dev nD) (t : Fin cfg2.N) (r : Fin 2000) (k : Fin 256) :
    iblk2 V c 1 t (ix2 r k) = V c main_v48 (ix2 (row (blockOf2 t) r) k) := by
  unfold iblk2
  rw [View.read_apply]
  show V c main_v48 (((cfg2.win 1).blk t).view.emb (ix2 r k)) = V c main_v48 _
  refine congrArg (V c main_v48) (funext fun a => Fin.ext ?_)
  obtain ⟨e00, e01, e10, e11, e20, e21, e30, e31, e40, e41, e50, e51, e60, e61, e70, e71⟩ := idx2 t
  match a with
  | ⟨0, _⟩ => show win2_1.index t (0 : Fin 2) * 2000 + 1 * r.val = 2000 * t.val + r.val; rw [e10]; omega
  | ⟨1, _⟩ => show win2_1.index t (1 : Fin 2) * 256 + 1 * k.val = k.val; rw [e11]; omega

/-- Window 2's one block is its whole array. -/
theorem read2_2 (c : Dev nD) (t : Fin cfg2.N) (p : Fin 256) (k : Fin 256) :
    iblk2 V c 2 t (ix2 p k) = V c main_arg7 (ix2 p k) := by
  unfold iblk2
  rw [View.read_apply]
  show V c main_arg7 (((cfg2.win 2).blk t).view.emb (ix2 p k)) = V c main_arg7 _
  refine congrArg (V c main_arg7) (funext fun a => Fin.ext ?_)
  obtain ⟨e00, e01, e10, e11, e20, e21, e30, e31, e40, e41, e50, e51, e60, e61, e70, e71⟩ := idx2 t
  match a with
  | ⟨0, _⟩ => show win2_2.index t (0 : Fin 2) * 256 + 1 * p.val = p.val; rw [e20]; omega
  | ⟨1, _⟩ => show win2_2.index t (1 : Fin 2) * 256 + 1 * k.val = k.val; rw [e21]; omega

/-- Window 3's one block is its whole array. -/
theorem read2_3 (c : Dev nD) (t : Fin cfg2.N) (p : Fin 1) (k : Fin 256) :
    iblk2 V c 3 t (ix2 p k) = V c main_v61 (ix2 p k) := by
  unfold iblk2
  rw [View.read_apply]
  show V c main_v61 (((cfg2.win 3).blk t).view.emb (ix2 p k)) = V c main_v61 _
  refine congrArg (V c main_v61) (funext fun a => Fin.ext ?_)
  obtain ⟨e00, e01, e10, e11, e20, e21, e30, e31, e40, e41, e50, e51, e60, e61, e70, e71⟩ := idx2 t
  match a with
  | ⟨0, _⟩ => show win2_3.index t (0 : Fin 2) * 1 + 1 * p.val = p.val; rw [e30]; omega
  | ⟨1, _⟩ => show win2_3.index t (1 : Fin 2) * 256 + 1 * k.val = k.val; rw [e31]; omega

/-- Window 4's one block is its whole array. -/
theorem read2_4 (c : Dev nD) (t : Fin cfg2.N) (p : Fin 256) (k : Fin 256) :
    iblk2 V c 4 t (ix2 p k) = V c main_arg9 (ix2 p k) := by
  unfold iblk2
  rw [View.read_apply]
  show V c main_arg9 (((cfg2.win 4).blk t).view.emb (ix2 p k)) = V c main_arg9 _
  refine congrArg (V c main_arg9) (funext fun a => Fin.ext ?_)
  obtain ⟨e00, e01, e10, e11, e20, e21, e30, e31, e40, e41, e50, e51, e60, e61, e70, e71⟩ := idx2 t
  match a with
  | ⟨0, _⟩ => show win2_4.index t (0 : Fin 2) * 256 + 1 * p.val = p.val; rw [e40]; omega
  | ⟨1, _⟩ => show win2_4.index t (1 : Fin 2) * 256 + 1 * k.val = k.val; rw [e41]; omega

/-! ## One grid point -/

/-- The layer's linear part of the arrays as the region finds them. -/
abbrev lin2 (c : Dev nD) : Cert.Spec.Mat 50000 256 :=
  Cert.Spec.lin (K := 256) (V c main_v60) (V c main_v48) (V c main_arg7) (V c main_arg9) (fun i => V c main_v61 (ValueIdx.ix2 0 (i 0)))

/-- The column sums of block `t` of the linear part. -/
def colBlock2 (c : Dev nD) (q : Fin 256) (t : Fin 25) : EReal :=
  ∑ r : Fin 2000, lin2 V c (ix2 (row t r) q)

/-- The column sums of squares of block `t` of the linear part. -/
def sqBlock2 (c : Dev nD) (q : Fin 256) (t : Fin 25) : EReal :=
  ∑ r : Fin 2000, lin2 V c (ix2 (row t r) q) * lin2 V c (ix2 (row t r) q)

/-- The block of the linear part a point computes is its block of rows of the whole linear part. -/
theorem point_lin (c : Dev nD) (t : Fin cfg2.N) (r : Fin 2000) (q : Fin 256) :
    k2_pay4 (F := Ideal) (iblk2 V c 0 t) (iblk2 V c 1 t) (iblk2 V c 2 t) (iblk2 V c 4 t) (iblk2 V c 3 t) (ix2 r q)
      = lin2 V c (ix2 (row (blockOf2 t) r) q) :=
  blockLin (iblk2 V c 0 t) (iblk2 V c 1 t) (iblk2 V c 2 t) (iblk2 V c 4 t) (iblk2 V c 3 t)
    (V c main_v60) (V c main_v48) (V c main_arg7) (V c main_arg9) (V c main_v61) (blockOf2 t)
    (read2_0 V c t) (read2_1 V c t) (read2_2 V c t) (read2_4 V c t) (read2_3 V c t (0 : Fin 1)) r q

/-- The running row of column sums after a point: what it held plus the point's block's column sums. -/
theorem point_sum (c : Dev nD) (t : Fin cfg2.N) (acc : Vec Ideal S1x256 .f32) (q : Fin 256) :
    k2_pay5 (F := Ideal) (iblk2 V c 0 t) (iblk2 V c 1 t) (iblk2 V c 2 t) (iblk2 V c 4 t) (iblk2 V c 3 t) acc (ix2 (0 : Fin 1) q)
      = acc (ix2 (0 : Fin 1) q) + colBlock2 V c q (blockOf2 t) :=
  (pay5_apply (iblk2 V c 0 t) (iblk2 V c 1 t) (iblk2 V c 2 t) (iblk2 V c 4 t) (iblk2 V c 3 t) acc q).trans
    (congrArg (acc (ix2 (0 : Fin 1) q) + ·) (Finset.sum_congr rfl fun r _ => point_lin V c t r q))

/-- The running row of column sums of squares after a point. -/
theorem point_sq (c : Dev nD) (t : Fin cfg2.N) (acc : Vec Ideal S1x256 .f32) (q : Fin 256) :
    k2_pay1 (F := Ideal) (k2_pay6 acc) (k2_pay7 (iblk2 V c 0 t) (iblk2 V c 1 t) (iblk2 V c 2 t) (iblk2 V c 4 t) (iblk2 V c 3 t)) (ix2 (0 : Fin 1) q)
      = acc (ix2 (0 : Fin 1) q) + sqBlock2 V c q (blockOf2 t) :=
  (pay1_apply (k2_pay6 acc) (k2_pay7 (iblk2 V c 0 t) (iblk2 V c 1 t) (iblk2 V c 2 t) (iblk2 V c 4 t) (iblk2 V c 3 t)) q).trans
    (congrArg₂ (· + ·) (congrFun (pay6_eq acc) _)
      (Finset.sum_congr rfl fun r _ => congrArg₂ (· * ·) (point_lin V c t r q) (point_lin V c t r q)))

/-! ## All the points: the running rows are the sums over the blocks so far -/

theorem outsAt2_eq (c : Dev nD) : ∀ (n : ℕ) (h : n < cfg2.N),
    (∀ (r : Fin 2000) (q : Fin 256),
        (outsAt2 V c n h).1 (ix2 r q) = lin2 V c (ix2 (row (blockOf2 ⟨n, h⟩) r) q))
    ∧ (∀ q : Fin 256, (outsAt2 V c n h).2.1 (ix2 (0 : Fin 1) q) = upTo (colBlock2 V c q) n)
    ∧ (∀ q : Fin 256, (outsAt2 V c n h).2.2 (ix2 (0 : Fin 1) q) = upTo (sqBlock2 V c q) n)
  | 0, h => by
    rw [outsAt2_zero V c h]
    refine ⟨fun r q => point_lin V c ⟨0, h⟩ r q, fun q => ?_, fun q => ?_⟩
    · refine (point_sum V c ⟨0, h⟩ (k2_pay2 (F := Ideal)) q).trans ?_
      exact (congrArg₂ (· + ·) (pay2_apply _) rfl).trans ((zero_add _).trans (upTo_zero (colBlock2 V c q)).symm)
    · refine (point_sq V c ⟨0, h⟩ (k2_pay3 (F := Ideal)) q).trans ?_
      exact (congrArg₂ (· + ·) (pay3_apply _) rfl).trans ((zero_add _).trans (upTo_zero (sqBlock2 V c q)).symm)
  | n + 1, h => by
    obtain ⟨-, ih6, ih7⟩ := outsAt2_eq c n (Nat.lt_of_succ_lt h)
    have hn : n + 1 < 25 := hN2 ▸ h
    rw [outsAt2_succ V c n h]
    refine ⟨fun r q => point_lin V c ⟨n + 1, h⟩ r q, fun q => ?_, fun q => ?_⟩
    · refine (point_sum V c ⟨n + 1, h⟩ (outsAt2 V c n (Nat.lt_of_succ_lt h)).2.1 q).trans ?_
      exact (congrArg₂ (· + ·) (ih6 q) rfl).trans (upTo_succ (colBlock2 V c q) n hn).symm
    · refine (point_sq V c ⟨n + 1, h⟩ (outsAt2 V c n (Nat.lt_of_succ_lt h)).2.2 q).trans ?_
      exact (congrArg₂ (· + ·) (ih7 q) rfl).trans (upTo_succ (sqBlock2 V c q) n hn).symm

/-! ## Output window 5: the linear part, block by block -/

theorem flushed2_5 (c : Dev nD) (t : Fin cfg2.N) :
    (dat2 V c).flushed 5 t = ((cfg2.win 5).blk t).view.read (Elt Ideal) (lin2 V c) := by
  show (cfg2.win 5).cut (grid2.coords t) ((dat2 V c).after 5 t) = _
  rw [after2_5]
  funext j
  obtain ⟨p, q, rfl⟩ : ∃ (p : Fin 2000) (q : Fin 256), j = ix2 p q := ⟨j 0, j 1, eq_ix2 j⟩
  rw [View.read_apply]
  refine ((outsAt2_eq V c t.val t.isLt).1 p q).trans ?_
  show lin2 V c (ix2 (row (blockOf2 t) p) q) = lin2 V c (((cfg2.win 5).blk t).view.emb (ix2 p q))
  refine congrArg (lin2 V c) (funext fun a => Fin.ext ?_)
  obtain ⟨e00, e01, e10, e11, e20, e21, e30, e31, e40, e41, e50, e51, e60, e61, e70, e71⟩ := idx2 t
  match a with
  | ⟨0, _⟩ => show 2000 * t.val + p.val = win2_5.index t (0 : Fin 2) * 2000 + 1 * p.val; rw [e50]; omega
  | ⟨1, _⟩ => show q.val = win2_5.index t (1 : Fin 2) * 256 + 1 * q.val; rw [e51]; omega

/-- An index of the array is in point `t`'s block iff each coordinate is in the block's range on its axis. -/
theorem mem_blk2_5 (t : Fin cfg2.N) (i : S50000x256.Idx) :
    i ∈ ((cfg2.win 5).blk t).view.set ↔ ∀ a : Fin 2, win2_5.index t a * S2000x256.size a ≤ (i a).val ∧ (i a).val < win2_5.index t a * S2000x256.size a + S2000x256.size a := by
  show i ∈ ((View.whole main_v62_0).slice (win2_5.rect t)).set ↔ _
  rw [View.set_slice_whole, Rect.mem_set_unit]
  exact Iff.rfl

/-- Row `p` of the array is in the block of point `p / 2000`. -/
theorem cover2_5 (i : S50000x256.Idx) :
    ∃ t : Fin cfg2.N, (cfg2.win 5).flush t = true ∧ i ∈ ((cfg2.win 5).blk t).view.set := by
  have hi0 : (i 0).val < 50000 := (i 0).isLt
  have hi1 : (i 1).val < 256 := (i 1).isLt
  have hN := hN2
  have ht : (i 0).val / 2000 < cfg2.N := by rw [hN]; omega
  obtain ⟨t, htv⟩ : ∃ t : Fin cfg2.N, t.val = (i 0).val / 2000 := ⟨⟨(i 0).val / 2000, ht⟩, rfl⟩
  obtain ⟨e00, e01, e10, e11, e20, e21, e30, e31, e40, e41, e50, e51, e60, e61, e70, e71⟩ := idx2 t
  refine ⟨t, flush2_5 t, ?_⟩
  rw [mem_blk2_5]
  intro a
  match a with
  | ⟨0, _⟩ =>
    show win2_5.index t (0 : Fin 2) * 2000 ≤ (i 0).val ∧ (i 0).val < win2_5.index t (0 : Fin 2) * 2000 + 2000
    rw [e50, htv]; omega
  | ⟨1, _⟩ =>
    show win2_5.index t (1 : Fin 2) * 256 ≤ (i 1).val ∧ (i 1).val < win2_5.index t (1 : Fin 2) * 256 + 256
    rw [e51]; omega

/-- The array of output window 5 ends holding the layer's linear part. -/
theorem region2_lin (c : Dev nD) :
    (dat2 (F := Ideal) V c).arrAt 5 cfg2.N = Cert.Spec.lin (K := 256) (V c main_v60) (V c main_v48) (V c main_arg7) (V c main_arg9) (fun i => V c main_v61 (ValueIdx.ix2 0 (i 0))) :=
  (dat2 V c).arrAt_eq_of_cover 5 (lin2 V c) (fun t _ => flushed2_5 V c t) (cover2_5)

/-! ## Output windows 6 and 7: the column sums and the column sums of squares, written back after the last point -/

/-- The sum of column `q` of the linear part over the 50000 rows. -/
def colSumOf2 (c : Dev nD) (q : Fin 256) : EReal := Cert.Spec.colSum (lin2 V c) q

/-- The sum of the squares of column `q` of the linear part over the 50000 rows. -/
def sqSumOf2 (c : Dev nD) (q : Fin 256) : EReal :=
  ∑ p : Fin 50000, lin2 V c (ix2 p q) * lin2 V c (ix2 p q)

/-- The sum over the 25 blocks of the blocks' column sums is the column sum over the 50000 rows. -/
theorem upTo_col (c : Dev nD) (q : Fin 256) : upTo (colBlock2 V c q) 24 = colSumOf2 V c q :=
  (upTo_last _).trans (sum_blocks fun p => lin2 V c (ix2 p q))

theorem upTo_sq (c : Dev nD) (q : Fin 256) : upTo (sqBlock2 V c q) 24 = sqSumOf2 V c q :=
  (upTo_last _).trans (sum_blocks fun p => lin2 V c (ix2 p q) * lin2 V c (ix2 p q))

/-- The one block of window 6 is its whole row: a row given column by column is read back column by column. -/
theorem read_row2_6 (t : Fin cfg2.N) (g : Fin 256 → EReal) (q : Fin 256) :
    ((cfg2.win 6).blk t).view.read (Elt Ideal) (fun j : S1x256.Idx => g (j 1)) (ix2 (0 : Fin 1) q) = g q := by
  rw [View.read_apply]
  obtain ⟨e00, e01, e10, e11, e20, e21, e30, e31, e40, e41, e50, e51, e60, e61, e70, e71⟩ := idx2 t
  show g ((((cfg2.win 6).blk t).view.emb (ix2 (0 : Fin 1) q)) 1) = g q
  refine congrArg g (Fin.ext ?_)
  show win2_6.index t (1 : Fin 2) * 256 + 1 * q.val = q.val
  rw [e61]; omega

theorem flushed2_6 (c : Dev nD) (t : Fin cfg2.N) (hf : (cfg2.win 6).flush t = true) :
    (dat2 V c).flushed 6 t = ((cfg2.win 6).blk t).view.read (Elt Ideal)
      (fun j : S1x256.Idx => colSumOf2 V c (j 1)) := by
  have hN := hN2
  have h24 : t.val = 24 := by have := (flush2_6 t).mp hf; have := t.isLt; omega
  show (cfg2.win 6).cut (grid2.coords t) ((dat2 V c).after 6 t) = _
  rw [after2_6]
  funext j
  obtain ⟨u, q, rfl⟩ : ∃ (u : Fin 1) (q : Fin 256), j = ix2 u q := ⟨j 0, j 1, eq_ix2 j⟩
  obtain rfl : u = 0 := Subsingleton.elim _ _
  refine ((outsAt2_eq V c t.val t.isLt).2.1 q).trans ?_
  refine (congrArg (upTo (colBlock2 V c q)) h24).trans ((upTo_col V c q).trans ?_)
  exact (read_row2_6 t (colSumOf2 V c) q).symm

theorem mem_blk2_6 (t : Fin cfg2.N) (i : S1x256.Idx) :
    i ∈ ((cfg2.win 6).blk t).view.set ↔ ∀ a : Fin 2, win2_6.index t a * S1x256.size a ≤ (i a).val ∧ (i a).val < win2_6.index t a * S1x256.size a + S1x256.size a := by
  show i ∈ ((View.whole main_v62_1).slice (win2_6.rect t)).set ↔ _
  rw [View.set_slice_whole, Rect.mem_set_unit]
  exact Iff.rfl

theorem cover2_6 (i : S1x256.Idx) :
    ∃ t : Fin cfg2.N, (cfg2.win 6).flush t = true ∧ i ∈ ((cfg2.win 6).blk t).view.set := by
  have hi0 : (i 0).val < 1 := (i 0).isLt
  have hi1 : (i 1).val < 256 := (i 1).isLt
  have hN := hN2
  obtain ⟨t, htv⟩ : ∃ t : Fin cfg2.N, t.val = 24 := ⟨⟨24, by rw [hN]; omega⟩, rfl⟩
  obtain ⟨e00, e01, e10, e11, e20, e21, e30, e31, e40, e41, e50, e51, e60, e61, e70, e71⟩ := idx2 t
  refine ⟨t, (flush2_6 t).mpr (by rw [htv]), ?_⟩
  rw [mem_blk2_6]
  intro a
  match a with
  | ⟨0, _⟩ =>
    show win2_6.index t (0 : Fin 2) * 1 ≤ (i 0).val ∧ (i 0).val < win2_6.index t (0 : Fin 2) * 1 + 1
    rw [e60]; omega
  | ⟨1, _⟩ =>
    show win2_6.index t (1 : Fin 2) * 256 ≤ (i 1).val ∧ (i 1).val < win2_6.index t (1 : Fin 2) * 256 + 256
    rw [e61]; omega

/-- The one block of window 7 is its whole row: a row given column by column is read back column by column. -/
theorem read_row2_7 (t : Fin cfg2.N) (g : Fin 256 → EReal) (q : Fin 256) :
    ((cfg2.win 7).blk t).view.read (Elt Ideal) (fun j : S1x256.Idx => g (j 1)) (ix2 (0 : Fin 1) q) = g q := by
  rw [View.read_apply]
  obtain ⟨e00, e01, e10, e11, e20, e21, e30, e31, e40, e41, e50, e51, e60, e61, e70, e71⟩ := idx2 t
  show g ((((cfg2.win 7).blk t).view.emb (ix2 (0 : Fin 1) q)) 1) = g q
  refine congrArg g (Fin.ext ?_)
  show win2_7.index t (1 : Fin 2) * 256 + 1 * q.val = q.val
  rw [e71]; omega

theorem flushed2_7 (c : Dev nD) (t : Fin cfg2.N) (hf : (cfg2.win 7).flush t = true) :
    (dat2 V c).flushed 7 t = ((cfg2.win 7).blk t).view.read (Elt Ideal)
      (fun j : S1x256.Idx => sqSumOf2 V c (j 1)) := by
  have hN := hN2
  have h24 : t.val = 24 := by have := (flush2_7 t).mp hf; have := t.isLt; omega
  show (cfg2.win 7).cut (grid2.coords t) ((dat2 V c).after 7 t) = _
  rw [after2_7]
  funext j
  obtain ⟨u, q, rfl⟩ : ∃ (u : Fin 1) (q : Fin 256), j = ix2 u q := ⟨j 0, j 1, eq_ix2 j⟩
  obtain rfl : u = 0 := Subsingleton.elim _ _
  refine ((outsAt2_eq V c t.val t.isLt).2.2 q).trans ?_
  refine (congrArg (upTo (sqBlock2 V c q)) h24).trans ((upTo_sq V c q).trans ?_)
  exact (read_row2_7 t (sqSumOf2 V c) q).symm

theorem mem_blk2_7 (t : Fin cfg2.N) (i : S1x256.Idx) :
    i ∈ ((cfg2.win 7).blk t).view.set ↔ ∀ a : Fin 2, win2_7.index t a * S1x256.size a ≤ (i a).val ∧ (i a).val < win2_7.index t a * S1x256.size a + S1x256.size a := by
  show i ∈ ((View.whole main_v62_2).slice (win2_7.rect t)).set ↔ _
  rw [View.set_slice_whole, Rect.mem_set_unit]
  exact Iff.rfl

theorem cover2_7 (i : S1x256.Idx) :
    ∃ t : Fin cfg2.N, (cfg2.win 7).flush t = true ∧ i ∈ ((cfg2.win 7).blk t).view.set := by
  have hi0 : (i 0).val < 1 := (i 0).isLt
  have hi1 : (i 1).val < 256 := (i 1).isLt
  have hN := hN2
  obtain ⟨t, htv⟩ : ∃ t : Fin cfg2.N, t.val = 24 := ⟨⟨24, by rw [hN]; omega⟩, rfl⟩
  obtain ⟨e00, e01, e10, e11, e20, e21, e30, e31, e40, e41, e50, e51, e60, e61, e70, e71⟩ := idx2 t
  refine ⟨t, (flush2_7 t).mpr (by rw [htv]), ?_⟩
  rw [mem_blk2_7]
  intro a
  match a with
  | ⟨0, _⟩ =>
    show win2_7.index t (0 : Fin 2) * 1 ≤ (i 0).val ∧ (i 0).val < win2_7.index t (0 : Fin 2) * 1 + 1
    rw [e70]; omega
  | ⟨1, _⟩ =>
    show win2_7.index t (1 : Fin 2) * 256 ≤ (i 1).val ∧ (i 1).val < win2_7.index t (1 : Fin 2) * 256 + 256
    rw [e71]; omega

/-- The array of output window 6 ends holding the column sums of the layer's linear part. -/
theorem region2_sum (c : Dev nD) :
    (dat2 (F := Ideal) V c).arrAt 6 cfg2.N
      = fun j : S1x256.Idx => Cert.Spec.colSum (Cert.Spec.lin (K := 256) (V c main_v60) (V c main_v48) (V c main_arg7) (V c main_arg9) (fun i => V c main_v61 (ValueIdx.ix2 0 (i 0)))) (j 1) :=
  (dat2 V c).arrAt_eq_of_cover 6 (fun j : S1x256.Idx => colSumOf2 V c (j 1)) (flushed2_6 V c) (cover2_6)

/-- The array of output window 7 ends holding the column sums of squares of the layer's linear part. -/
theorem region2_sumsq (c : Dev nD) :
    (dat2 (F := Ideal) V c).arrAt 7 cfg2.N
      = fun j : S1x256.Idx => (∑ p : Fin 50000, (Cert.Spec.lin (K := 256) (V c main_v60) (V c main_v48) (V c main_arg7) (V c main_arg9) (fun i => V c main_v61 (ValueIdx.ix2 0 (i 0)))) (ValueIdx.ix2 p (j 1)) * (Cert.Spec.lin (K := 256) (V c main_v60) (V c main_v48) (V c main_arg7) (V c main_arg9) (fun i => V c main_v61 (ValueIdx.ix2 0 (i 0)))) (ValueIdx.ix2 p (j 1)) : EReal) :=
  (dat2 V c).arrAt_eq_of_cover 7 (fun j : S1x256.Idx => sqSumOf2 V c (j 1)) (flushed2_7 V c) (cover2_7)

end Cert.KernelIdeal.RegionValue.R2

namespace Cert.KernelIdeal.RegionValue

variable (V : (c : Dev nD) → (b : Ref sig .tc) → Buf (Elt Ideal) ((c : Thread nD τ).loc b))

open Cert.KernelIdeal Cert.KernelIdeal.Gen

/-- The array of output window 5 of region 2 ends holding the second layer's linear part. -/
theorem region2_lin (c : Dev nD) :
    (dat2 (F := Ideal) V c).arrAt 5 cfg2.N = Cert.Spec.lin (K := 256) (V c main_v60) (V c main_v48) (V c main_arg7) (V c main_arg9) (fun i => V c main_v61 (ValueIdx.ix2 0 (i 0))) :=
  R2.region2_lin V c

/-- The array of output window 6 of region 2 ends holding the column sums of the second layer's linear part. -/
theorem region2_sum (c : Dev nD) :
    (dat2 (F := Ideal) V c).arrAt 6 cfg2.N
      = fun j : S1x256.Idx => Cert.Spec.colSum (Cert.Spec.lin (K := 256) (V c main_v60) (V c main_v48) (V c main_arg7) (V c main_arg9) (fun i => V c main_v61 (ValueIdx.ix2 0 (i 0)))) (j 1) :=
  R2.region2_sum V c

/-- The array of output window 7 of region 2 ends holding the column sums of squares of the second layer's linear part. -/
theorem region2_sumsq (c : Dev nD) :
    (dat2 (F := Ideal) V c).arrAt 7 cfg2.N
      = fun j : S1x256.Idx => (∑ p : Fin 50000, (Cert.Spec.lin (K := 256) (V c main_v60) (V c main_v48) (V c main_arg7) (V c main_arg9) (fun i => V c main_v61 (ValueIdx.ix2 0 (i 0)))) (ValueIdx.ix2 p (j 1)) * (Cert.Spec.lin (K := 256) (V c main_v60) (V c main_v48) (V c main_arg7) (V c main_arg9) (fun i => V c main_v61 (ValueIdx.ix2 0 (i 0)))) (ValueIdx.ix2 p (j 1)) : EReal) :=
  R2.region2_sumsq V c

end Cert.KernelIdeal.RegionValue

end
-- ==== Proof.Region3Pay.lean ====
/-
  The arithmetic of the last region's body, read at one entry.

  The body first normalises, scales, shifts and clips its 2000×256 block exactly as the earlier pointwise region
  does, giving a block `h`. It then transposes the 4×256 weight block `x5` to 256×4, multiplies `h` by it on the
  matrix unit into a zero accumulator, and adds the one-row bias `x6` repeated down the rows. The narrowing of both
  factors to a shorter float format before the product changes nothing on extended reals. So the entry at row `p`,
  column `c` is (sum over k of h(p,k) · x5(c,k)) + x6(c).
-/
import proofs.«138899_j10342281249011_1_alg».proof.Proof.Gen.KernelIdeal.Skeleton
import proofs.«138899_j10342281249011_1_alg».proof.Proof.LibPlainDot
import Idealize.ShloMosaic.Lib.Pipeline.Value
import Idealize.ShloMosaic.Lib.ValueIdx
import Idealize.ShloMosaic.Lib.ValueLayout

noncomputable section

namespace Cert.KernelIdeal.PointwiseRegion

open Idealize.ShloMosaic Idealize.ShloMosaic.ValueIdx Cert.KernelIdeal Cert.KernelIdeal.Gen

/-- The body is the pointwise body of the normalising region followed by a narrowing, a transpose, a product into
    the zero accumulator and a bias row: the two payloads share their first nineteen operations word for word. -/
theorem pay3_shape (x0 : Vec Ideal S2000x256 .f32) (x1 x2 x3 x4 : Vec Ideal S1x256 .f32) (x5 : Vec Ideal S4x256 .f32)
    (x6 : Vec Ideal S1x4 .f32) :
    k3_pay1 (F := Ideal) x0 x1 x2 x3 x4 x5 x6
      = addf (matmul dot_S2000x256_S256x4_S2000x4_1_0_0_1_n_n none
            (truncf .bf16 (k1_pay1 (F := Ideal) x0 x1 x2 x3 x4) bitsLt_bf16_f32)
            (transpose S256x4 [1, 0] (truncf .bf16 x5 bitsLt_bf16_f32) transposes_S4x256_p1_0_S256x4)
            (constant S2000x4 .f32 0x00000000#32))
          (broadcastTo S2000x4 (shapeCast S1x4 x6 shapeCasts_S1x4_S1x4) broadcasts_S1x4_S2000x4) := rfl

/-- The entry at row `p`, column `c`: the row of the normalised block against row `c` of the weights, plus the bias. -/
theorem pay3_apply (x0 : Vec Ideal S2000x256 .f32) (x1 x2 x3 x4 : Vec Ideal S1x256 .f32) (x5 : Vec Ideal S4x256 .f32)
    (x6 : Vec Ideal S1x4 .f32) (p : Fin 2000) (c : Fin 4) :
    k3_pay1 (F := Ideal) x0 x1 x2 x3 x4 x5 x6 (ix2 p c)
      = (∑ k : Fin 256, k1_pay1 (F := Ideal) x0 x1 x2 x3 x4 (ix2 p k) * x5 (ix2 c k)) + x6 (ix2 (0 : Fin 1) c) := by
  rw [pay3_shape, addf_apply, shapeCast_self, broadcastTo_1b_ab_apply]
  refine congrArg (· + x6 (ix2 (0 : Fin 1) c)) ?_
  refine (Cert.LibPlainDot.matmul_zero_apply 2000 256 4 none _ _ (ix2 p c)).trans ?_
  refine Finset.sum_congr rfl fun k _ => ?_
  refine congrArg₂ (· * ·) rfl ?_
  exact transpose_ix2_apply _ _ k c

end Cert.KernelIdeal.PointwiseRegion

end
-- ==== Proof.Region3.lean ====
/-
  Region 3 read as a value: the array the last region leaves.

  The region walks 25 grid points. Point `t` receives rows 2000·t … 2000·t + 1999 of the 50000-row input, the four
  one-row operands, the 4×256 weights and the one-row bias whole, and writes rows 2000·t … 2000·t + 1999 of the
  four-column output. Row `r` of the output is written by point `r / 2000`, and its entry in column `c` is the
  normalised, scaled, shifted and clipped row `r` of the input against row `c` of the weights, plus the bias at
  `c`: the specification's `head` of its `bnrelu`.
-/
import proofs.«138899_j10342281249011_1_alg».proof.Proof.Gen.KernelIdeal.Frame
import proofs.«138899_j10342281249011_1_alg».proof.Proof.Region1
import proofs.«138899_j10342281249011_1_alg».proof.Proof.Region3Pay
import Idealize.ShloMosaic.Lib.Pipeline.Value

noncomputable section

namespace Cert.KernelIdeal.PointwiseRegion

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- One entry of a block, over plain arrays: when the 2000-row block `x0` is rows 2000·t … of the array `A`, the
    other blocks are their arrays, and the block's entry `y` is the output's entry `i` (row 2000·t + row of `y`,
    the same column), the body's entry at `y` is the specification's entry at `i`. -/
theorem point3 (A : S50000x256.Idx → EReal) (M D G B : S1x256.Idx → EReal) (W : S4x256.Idx → EReal) (Bo : S1x4.Idx → EReal)
    (x0 : Vec Ideal S2000x256 .f32) (x1 x2 x3 x4 : Vec Ideal S1x256 .f32) (x5 : Vec Ideal S4x256 .f32) (x6 : Vec Ideal S1x4 .f32)
    (t : ℕ) (y : S2000x4.Idx) (i : S50000x4.Idx)
    (hx0 : ∀ (p : Fin 2000) (k : Fin 256) (r : Fin 50000), r.val = 2000 * t + p.val → x0 (ix2 p k) = A (ix2 r k))
    (hx1 : ∀ z, x1 z = M z) (hx2 : ∀ z, x2 z = D z) (hx3 : ∀ z, x3 z = G z) (hx4 : ∀ z, x4 z = B z)
    (hx5 : ∀ z, x5 z = W z) (hx6 : ∀ z, x6 z = Bo z)
    (hrow : (i 0).val = 2000 * t + (y 0).val) (hcol : (i 1).val = (y 1).val) :
    k3_pay1 (F := Ideal) x0 x1 x2 x3 x4 x5 x6 y
      = Cert.Spec.head (Cert.Spec.bnrelu A (fun q => M (ix2 (0 : Fin 1) q)) (fun q => D (ix2 (0 : Fin 1) q))
          (fun j => G (ix2 (0 : Fin 1) (j 0))) (fun j => B (ix2 (0 : Fin 1) (j 0)))) W (fun j => Bo (ix2 (0 : Fin 1) (j 0))) i := by
  obtain ⟨p, c, rfl⟩ : ∃ (p : Fin 2000) (c : Fin 4), y = ix2 p c := ⟨y 0, y 1, eq_ix2 y⟩
  obtain ⟨r, c', rfl⟩ : ∃ (r : Fin 50000) (c' : Fin 4), i = ix2 r c' := ⟨i 0, i 1, eq_ix2 i⟩
  obtain rfl : c' = c := Fin.ext hcol
  rw [pay3_apply, hx6]
  show _ = (∑ k : Fin 256, Cert.Spec.bnrelu A (fun q => M (ix2 (0 : Fin 1) q)) (fun q => D (ix2 (0 : Fin 1) q))
          (fun j => G (ix2 (0 : Fin 1) (j 0))) (fun j => B (ix2 (0 : Fin 1) (j 0))) (ix2 r k) * W (ix2 c' k)) + Bo (ix2 (0 : Fin 1) c')
  refine congrArg (· + Bo (ix2 (0 : Fin 1) c')) (Finset.sum_congr rfl fun k _ => ?_)
  rw [point1 A M D G B x0 x1 x2 x3 x4 (ix2 p k) (ix2 r k) (hx0 p k r hrow) hx1 hx2 hx3 hx4 rfl, hx5]

/-- Where each window's block sits at point `t`: the two 2000-row windows at block row `t`, the others at their
    only block. -/
theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-- The array the region leaves, as the specification states it. -/
abbrev G3 (c : Dev nD) : S50000x4.Idx → EReal :=
  Cert.Spec.head (Cert.Spec.bnrelu (V c main_v62_0) (fun q => V c main_v74 (ix2 (0 : Fin 1) q)) (fun q => V c main_v75 (ix2 (0 : Fin 1) q))
    (fun j => V c main_v76 (ix2 (0 : Fin 1) (j 0))) (fun j => V c main_v77 (ix2 (0 : Fin 1) (j 0))))
    (V c main_arg12) (fun j => V c main_v78 (ix2 (0 : Fin 1) (j 0)))

/-- What point `t` writes back is block `t` of that array. -/
theorem flushed3_eq (c : Dev nD) (t : Fin cfg3.N) :
    (dat3 (F := Ideal) V c).flushed 7 t = ((cfg3.win 7).blk t).view.read (Elt Ideal) (G3 V c) := by
  show (cfg3.win 7).cut (grid3.coords t) ((dat3 (F := Ideal) V c).after 7 t) = _
  rw [after3_7]
  unfold out3_7
  rw [View.canon_unit_zero zero_off2]
  simp only [View.ld_unit_zero (S := S2000x256) zero_off2, View.ld_unit_zero (S := S1x256) zero_off2,
    View.ld_unit_zero (S := S4x256) zero_off2, View.ld_unit_zero (S := S1x4) zero_off2]
  obtain ⟨e00, e01, e10, e11, e20, e21, e30, e31, e40, e41, e50, e51, e60, e61, e70, e71⟩ := idx3 t
  funext j
  refine point3 (V c main_v62_0) (V c main_v74) (V c main_v75) (V c main_v76) (V c main_v77) (V c main_arg12) (V c main_v78)
    (iblk3 V c 0 t) (iblk3 V c 1 t) (iblk3 V c 2 t) (iblk3 V c 3 t) (iblk3 V c 4 t) (iblk3 V c 5 t) (iblk3 V c 6 t) t.val j
    (((cfg3.win 7).blk t).view.emb j) ?_ ?_ ?_ ?_ ?_ ?_ ?_ ?_ ?_
  · intro p k r hr
    show V c main_v62_0 (((cfg3.win 0).blk t).view.emb (ix2 p k)) = V c main_v62_0 (ix2 r k)
    refine congrArg _ (funext fun a => Fin.ext ?_)
    match a with
    | ⟨0, _⟩ => show win3_0.index t (0 : Fin 2) * 2000 + 1 * p.val = r.val; omega
    | ⟨1, _⟩ => show win3_0.index t (1 : Fin 2) * 256 + 1 * k.val = k.val; omega
  · intro z
    show V c main_v74 (((cfg3.win 1).blk t).view.emb z) = V c main_v74 z
    refine congrArg _ (funext fun a => Fin.ext ?_)
    match a with
    | ⟨0, _⟩ => show win3_1.index t (0 : Fin 2) * 1 + 1 * (z 0).val = (z 0).val; omega
    | ⟨1, _⟩ => show win3_1.index t (1 : Fin 2) * 256 + 1 * (z 1).val = (z 1).val; omega
  · intro z
    show V c main_v75 (((cfg3.win 2).blk t).view.emb z) = V c main_v75 z
    refine congrArg _ (funext fun a => Fin.ext ?_)
    match a with
    | ⟨0, _⟩ => show win3_2.index t (0 : Fin 2) * 1 + 1 * (z 0).val = (z 0).val; omega
    | ⟨1, _⟩ => show win3_2.index t (1 : Fin 2) * 256 + 1 * (z 1).val = (z 1).val; omega
  · intro z
    show V c main_v76 (((cfg3.win 3).blk t).view.emb z) = V c main_v76 z
    refine congrArg _ (funext fun a => Fin.ext ?_)
    match a with
    | ⟨0, _⟩ => show win3_3.index t (0 : Fin 2) * 1 + 1 * (z 0).val = (z 0).val; omega
    | ⟨1, _⟩ => show win3_3.index t (1 : Fin 2) * 256 + 1 * (z 1).val = (z 1).val; omega
  · intro z
    show V c main_v77 (((cfg3.win 4).blk t).view.emb z) = V c main_v77 z
    refine congrArg _ (funext fun a => Fin.ext ?_)
    match a with
    | ⟨0, _⟩ => show win3_4.index t (0 : Fin 2) * 1 + 1 * (z 0).val = (z 0).val; omega
    | ⟨1, _⟩ => show win3_4.index t (1 : Fin 2) * 256 + 1 * (z 1).val = (z 1).val; omega
  · intro z
    show V c main_arg12 (((cfg3.win 5).blk t).view.emb z) = V c main_arg12 z
    refine congrArg _ (funext fun a => Fin.ext ?_)
    match a with
    | ⟨0, _⟩ => show win3_5.index t (0 : Fin 2) * 4 + 1 * (z 0).val = (z 0).val; omega
    | ⟨1, _⟩ => show win3_5.index t (1 : Fin 2) * 256 + 1 * (z 1).val = (z 1).val; omega
  · intro z
    show V c main_v78 (((cfg3.win 6).blk t).view.emb z) = V c main_v78 z
    refine congrArg _ (funext fun a => Fin.ext ?_)
    match a with
    | ⟨0, _⟩ => show win3_6.index t (0 : Fin 2) * 1 + 1 * (z 0).val = (z 0).val; omega
    | ⟨1, _⟩ => show win3_6.index t (1 : Fin 2) * 4 + 1 * (z 1).val = (z 1).val; omega
  · show win3_7.index t (0 : Fin 2) * 2000 + 1 * (j 0).val = 2000 * t.val + (j 0).val
    omega
  · show win3_7.index t (1 : Fin 2) * 4 + 1 * (j 1).val = (j 1).val
    omega

/-- An entry of the output array lies in point `t`'s block exactly when each coordinate lies in the block's range. -/
theorem mem_blk3 (t : Fin cfg3.N) (i : S50000x4.Idx) :
    i ∈ ((cfg3.win 7).blk t).view.set ↔ ∀ a : Fin 2, win3_7.index t a * S2000x4.size a ≤ (i a).val ∧ (i a).val < win3_7.index t a * S2000x4.size a + S2000x4.size a := by
  show i ∈ ((View.whole main_v79).slice (win3_7.rect t)).set ↔ _
  rw [View.set_slice_whole, Rect.mem_set_unit]
  exact Iff.rfl

/-- Every entry of the output array is written by some point: row `r` by point `r / 2000`. -/
theorem cover3 (i : S50000x4.Idx) :
    ∃ t : Fin cfg3.N, (cfg3.win 7).flush t = true ∧ i ∈ ((cfg3.win 7).blk t).view.set := by
  have hN : cfg3.N = 25 := N_3
  have hi0 : (i 0).val < 50000 := (i 0).isLt
  have hi1 : (i 1).val < 4 := (i 1).isLt
  let t : Fin cfg3.N := ⟨(i 0).val / 2000, by rw [hN]; omega⟩
  have ht : t.val = (i 0).val / 2000 := rfl
  obtain ⟨e00, e01, e10, e11, e20, e21, e30, e31, e40, e41, e50, e51, e60, e61, e70, e71⟩ := idx3 t
  refine ⟨t, flush3_7 t, ?_⟩
  rw [mem_blk3]
  intro a
  match a with
  | ⟨0, _⟩ => show win3_7.index t (0 : Fin 2) * 2000 ≤ (i 0).val ∧ (i 0).val < win3_7.index t (0 : Fin 2) * 2000 + 2000; omega
  | ⟨1, _⟩ => show win3_7.index t (1 : Fin 2) * 4 ≤ (i 1).val ∧ (i 1).val < win3_7.index t (1 : Fin 2) * 4 + 4; omega

/-- The array region 3 leaves is the specification's last linear map of the normalised, scaled, shifted and clipped
    input, over the arrays the region finds. -/
theorem region3_val (c : Dev nD) :
    (dat3 (F := Ideal) V c).arrAt 7 cfg3.N
      = Cert.Spec.head (Cert.Spec.bnrelu (V c main_v62_0) (fun q => V c main_v74 (ix2 (0 : Fin 1) q)) (fun q => V c main_v75 (ix2 (0 : Fin 1) q))
          (fun j => V c main_v76 (ix2 (0 : Fin 1) (j 0))) (fun j => V c main_v77 (ix2 (0 : Fin 1) (j 0))))
          (V c main_arg12) (fun j => V c main_v78 (ix2 (0 : Fin 1) (j 0))) :=
  (dat3 (F := Ideal) V c).arrAt_eq_of_cover 7 (G3 V c) (fun t _ => flushed3_eq V c t) (cover3)

end Cert.KernelIdeal.PointwiseRegion

end
-- ==== Proof.RefSideLin1.lean ====
/-
  The reference program's first linear stage, read entry by entry.

  Entry (p, q) of the stage is the sum over the 4 input columns k of aggregate(p,k)·Wl(q,k), plus the bias b(q),
  plus the sum over k of feature(p,k)·Wr(q,k): the program multiplies by the transposed weight matrices, and
  a transposed matrix read at (k, q) is the matrix read at (q, k); the bias vector is laid as a row and repeated
  over the 50000 rows, so at (p, q) it is b(q).
-/
import proofs.«138899_j10342281249011_1_alg».proof.Proof.Gen.ReferenceIdeal.Read
import proofs.«138899_j10342281249011_1_alg».proof.Proof.Spec

noncomputable section

namespace Cert.RefSide

open Idealize.ShloMosaic Idealize.ShloMosaic.ValueIdx
open Cert.ReferenceIdeal Cert.ReferenceIdeal.Gen Cert.ReferenceIdeal.Read

variable (x0 : (⟨S50000x4, .f32⟩ : BufTy).Contents (Elt Ideal)) (x1 : (⟨S2x800000, .i32⟩ : BufTy).Contents (Elt Ideal))
  (x2 : (⟨S256x4, .f32⟩ : BufTy).Contents (Elt Ideal)) (x3 : (⟨S256, .f32⟩ : BufTy).Contents (Elt Ideal))
  (x4 : (⟨S256x4, .f32⟩ : BufTy).Contents (Elt Ideal))

/-- Row p of the left factor, column k. -/
theorem lin1_lrow (p : Fin 50000) (q : Fin 256) (k : Fin 4) : lidx_main_v32 (ix2 p q) k = ix2 p k :=
  funext fun a => Fin.ext (by match a with | ⟨0, _⟩ => rfl | ⟨1, _⟩ => rfl)
/-- The transposed left weights at (k, q) are the weights at (q, k). -/
theorem lin1_lcol (p : Fin 50000) (q : Fin 256) (k : Fin 4) : idx_main_v31 (ridx_main_v32 (ix2 p q) k) = ix2 q k :=
  funext fun a => Fin.ext (by match a with | ⟨0, _⟩ => rfl | ⟨1, _⟩ => rfl)
/-- Row p of the right factor, column k. -/
theorem lin1_rrow (p : Fin 50000) (q : Fin 256) (k : Fin 4) : lidx_main_v37 (ix2 p q) k = ix2 p k :=
  funext fun a => Fin.ext (by match a with | ⟨0, _⟩ => rfl | ⟨1, _⟩ => rfl)
/-- The transposed right weights at (k, q) are the weights at (q, k). -/
theorem lin1_rcol (p : Fin 50000) (q : Fin 256) (k : Fin 4) : idx_main_v36 (ridx_main_v37 (ix2 p q) k) = ix2 q k :=
  funext fun a => Fin.ext (by match a with | ⟨0, _⟩ => rfl | ⟨1, _⟩ => rfl)
/-- The bias repeated over the rows, at (p, q), is the bias at q. -/
theorem lin1_bias (p : Fin 50000) (q : Fin 256) : idx_main_v33 (idx_main_v34 (ix2 p q)) = ix1 q :=
  funext fun a => Fin.ext (by match a with | ⟨0, _⟩ => rfl)

/-- The linear stage at (p, q). -/
theorem lin1_apply (p : Fin 50000) (q : Fin 256) :
    val_main_v38 (F := Ideal) x0 x1 x2 x3 x4 (ix2 p q)
      = Spec.lin (val_main_v30 (F := Ideal) x0 x1) (val_main_v11 (F := Ideal) x0) x2 x4 x3 (ix2 p q) := by
  rw [val_main_v38_apply, val_main_v35_apply, val_main_v32_apply, val_main_v37_apply, val_main_v34_apply,
    val_main_v33_apply]
  simp only [val_main_v31_apply, val_main_v36_apply, lin1_lrow, lin1_lcol, lin1_rrow, lin1_rcol, lin1_bias,
    Ideal.addf_def]
  rfl

/-- The linear stage is the specification's, of the aggregate and the features before it. -/
theorem lin1_eq :
    val_main_v38 (F := Ideal) x0 x1 x2 x3 x4
      = Spec.lin (val_main_v30 (F := Ideal) x0 x1) (val_main_v11 (F := Ideal) x0) x2 x4 x3 := by
  funext i
  obtain ⟨p, q, rfl⟩ : ∃ (p : Fin 50000) (q : Fin 256), i = ix2 p q := ⟨i 0, i 1, eq_ix2 i⟩
  exact lin1_apply x0 x1 x2 x3 x4 p q

end Cert.RefSide

end
-- ==== Proof.RefSideNorm1.lean ====
/-
  The reference program's first normalisation stage, read entry by entry, as a function of the linear stage
  before it.

  The mean of column q is the sum of the column over the 50000 rows (the program's sum starts from the zero word,
  which adds nothing) divided by the word 50000. The variance is the same mean taken of the squared deviations
  from the column's mean. The mean and the reciprocal deviation rsqrt(variance + eps) are vectors over the columns,
  laid as a row and repeated over the rows: at (p, q) they are their values at q. The stage's entry (p, q) is
  (a(p,q) − mean(q)) · rsqrt(var(q) + eps) · g(q) + b(q), clipped below at zero.
-/
import proofs.«138899_j10342281249011_1_alg».proof.Proof.Gen.ReferenceIdeal.Read
import proofs.«138899_j10342281249011_1_alg».proof.Proof.Spec

noncomputable section

namespace Cert.RefSide

open Idealize.ShloMosaic Idealize.ShloMosaic.ValueIdx
open Cert.ReferenceIdeal Cert.ReferenceIdeal.Gen Cert.ReferenceIdeal.Read

variable (x0 : (⟨S50000x4, .f32⟩ : BufTy).Contents (Elt Ideal)) (x1 : (⟨S2x800000, .i32⟩ : BufTy).Contents (Elt Ideal))
  (x2 : (⟨S256x4, .f32⟩ : BufTy).Contents (Elt Ideal)) (x3 : (⟨S256, .f32⟩ : BufTy).Contents (Elt Ideal))
  (x4 : (⟨S256x4, .f32⟩ : BufTy).Contents (Elt Ideal)) (x5 x6 : (⟨S256, .f32⟩ : BufTy).Contents (Elt Ideal))

/-- Term k of a column sum over the rows is the entry at row k of that column. -/
theorem norm1_sum_idx (q : Fin 256) (k : Fin 50000) : idx_main_v39 (ix1 q) k = ix2 k q :=
  funext fun a => Fin.ext (by match a with | ⟨0, _⟩ => rfl | ⟨1, _⟩ => rfl)
theorem norm1_sq_idx (q : Fin 256) (k : Fin 50000) : idx_main_v46 (ix1 q) k = ix2 k q :=
  funext fun a => Fin.ext (by match a with | ⟨0, _⟩ => rfl | ⟨1, _⟩ => rfl)
/-- A vector over the columns, laid as a row and repeated over the rows, read at (p, q), is the vector at q. -/
theorem norm1_row_a (p : Fin 50000) (q : Fin 256) : idx_main_v42 (idx_main_v43 (ix2 p q)) = ix1 q :=
  funext fun a => Fin.ext (by match a with | ⟨0, _⟩ => rfl)
theorem norm1_row_b (p : Fin 50000) (q : Fin 256) : idx_main_v49 (idx_main_v50 (ix2 p q)) = ix1 q :=
  funext fun a => Fin.ext (by match a with | ⟨0, _⟩ => rfl)
theorem norm1_row_c (p : Fin 50000) (q : Fin 256) : idx_main_v55 (idx_main_v56 (ix2 p q)) = ix1 q :=
  funext fun a => Fin.ext (by match a with | ⟨0, _⟩ => rfl)
theorem norm1_row_g (p : Fin 50000) (q : Fin 256) : idx_main_v58 (idx_main_v59 (ix2 p q)) = ix1 q :=
  funext fun a => Fin.ext (by match a with | ⟨0, _⟩ => rfl)
theorem norm1_row_s (p : Fin 50000) (q : Fin 256) : idx_main_v61 (idx_main_v62 (ix2 p q)) = ix1 q :=
  funext fun a => Fin.ext (by match a with | ⟨0, _⟩ => rfl)

/-- The column mean. -/
theorem mean1_apply (q : Fin 256) :
    val_main_v41 (F := Ideal) x0 x1 x2 x3 x4 (ix1 q) = Spec.mu (val_main_v38 (F := Ideal) x0 x1 x2 x3 x4) q := by
  rw [val_main_v41_apply, val_main_v39_apply, val_main_v40_apply, val_main_cst_7_apply, val_main_cst_8_apply]
  simp only [norm1_sum_idx, Ideal.hostDivf_def, Ideal.ofBits_def, Ideal.ofBits_zero_f32, zero_add]
  rfl

/-- The deviation from the column mean at (p, q). -/
theorem dev1_apply (p : Fin 50000) (q : Fin 256) :
    val_main_v44 (F := Ideal) x0 x1 x2 x3 x4 (ix2 p q) = (val_main_v38 (F := Ideal) x0 x1 x2 x3 x4) (ix2 p q) - Spec.mu (val_main_v38 (F := Ideal) x0 x1 x2 x3 x4) q := by
  rw [val_main_v44_apply, val_main_v43_apply, val_main_v42_apply, norm1_row_a, mean1_apply]
  rfl

/-- The squared deviation at (p, q). -/
theorem sq1_apply (p : Fin 50000) (q : Fin 256) :
    val_main_v45 (F := Ideal) x0 x1 x2 x3 x4 (ix2 p q)
      = ((val_main_v38 (F := Ideal) x0 x1 x2 x3 x4) (ix2 p q) - Spec.mu (val_main_v38 (F := Ideal) x0 x1 x2 x3 x4) q) * ((val_main_v38 (F := Ideal) x0 x1 x2 x3 x4) (ix2 p q) - Spec.mu (val_main_v38 (F := Ideal) x0 x1 x2 x3 x4) q) := by
  rw [val_main_v45_apply, dev1_apply]
  rfl

/-- The column variance, as the mean of the squared deviations. -/
theorem var1_apply (q : Fin 256) :
    val_main_v48 (F := Ideal) x0 x1 x2 x3 x4 (ix1 q) = Spec.varDev (val_main_v38 (F := Ideal) x0 x1 x2 x3 x4) q := by
  rw [val_main_v48_apply, val_main_v46_apply, val_main_v47_apply, val_main_cst_9_apply, val_main_cst_10_apply]
  simp only [norm1_sq_idx, sq1_apply, Ideal.hostDivf_def, Ideal.ofBits_def, Ideal.ofBits_zero_f32, zero_add]
  rfl

/-- The normalised, scaled, shifted and clipped stage at (p, q). -/
theorem norm1_apply (p : Fin 50000) (q : Fin 256) :
    val_main_v64 (F := Ideal) x0 x1 x2 x3 x4 x5 x6 (ix2 p q)
      = Spec.bnrelu (val_main_v38 (F := Ideal) x0 x1 x2 x3 x4) (Spec.mu (val_main_v38 (F := Ideal) x0 x1 x2 x3 x4))
          (Spec.istd (Spec.varDev (val_main_v38 (F := Ideal) x0 x1 x2 x3 x4))) x5 x6 (ix2 p q) := by
  rw [val_main_v64_apply, val_main_v63_apply, val_main_v60_apply, val_main_v57_apply, val_main_v51_apply,
    val_main_v62_apply, val_main_v61_apply, norm1_row_s, val_main_v59_apply, val_main_v58_apply, norm1_row_g,
    val_main_v56_apply, val_main_v55_apply, norm1_row_c, val_main_v54_apply, val_main_v53_apply, var1_apply,
    val_main_v52_apply, val_main_cst_11_apply, val_main_v50_apply, val_main_v49_apply, norm1_row_b, mean1_apply,
    val_main_call1_v0_apply, val_main_call1_cst_apply]
  rfl

/-- The normalisation stage is the specification's, of the linear stage before it. -/
theorem norm1_eq :
    val_main_v64 (F := Ideal) x0 x1 x2 x3 x4 x5 x6
      = Spec.bnrelu (val_main_v38 (F := Ideal) x0 x1 x2 x3 x4) (Spec.mu (val_main_v38 (F := Ideal) x0 x1 x2 x3 x4))
          (Spec.istd (Spec.varDev (val_main_v38 (F := Ideal) x0 x1 x2 x3 x4))) x5 x6 := by
  funext i
  obtain ⟨p, q, rfl⟩ : ∃ (p : Fin 50000) (q : Fin 256), i = ix2 p q := ⟨i 0, i 1, eq_ix2 i⟩
  exact norm1_apply x0 x1 x2 x3 x4 x5 x6 p q

end Cert.RefSide

end
-- ==== Proof.RefSideLin2.lean ====
/-
  The reference program's second linear stage, read entry by entry.

  Entry (p, q) of the stage is the sum over the 256 input columns k of aggregate(p,k)·Wl(q,k), plus the bias b(q),
  plus the sum over k of feature(p,k)·Wr(q,k): the program multiplies by the transposed weight matrices, and
  a transposed matrix read at (k, q) is the matrix read at (q, k); the bias vector is laid as a row and repeated
  over the 50000 rows, so at (p, q) it is b(q).
-/
import proofs.«138899_j10342281249011_1_alg».proof.Proof.Gen.ReferenceIdeal.Read
import proofs.«138899_j10342281249011_1_alg».proof.Proof.Spec

noncomputable section

namespace Cert.RefSide

open Idealize.ShloMosaic Idealize.ShloMosaic.ValueIdx
open Cert.ReferenceIdeal Cert.ReferenceIdeal.Gen Cert.ReferenceIdeal.Read

variable (x0 : (⟨S50000x4, .f32⟩ : BufTy).Contents (Elt Ideal)) (x1 : (⟨S2x800000, .i32⟩ : BufTy).Contents (Elt Ideal))
  (x2 : (⟨S256x4, .f32⟩ : BufTy).Contents (Elt Ideal)) (x3 : (⟨S256, .f32⟩ : BufTy).Contents (Elt Ideal))
  (x4 : (⟨S256x4, .f32⟩ : BufTy).Contents (Elt Ideal)) (x5 x6 : (⟨S256, .f32⟩ : BufTy).Contents (Elt Ideal))
  (x7 : (⟨S256x256, .f32⟩ : BufTy).Contents (Elt Ideal)) (x8 : (⟨S256, .f32⟩ : BufTy).Contents (Elt Ideal)) (x9 : (⟨S256x256, .f32⟩ : BufTy).Contents (Elt Ideal))

/-- Row p of the left factor, column k. -/
theorem lin2_lrow (p : Fin 50000) (q : Fin 256) (k : Fin 256) : lidx_main_v85 (ix2 p q) k = ix2 p k :=
  funext fun a => Fin.ext (by match a with | ⟨0, _⟩ => rfl | ⟨1, _⟩ => rfl)
/-- The transposed left weights at (k, q) are the weights at (q, k). -/
theorem lin2_lcol (p : Fin 50000) (q : Fin 256) (k : Fin 256) : idx_main_v84 (ridx_main_v85 (ix2 p q) k) = ix2 q k :=
  funext fun a => Fin.ext (by match a with | ⟨0, _⟩ => rfl | ⟨1, _⟩ => rfl)
/-- Row p of the right factor, column k. -/
theorem lin2_rrow (p : Fin 50000) (q : Fin 256) (k : Fin 256) : lidx_main_v90 (ix2 p q) k = ix2 p k :=
  funext fun a => Fin.ext (by match a with | ⟨0, _⟩ => rfl | ⟨1, _⟩ => rfl)
/-- The transposed right weights at (k, q) are the weights at (q, k). -/
theorem lin2_rcol (p : Fin 50000) (q : Fin 256) (k : Fin 256) : idx_main_v89 (ridx_main_v90 (ix2 p q) k) = ix2 q k :=
  funext fun a => Fin.ext (by match a with | ⟨0, _⟩ => rfl | ⟨1, _⟩ => rfl)
/-- The bias repeated over the rows, at (p, q), is the bias at q. -/
theorem lin2_bias (p : Fin 50000) (q : Fin 256) : idx_main_v86 (idx_main_v87 (ix2 p q)) = ix1 q :=
  funext fun a => Fin.ext (by match a with | ⟨0, _⟩ => rfl)

/-- The linear stage at (p, q). -/
theorem lin2_apply (p : Fin 50000) (q : Fin 256) :
    val_main_v91 (F := Ideal) x0 x1 x2 x3 x4 x5 x6 x7 x8 x9 (ix2 p q)
      = Spec.lin (val_main_v83 (F := Ideal) x0 x1 x2 x3 x4 x5 x6) (val_main_v64 (F := Ideal) x0 x1 x2 x3 x4 x5 x6) x7 x9 x8 (ix2 p q) := by
  rw [val_main_v91_apply, val_main_v88_apply, val_main_v85_apply, val_main_v90_apply, val_main_v87_apply,
    val_main_v86_apply]
  simp only [val_main_v84_apply, val_main_v89_apply, lin2_lrow, lin2_lcol, lin2_rrow, lin2_rcol, lin2_bias,
    Ideal.addf_def]
  rfl

/-- The linear stage is the specification's, of the aggregate and the features before it. -/
theorem lin2_eq :
    val_main_v91 (F := Ideal) x0 x1 x2 x3 x4 x5 x6 x7 x8 x9
      = Spec.lin (val_main_v83 (F := Ideal) x0 x1 x2 x3 x4 x5 x6) (val_main_v64 (F := Ideal) x0 x1 x2 x3 x4 x5 x6) x7 x9 x8 := by
  funext i
  obtain ⟨p, q, rfl⟩ : ∃ (p : Fin 50000) (q : Fin 256), i = ix2 p q := ⟨i 0, i 1, eq_ix2 i⟩
  exact lin2_apply x0 x1 x2 x3 x4 x5 x6 x7 x8 x9 p q

end Cert.RefSide

end
-- ==== Proof.RefSideNorm2.lean ====
/-
  The reference program's second normalisation stage, read entry by entry, as a function of the linear stage
  before it.

  The mean of column q is the sum of the column over the 50000 rows (the program's sum starts from the zero word,
  which adds nothing) divided by the word 50000. The variance is the same mean taken of the squared deviations
  from the column's mean. The mean and the reciprocal deviation rsqrt(variance + eps) are vectors over the columns,
  laid as a row and repeated over the rows: at (p, q) they are their values at q. The stage's entry (p, q) is
  (a(p,q) − mean(q)) · rsqrt(var(q) + eps) · g(q) + b(q), clipped below at zero.
-/
import proofs.«138899_j10342281249011_1_alg».proof.Proof.Gen.ReferenceIdeal.Read
import proofs.«138899_j10342281249011_1_alg».proof.Proof.Spec

noncomputable section

namespace Cert.RefSide

open Idealize.ShloMosaic Idealize.ShloMosaic.ValueIdx
open Cert.ReferenceIdeal Cert.ReferenceIdeal.Gen Cert.ReferenceIdeal.Read

variable (x0 : (⟨S50000x4, .f32⟩ : BufTy).Contents (Elt Ideal)) (x1 : (⟨S2x800000, .i32⟩ : BufTy).Contents (Elt Ideal))
  (x2 : (⟨S256x4, .f32⟩ : BufTy).Contents (Elt Ideal)) (x3 : (⟨S256, .f32⟩ : BufTy).Contents (Elt Ideal))
  (x4 : (⟨S256x4, .f32⟩ : BufTy).Contents (Elt Ideal)) (x5 x6 : (⟨S256, .f32⟩ : BufTy).Contents (Elt Ideal))
  (x7 : (⟨S256x256, .f32⟩ : BufTy).Contents (Elt Ideal)) (x8 : (⟨S256, .f32⟩ : BufTy).Contents (Elt Ideal)) (x9 : (⟨S256x256, .f32⟩ : BufTy).Contents (Elt Ideal)) (x10 x11 : (⟨S256, .f32⟩ : BufTy).Contents (Elt Ideal))

/-- Term k of a column sum over the rows is the entry at row k of that column. -/
theorem norm2_sum_idx (q : Fin 256) (k : Fin 50000) : idx_main_v92 (ix1 q) k = ix2 k q :=
  funext fun a => Fin.ext (by match a with | ⟨0, _⟩ => rfl | ⟨1, _⟩ => rfl)
theorem norm2_sq_idx (q : Fin 256) (k : Fin 50000) : idx_main_v99 (ix1 q) k = ix2 k q :=
  funext fun a => Fin.ext (by match a with | ⟨0, _⟩ => rfl | ⟨1, _⟩ => rfl)
/-- A vector over the columns, laid as a row and repeated over the rows, read at (p, q), is the vector at q. -/
theorem norm2_row_a (p : Fin 50000) (q : Fin 256) : idx_main_v95 (idx_main_v96 (ix2 p q)) = ix1 q :=
  funext fun a => Fin.ext (by match a with | ⟨0, _⟩ => rfl)
theorem norm2_row_b (p : Fin 50000) (q : Fin 256) : idx_main_v102 (idx_main_v103 (ix2 p q)) = ix1 q :=
  funext fun a => Fin.ext (by match a with | ⟨0, _⟩ => rfl)
theorem norm2_row_c (p : Fin 50000) (q : Fin 256) : idx_main_v108 (idx_main_v109 (ix2 p q)) = ix1 q :=
  funext fun a => Fin.ext (by match a with | ⟨0, _⟩ => rfl)
theorem norm2_row_g (p : Fin 50000) (q : Fin 256) : idx_main_v111 (idx_main_v112 (ix2 p q)) = ix1 q :=
  funext fun a => Fin.ext (by match a with | ⟨0, _⟩ => rfl)
theorem norm2_row_s (p : Fin 50000) (q : Fin 256) : idx_main_v114 (idx_main_v115 (ix2 p q)) = ix1 q :=
  funext fun a => Fin.ext (by match a with | ⟨0, _⟩ => rfl)

/-- The column mean. -/
theorem mean2_apply (q : Fin 256) :
    val_main_v94 (F := Ideal) x0 x1 x2 x3 x4 x5 x6 x7 x8 x9 (ix1 q) = Spec.mu (val_main_v91 (F := Ideal) x0 x1 x2 x3 x4 x5 x6 x7 x8 x9) q := by
  rw [val_main_v94_apply, val_main_v92_apply, val_main_v93_apply, val_main_cst_18_apply, val_main_cst_19_apply]
  simp only [norm2_sum_idx, Ideal.hostDivf_def, Ideal.ofBits_def, Ideal.ofBits_zero_f32, zero_add]
  rfl

/-- The deviation from the column mean at (p, q). -/
theorem dev2_apply (p : Fin 50000) (q : Fin 256) :
    val_main_v97 (F := Ideal) x0 x1 x2 x3 x4 x5 x6 x7 x8 x9 (ix2 p q) = (val_main_v91 (F := Ideal) x0 x1 x2 x3 x4 x5 x6 x7 x8 x9) (ix2 p q) - Spec.mu (val_main_v91 (F := Ideal) x0 x1 x2 x3 x4 x5 x6 x7 x8 x9) q := by
  rw [val_main_v97_apply, val_main_v96_apply, val_main_v95_apply, norm2_row_a, mean2_apply]
  rfl

/-- The squared deviation at (p, q). -/
theorem sq2_apply (p : Fin 50000) (q : Fin 256) :
    val_main_v98 (F := Ideal) x0 x1 x2 x3 x4 x5 x6 x7 x8 x9 (ix2 p q)
      = ((val_main_v91 (F := Ideal) x0 x1 x2 x3 x4 x5 x6 x7 x8 x9) (ix2 p q) - Spec.mu (val_main_v91 (F := Ideal) x0 x1 x2 x3 x4 x5 x6 x7 x8 x9) q) * ((val_main_v91 (F := Ideal) x0 x1 x2 x3 x4 x5 x6 x7 x8 x9) (ix2 p q) - Spec.mu (val_main_v91 (F := Ideal) x0 x1 x2 x3 x4 x5 x6 x7 x8 x9) q) := by
  rw [val_main_v98_apply, dev2_apply]
  rfl

/-- The column variance, as the mean of the squared deviations. -/
theorem var2_apply (q : Fin 256) :
    val_main_v101 (F := Ideal) x0 x1 x2 x3 x4 x5 x6 x7 x8 x9 (ix1 q) = Spec.varDev (val_main_v91 (F := Ideal) x0 x1 x2 x3 x4 x5 x6 x7 x8 x9) q := by
  rw [val_main_v101_apply, val_main_v99_apply, val_main_v100_apply, val_main_cst_20_apply, val_main_cst_21_apply]
  simp only [norm2_sq_idx, sq2_apply, Ideal.hostDivf_def, Ideal.ofBits_def, Ideal.ofBits_zero_f32, zero_add]
  rfl

/-- The normalised, scaled, shifted and clipped stage at (p, q). -/
theorem norm2_apply (p : Fin 50000) (q : Fin 256) :
    val_main_v117 (F := Ideal) x0 x1 x2 x3 x4 x5 x6 x7 x8 x9 x10 x11 (ix2 p q)
      = Spec.bnrelu (val_main_v91 (F := Ideal) x0 x1 x2 x3 x4 x5 x6 x7 x8 x9) (Spec.mu (val_main_v91 (F := Ideal) x0 x1 x2 x3 x4 x5 x6 x7 x8 x9))
          (Spec.istd (Spec.varDev (val_main_v91 (F := Ideal) x0 x1 x2 x3 x4 x5 x6 x7 x8 x9))) x10 x11 (ix2 p q) := by
  rw [val_main_v117_apply, val_main_v116_apply, val_main_v113_apply, val_main_v110_apply, val_main_v104_apply,
    val_main_v115_apply, val_main_v114_apply, norm2_row_s, val_main_v112_apply, val_main_v111_apply, norm2_row_g,
    val_main_v109_apply, val_main_v108_apply, norm2_row_c, val_main_v107_apply, val_main_v106_apply, var2_apply,
    val_main_v105_apply, val_main_cst_22_apply, val_main_v103_apply, val_main_v102_apply, norm2_row_b, mean2_apply,
    val_main_call2_v0_apply, val_main_call2_cst_apply]
  rfl

/-- The normalisation stage is the specification's, of the linear stage before it. -/
theorem norm2_eq :
    val_main_v117 (F := Ideal) x0 x1 x2 x3 x4 x5 x6 x7 x8 x9 x10 x11
      = Spec.bnrelu (val_main_v91 (F := Ideal) x0 x1 x2 x3 x4 x5 x6 x7 x8 x9) (Spec.mu (val_main_v91 (F := Ideal) x0 x1 x2 x3 x4 x5 x6 x7 x8 x9))
          (Spec.istd (Spec.varDev (val_main_v91 (F := Ideal) x0 x1 x2 x3 x4 x5 x6 x7 x8 x9))) x10 x11 := by
  funext i
  obtain ⟨p, q, rfl⟩ : ∃ (p : Fin 50000) (q : Fin 256), i = ix2 p q := ⟨i 0, i 1, eq_ix2 i⟩
  exact norm2_apply x0 x1 x2 x3 x4 x5 x6 x7 x8 x9 x10 x11 p q

end Cert.RefSide

end
-- ==== Proof.RefSideHead.lean ====
/-
  The reference program's last linear map, read entry by entry.

  Entry (p, c) of the result is the sum over the 256 feature columns k of feature(p,k)·Wo(c,k), plus the bias bo(c):
  the program multiplies by the transposed weights, and a transposed matrix read at (k, c) is the matrix read at
  (c, k); the bias vector is laid as a row and repeated over the 50000 rows.
-/
import proofs.«138899_j10342281249011_1_alg».proof.Proof.Gen.ReferenceIdeal.Read
import proofs.«138899_j10342281249011_1_alg».proof.Proof.Spec

noncomputable section

namespace Cert.RefSide

open Idealize.ShloMosaic Idealize.ShloMosaic.ValueIdx
open Cert.ReferenceIdeal Cert.ReferenceIdeal.Gen Cert.ReferenceIdeal.Read

variable (x0 : (⟨S50000x4, .f32⟩ : BufTy).Contents (Elt Ideal)) (x1 : (⟨S2x800000, .i32⟩ : BufTy).Contents (Elt Ideal))
  (x2 : (⟨S256x4, .f32⟩ : BufTy).Contents (Elt Ideal)) (x3 : (⟨S256, .f32⟩ : BufTy).Contents (Elt Ideal))
  (x4 : (⟨S256x4, .f32⟩ : BufTy).Contents (Elt Ideal)) (x5 x6 : (⟨S256, .f32⟩ : BufTy).Contents (Elt Ideal))
  (x7 : (⟨S256x256, .f32⟩ : BufTy).Contents (Elt Ideal)) (x8 : (⟨S256, .f32⟩ : BufTy).Contents (Elt Ideal)) (x9 : (⟨S256x256, .f32⟩ : BufTy).Contents (Elt Ideal)) (x10 x11 : (⟨S256, .f32⟩ : BufTy).Contents (Elt Ideal))
  (x12 : (⟨S4x256, .f32⟩ : BufTy).Contents (Elt Ideal)) (x13 : (⟨S4, .f32⟩ : BufTy).Contents (Elt Ideal))

/-- Row p of the features, column k. -/
theorem head_row (p : Fin 50000) (c : Fin 4) (k : Fin 256) : lidx_main_v119 (ix2 p c) k = ix2 p k :=
  funext fun a => Fin.ext (by match a with | ⟨0, _⟩ => rfl | ⟨1, _⟩ => rfl)
/-- The transposed weights at (k, c) are the weights at (c, k). -/
theorem head_col (p : Fin 50000) (c : Fin 4) (k : Fin 256) : idx_main_v118 (ridx_main_v119 (ix2 p c) k) = ix2 c k :=
  funext fun a => Fin.ext (by match a with | ⟨0, _⟩ => rfl | ⟨1, _⟩ => rfl)
/-- The bias repeated over the rows, at (p, c), is the bias at c. -/
theorem head_bias (p : Fin 50000) (c : Fin 4) : idx_main_v120 (idx_main_v121 (ix2 p c)) = ix1 c :=
  funext fun a => Fin.ext (by match a with | ⟨0, _⟩ => rfl)

/-- The last linear map at (p, c). -/
theorem head_apply (p : Fin 50000) (c : Fin 4) :
    val_main_v122 (F := Ideal) x0 x1 x2 x3 x4 x5 x6 x7 x8 x9 x10 x11 x12 x13 (ix2 p c)
      = Spec.head (val_main_v117 (F := Ideal) x0 x1 x2 x3 x4 x5 x6 x7 x8 x9 x10 x11) x12 x13 (ix2 p c) := by
  rw [val_main_v122_apply, val_main_v119_apply, val_main_v121_apply, val_main_v120_apply]
  simp only [val_main_v118_apply, head_row, head_col, head_bias, Ideal.addf_def]
  rfl

/-- The last linear map is the specification's, of the second layer's features. -/
theorem head_eq :
    val_main_v122 (F := Ideal) x0 x1 x2 x3 x4 x5 x6 x7 x8 x9 x10 x11 x12 x13
      = Spec.head (val_main_v117 (F := Ideal) x0 x1 x2 x3 x4 x5 x6 x7 x8 x9 x10 x11) x12 x13 := by
  funext i
  obtain ⟨p, c, rfl⟩ : ∃ (p : Fin 50000) (c : Fin 4), i = ix2 p c := ⟨i 0, i 1, eq_ix2 i⟩
  exact head_apply x0 x1 x2 x3 x4 x5 x6 x7 x8 x9 x10 x11 x12 x13 p c

end Cert.RefSide

end
-- ==== Proof.RefSideAgg.lean ====
/-
  The reference program's host stages around its two layers are the same functions as the ones the layers are
  specified over: the scaled input, and the neighbourhood mean (gather the rows at the edges' sources, add them into
  the edges' targets from zero, divide each row by the in-degree clipped below at one) on 4 and on 256 columns.
  Both programs print the same operations with the same dimension records, so each equation holds by unfolding the
  names; no gather or scatter is opened.
-/
import proofs.«138899_j10342281249011_1_alg».proof.Proof.Gen.ReferenceIdeal.Read
import proofs.«138899_j10342281249011_1_alg».proof.Proof.Agg

noncomputable section

namespace Cert.RefSide

open Idealize.ShloMosaic Idealize.ShloMosaic.ValueIdx
open Cert.ReferenceIdeal Cert.ReferenceIdeal.Gen Cert.ReferenceIdeal.Read

variable (x0 : (⟨S50000x4, .f32⟩ : BufTy).Contents (Elt Ideal)) (x1 : (⟨S2x800000, .i32⟩ : BufTy).Contents (Elt Ideal))
  (x2 : (⟨S256x4, .f32⟩ : BufTy).Contents (Elt Ideal)) (x3 : (⟨S256, .f32⟩ : BufTy).Contents (Elt Ideal))
  (x4 : (⟨S256x4, .f32⟩ : BufTy).Contents (Elt Ideal)) (x5 x6 : (⟨S256, .f32⟩ : BufTy).Contents (Elt Ideal))

/-- The scaled input. -/
theorem scaled_eq : val_main_v11 (F := Ideal) x0 = Cert.Bridge.h0 x0 := rfl

/-- The edges' sources as one column. -/
theorem src1_eq : val_main_v17 (F := Ideal) x1 = Cert.Bridge.srcIdx x1 := rfl
theorem src2_eq : val_main_v70 (F := Ideal) x1 = Cert.Bridge.srcIdx x1 := rfl

/-- The edges' targets as one column. -/
theorem dst1_eq : val_main_v20 (F := Ideal) x1 = Cert.Bridge.dstIdx x1 := rfl
theorem dst1'_eq : val_main_v24 (F := Ideal) x1 = Cert.Bridge.dstIdx x1 := rfl
theorem dst2_eq : val_main_v73 (F := Ideal) x1 = Cert.Bridge.dstIdx x1 := rfl
theorem dst2'_eq : val_main_v77 (F := Ideal) x1 = Cert.Bridge.dstIdx x1 := rfl

/-- The in-degree clipped below at one, as one column. -/
theorem deg1_eq : val_main_v28 (F := Ideal) x1 = Cert.Bridge.deg x1 := by
  unfold val_main_v28 val_main_v27 val_main_v25 Cert.Bridge.deg
  rw [dst1'_eq]
  rfl
theorem deg2_eq : val_main_v81 (F := Ideal) x1 = Cert.Bridge.deg x1 := by
  unfold val_main_v81 val_main_v80 val_main_v78 Cert.Bridge.deg
  rw [dst2'_eq]
  rfl

/-- The first layer's aggregate is the neighbourhood mean of the scaled input. -/
theorem agg1_eq : val_main_v30 (F := Ideal) x0 x1 = Cert.Bridge.agg4 x1 (val_main_v11 (F := Ideal) x0) := by
  unfold val_main_v30 val_main_v29 val_main_v21 val_main_v18 Cert.Bridge.agg4
  rw [deg1_eq, dst1_eq, src1_eq]
  rfl

/-- The second layer's aggregate is the neighbourhood mean of the first layer's features. -/
theorem agg2_eq :
    val_main_v83 (F := Ideal) x0 x1 x2 x3 x4 x5 x6 = Cert.Bridge.agg256 x1 (val_main_v64 (F := Ideal) x0 x1 x2 x3 x4 x5 x6) := by
  unfold val_main_v83 val_main_v82 val_main_v74 val_main_v71 Cert.Bridge.agg256
  rw [deg2_eq, dst2_eq, src2_eq]
  rfl

end Cert.RefSide

end
-- ==== Proof.RefSide.lean ====
/-
  The reference program's result is the specification with the variance as the mean of squared deviations.

  The program is, in order: the scaled input; the neighbourhood mean of it; the first linear stage of the two; the
  first normalisation stage (column means, column variances as means of squared deviations, scale, shift, clip at
  zero); the neighbourhood mean of the first layer's features; the second linear and normalisation stages; the
  last linear map. Each stage is the specification's function of the stage before it, so the whole is the
  specification's network.
-/
import proofs.«138899_j10342281249011_1_alg».proof.Proof.RefSideLin1
import proofs.«138899_j10342281249011_1_alg».proof.Proof.RefSideNorm1
import proofs.«138899_j10342281249011_1_alg».proof.Proof.RefSideLin2
import proofs.«138899_j10342281249011_1_alg».proof.Proof.RefSideNorm2
import proofs.«138899_j10342281249011_1_alg».proof.Proof.RefSideHead
import proofs.«138899_j10342281249011_1_alg».proof.Proof.RefSideAgg

noncomputable section

namespace Cert.RefSide

open Idealize.ShloMosaic Idealize.ShloMosaic.ValueIdx
open Cert.ReferenceIdeal Cert.ReferenceIdeal.Gen Cert.ReferenceIdeal.Read
open Idealize.ShloMosaic.TcCoe Idealize.SL.Sem

variable (x0 : (⟨S50000x4, .f32⟩ : BufTy).Contents (Elt Ideal)) (x1 : (⟨S2x800000, .i32⟩ : BufTy).Contents (Elt Ideal))
  (x2 : (⟨S256x4, .f32⟩ : BufTy).Contents (Elt Ideal)) (x3 : (⟨S256, .f32⟩ : BufTy).Contents (Elt Ideal))
  (x4 : (⟨S256x4, .f32⟩ : BufTy).Contents (Elt Ideal)) (x5 x6 : (⟨S256, .f32⟩ : BufTy).Contents (Elt Ideal))
  (x7 : (⟨S256x256, .f32⟩ : BufTy).Contents (Elt Ideal)) (x8 : (⟨S256, .f32⟩ : BufTy).Contents (Elt Ideal)) (x9 : (⟨S256x256, .f32⟩ : BufTy).Contents (Elt Ideal)) (x10 x11 : (⟨S256, .f32⟩ : BufTy).Contents (Elt Ideal))
  (x12 : (⟨S4x256, .f32⟩ : BufTy).Contents (Elt Ideal)) (x13 : (⟨S4, .f32⟩ : BufTy).Contents (Elt Ideal))

/-- The first layer's features. -/
theorem layer1_eq :
    val_main_v64 (F := Ideal) x0 x1 x2 x3 x4 x5 x6
      = Spec.layer Spec.varDev (Cert.Bridge.agg4 x1 (Cert.Bridge.h0 x0)) (Cert.Bridge.h0 x0) x2 x4 x3 x5 x6 := by
  rw [norm1_eq, lin1_eq, agg1_eq, scaled_eq]
  rfl

/-- The second layer's features, from the first layer's. -/
theorem layer2_eq :
    val_main_v117 (F := Ideal) x0 x1 x2 x3 x4 x5 x6 x7 x8 x9 x10 x11
      = Spec.layer Spec.varDev (Cert.Bridge.agg256 x1 (val_main_v64 (F := Ideal) x0 x1 x2 x3 x4 x5 x6))
          (val_main_v64 (F := Ideal) x0 x1 x2 x3 x4 x5 x6) x7 x9 x8 x10 x11 := by
  rw [norm2_eq, lin2_eq, agg2_eq]
  rfl

/-- The reference program's result as a function of its fourteen argument arrays. -/
theorem result_eq :
    val_main_v122 (F := Ideal) x0 x1 x2 x3 x4 x5 x6 x7 x8 x9 x10 x11 x12 x13
      = Spec.out Spec.varDev (Cert.Bridge.agg4 x1) (Cert.Bridge.agg256 x1) (Cert.Bridge.h0 x0)
          x2 x4 x3 x5 x6 x7 x9 x8 x10 x11 x12 x13 := by
  rw [head_eq, layer2_eq, layer1_eq]
  rfl

/-- The same, for the term the program's run names: from any memory `m`, on device `c`. -/
theorem run_result_eq (m : (ℓ : Loc nD τ sig) → Buf (Elt Ideal) ℓ) (c : Dev nD) :
    Cert.ReferenceIdeal.Value.res_main_v122 (F := Ideal) m c
      = Spec.out Spec.varDev (Cert.Bridge.agg4 (m ((c.tc : Thread nD τ).loc main_arg1)))
          (Cert.Bridge.agg256 (m ((c.tc : Thread nD τ).loc main_arg1))) (Cert.Bridge.h0 (m ((c.tc : Thread nD τ).loc main_arg0)))
          (m ((c.tc : Thread nD τ).loc main_arg2)) (m ((c.tc : Thread nD τ).loc main_arg4)) (m ((c.tc : Thread nD τ).loc main_arg3))
          (m ((c.tc : Thread nD τ).loc main_arg5)) (m ((c.tc : Thread nD τ).loc main_arg6))
          (m ((c.tc : Thread nD τ).loc main_arg7)) (m ((c.tc : Thread nD τ).loc main_arg9)) (m ((c.tc : Thread nD τ).loc main_arg8))
          (m ((c.tc : Thread nD τ).loc main_arg10)) (m ((c.tc : Thread nD τ).loc main_arg11))
          (m ((c.tc : Thread nD τ).loc main_arg12)) (m ((c.tc : Thread nD τ).loc main_arg13)) :=
  (val_main_v122_eq m c).trans (result_eq _ _ _ _ _ _ _ _ _ _ _ _ _ _)

end Cert.RefSide

end
-- ==== Proof.Algebra.lean ====
/-
  The algebra that joins the two programs, over the specification's pure functions of extended-real arrays.

  The two programs differ in one place: the variance of a column is taken as the mean of the squared deviations
  from the column's mean (`Spec.varDev`) or as the mean of the squares minus the square of the mean
  (`Spec.varMom`). On the extended reals these need not agree (an infinite entry makes one side ⊥ where the other
  is ⊤), but they do agree when every entry of the column is a real number: then every intermediate value is the
  coercion of a real expression, and over ℝ the identity is
      (Σ (x p − μ)²)/n = (Σ x p²)/n − μ²,   μ = (Σ x p)/n,  n = 50000 ≠ 0.
  So this module (1) evaluates the three float words the specification names (50000, the positive stabiliser,
  zero), (2) shows that "every entry is a real" is preserved by each stage of a layer (finite sums and products of
  reals are reals; division by the real 50000 is real division; the variance by deviations is a nonnegative real,
  so adding the positive stabiliser gives a positive real, whose reciprocal square root is a real), (3) proves the
  law `varMom_eq_varDev`, and (4) carries it through the two layers: `out_varMom_eq_varDev`.
-/
import proofs.«138899_j10342281249011_1_alg».proof.Proof.Spec
import Idealize.ShloMosaic.PureOps.Ideal.Laws

noncomputable section

namespace Cert.Algebra

open Idealize.ShloMosaic Idealize.ShloMosaic.ValueIdx Cert

theorem zeroF_eq : Spec.zeroF = 0 := by
  unfold Spec.zeroF; exact Ideal.ofBits_zero_f32

/-- The word 0x47435000 is (2^23 + 4411392) · 2^(142 − 127 − 23) = 12800000 / 256 = 50000. -/
theorem nF_eq : Spec.nF = ((50000 : ℝ) : EReal) := by
  have h : Spec.nF = ((12800000 * (2 ^ 8)⁻¹ : ℝ) : EReal) := by
    unfold Spec.nF
    simp [Ideal.ofBits, Ideal.ieee]
  rw [h]; norm_num

/-- The word 0x3727C5AC is (2^23 + 2606508) · 2^(110 − 127 − 23) = 10995116 / 2^40, about 1e-5. -/
theorem epsF_val : Spec.epsF = ((10995116 * (2 ^ 40)⁻¹ : ℝ) : EReal) := by
  unfold Spec.epsF
  simp [Ideal.ofBits, Ideal.ieee]

theorem epsF_eq : ∃ e : ℝ, 0 < e ∧ Spec.epsF = (e : EReal) :=
  ⟨10995116 * (2 ^ 40)⁻¹, by positivity, epsF_val⟩

/-- An extended real that is a real number. -/
def IsR (x : EReal) : Prop := ∃ r : ℝ, x = (r : EReal)

theorem IsR.add {x y : EReal} (hx : IsR x) (hy : IsR y) : IsR (x + y) := by
  obtain ⟨a, rfl⟩ := hx; obtain ⟨b, rfl⟩ := hy; exact ⟨a + b, (EReal.coe_add a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.max {x y : EReal} (hx : IsR x) (hy : IsR y) : IsR (max x y) := by
  rcases max_choice x y with h | h <;> rw [h] <;> assumption

theorem IsR.sum {ι : Type*} (s : Finset ι) (f : ι → EReal) (h : ∀ i, IsR (f i)) : IsR (∑ i ∈ s, f i) :=
  Finset.sum_induction f IsR (fun _ _ => IsR.add) ⟨0, EReal.coe_zero.symm⟩ (fun i _ => h i)

/-- A finite sum of reals, read in the extended reals, is the real sum. -/
theorem sum_coe {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Division by the row count is real division by 50000. -/
theorem div_nF_coe (r : ℝ) : Ideal.div (r : EReal) Spec.nF = ((r * (1 / 50000) : ℝ) : EReal) := by
  rw [nF_eq, Ideal.div_coe (by norm_num), ← EReal.coe_mul]

/-- The reciprocal square root of a positive real is a real. -/
theorem rsqrt_pos {r : ℝ} (h : 0 < r) : Ideal.rsqrt (r : EReal) = (((Real.sqrt r)⁻¹ : ℝ) : EReal) := by
  rw [Ideal.rsqrt_coe, if_neg (not_lt.mpr h.le), if_neg h.ne']

/-- Every entry of the matrix is a real number. -/
def Fin2 {a b : Nat} (x : Spec.Mat a b) : Prop := ∀ j, ∃ r : ℝ, x j = (r : EReal)
/-- Every entry of the vector is a real number. -/
def Fin1 {a : Nat} (x : Spec.Vc a) : Prop := ∀ j, ∃ r : ℝ, x j = (r : EReal)

theorem fin2_lin {K : Nat} {m s : Spec.Mat 50000 K} {Wl Wr : Spec.Mat 256 K} {bl : Spec.Vc 256}
    (hm : Fin2 m) (hs : Fin2 s) (hWl : Fin2 Wl) (hWr : Fin2 Wr) (hbl : Fin1 bl) : Fin2 (Spec.lin m s Wl Wr bl) := by
  intro j
  show IsR ((∑ k : Fin K, m (ix2 (j 0) k) * Wl (ix2 (j 1) k)) + bl (ix1 (j 1))
    + (∑ k : Fin K, s (ix2 (j 0) k) * Wr (ix2 (j 1) k)))
  exact IsR.add (IsR.add (IsR.sum _ _ fun k => IsR.mul (hm _) (hWl _)) (hbl _)) (IsR.sum _ _ fun k => IsR.mul (hs _) (hWr _))

theorem isR_mu {a : Spec.Mat 50000 256} (ha : Fin2 a) (q : Fin 256) : IsR (Spec.mu a q) := by
  obtain ⟨S, hS⟩ := IsR.sum Finset.univ (fun p : Fin 50000 => a (ix2 p q)) (fun p => ha _)
  unfold Spec.mu Spec.colSum
  rw [hS, div_nF_coe]; exact ⟨_, rfl⟩

/-- The variance as the mean of squared deviations of a finite column is a nonnegative real. -/
theorem varDev_real {a : Spec.Mat 50000 256} (ha : Fin2 a) (q : Fin 256) :
    ∃ r : ℝ, 0 ≤ r ∧ Spec.varDev a q = (r : EReal) := by
  obtain ⟨μ, hμ⟩ := isR_mu ha q
  choose x hx using fun p : Fin 50000 => ha (ix2 p q)
  unfold Spec.varDev
  rw [hμ]
  simp only [hx, ← EReal.coe_sub, ← EReal.coe_mul, sum_coe, div_nF_coe]
  exact ⟨_, mul_nonneg (Finset.sum_nonneg fun p _ => mul_self_nonneg _) (by norm_num), rfl⟩

theorem isR_istd {v : Fin 256 → EReal} (hv : ∀ q, ∃ r : ℝ, 0 ≤ r ∧ v q = (r : EReal)) (q : Fin 256) :
    IsR (Spec.istd v q) := by
  obtain ⟨r, hr, h⟩ := hv q
  obtain ⟨e, he, hE⟩ := epsF_eq
  unfold Spec.istd
  rw [h, hE, ← EReal.coe_add, rsqrt_pos (add_pos_of_nonneg_of_pos hr he)]; exact ⟨_, rfl⟩

theorem fin2_bnrelu {a : Spec.Mat 50000 256} {mn sd : Fin 256 → EReal} {g b : Spec.Vc 256}
    (ha : Fin2 a) (hmn : ∀ q, IsR (mn q)) (hsd : ∀ q, IsR (sd q)) (hg : Fin1 g) (hb : Fin1 b) :
    Fin2 (Spec.bnrelu a mn sd g b) := by
  intro j
  show IsR (max ((a (ix2 (j 0) (j 1)) - mn (j 1)) * sd (j 1) * g (ix1 (j 1)) + b (ix1 (j 1))) Spec.zeroF)
  exact IsR.max (IsR.add (IsR.mul (IsR.mul (IsR.sub (ha _) (hmn _)) (hsd _)) (hg _)) (hb _)) ⟨0, zeroF_eq⟩

theorem fin2_layer_varDev {K : Nat} {ag h : Spec.Mat 50000 K} {Wl Wr : Spec.Mat 256 K} {bl g b : Spec.Vc 256}
    (hlin : Fin2 (Spec.lin ag h Wl Wr bl)) (hg : Fin1 g) (hb : Fin1 b) :
    Fin2 (Spec.layer Spec.varDev ag h Wl Wr bl g b) :=
  fin2_bnrelu hlin (isR_mu hlin) (isR_istd (varDev_real hlin)) hg hb

/-- Over the reals: with μ the mean of n numbers, the mean of the squares minus μ² is the mean of the
    squared deviations from μ, since Σ (x − μ)² = Σ x² − 2 μ Σ x + n μ² and Σ x = n μ. -/
theorem real_var_law {ι : Type*} [Fintype ι] (x : ι → ℝ) (n : ℝ) (hn : (Fintype.card ι : ℝ) = n) (hn0 : n ≠ 0) :
    (∑ p, x p * x p) * (1 / n) - ((∑ p, x p) * (1 / n)) * ((∑ p, x p) * (1 / n))
      = (∑ p, (x p - (∑ p, x p) * (1 / n)) * (x p - (∑ p, x p) * (1 / n))) * (1 / n) := by
  generalize hS : (∑ p, x p) = S
  generalize hμ : S * (1 / n) = μ
  have h1 : ∑ p, (x p - μ) * (x p - μ) = (∑ p, x p * x p) - 2 * μ * S + n * (μ * μ) := by
    have e : ∀ p, (x p - μ) * (x p - μ) = x p * x p - 2 * μ * x p + μ * μ := fun p => by ring
    simp only [e]
    rw [Finset.sum_add_distrib, Finset.sum_sub_distrib, ← Finset.mul_sum, hS, Finset.sum_const, Finset.card_univ,
      nsmul_eq_mul, hn]
  rw [h1, ← hμ]
  field_simp
  ring

/-- The one law: on a finite matrix the two ways of computing a column's variance agree. -/
theorem varMom_eq_varDev (a : Spec.Mat 50000 256) (ha : Fin2 a) : Spec.varMom a = Spec.varDev a := by
  funext q
  choose x hx using fun p : Fin 50000 => ha (ix2 p q)
  have hmu : Spec.mu a q = (((∑ p, x p) * (1 / 50000) : ℝ) : EReal) := by
    unfold Spec.mu Spec.colSum
    simp only [hx]
    rw [sum_coe, div_nF_coe]
  unfold Spec.varMom Spec.varDev
  rw [hmu]
  simp only [hx, ← EReal.coe_sub, ← EReal.coe_mul, sum_coe, div_nF_coe]
  exact congrArg _ (real_var_law x 50000 (by simp) (by norm_num))

theorem layer_varMom_eq_varDev {K : Nat} (ag h : Spec.Mat 50000 K) (Wl Wr : Spec.Mat 256 K) (bl g b : Spec.Vc 256)
    (hlin : Fin2 (Spec.lin ag h Wl Wr bl)) :
    Spec.layer Spec.varMom ag h Wl Wr bl g b = Spec.layer Spec.varDev ag h Wl Wr bl g b := by
  unfold Spec.layer
  rw [varMom_eq_varDev _ hlin]

/-- The network with the variance as mean of squares minus squared mean is the network with the variance as mean
    of squared deviations, when the input, the aggregates and the first layer's parameters are finite: layer 1's
    linear part is finite, so its two variances agree and layer 1's output is one finite array; hence layer 2's
    linear part is finite and its two variances agree. -/
theorem out_varMom_eq_varDev (agg4 : Spec.Mat 50000 4 → Spec.Mat 50000 4) (agg256 : Spec.Mat 50000 256 → Spec.Mat 50000 256)
    (hagg4 : ∀ h, Fin2 h → Fin2 (agg4 h)) (hagg256 : ∀ h, Fin2 h → Fin2 (agg256 h))
    (h0 : Spec.Mat 50000 4) (hh0 : Fin2 h0) (W1l W1r : Spec.Mat 256 4) (hW1l : Fin2 W1l) (hW1r : Fin2 W1r)
    (b1l g1 be1 : Spec.Vc 256) (hb1l : Fin1 b1l) (hg1 : Fin1 g1) (hbe1 : Fin1 be1)
    (W2l W2r : Spec.Mat 256 256) (hW2l : Fin2 W2l) (hW2r : Fin2 W2r) (b2l : Spec.Vc 256) (hb2l : Fin1 b2l)
    (g2 be2 : Spec.Vc 256) (Wo : Spec.Mat 4 256) (bo : Spec.Vc 4) :
    Spec.out Spec.varMom agg4 agg256 h0 W1l W1r b1l g1 be1 W2l W2r b2l g2 be2 Wo bo
      = Spec.out Spec.varDev agg4 agg256 h0 W1l W1r b1l g1 be1 W2l W2r b2l g2 be2 Wo bo := by
  have hL1 : Fin2 (Spec.lin (agg4 h0) h0 W1l W1r b1l) := fin2_lin (hagg4 h0 hh0) hh0 hW1l hW1r hb1l
  have e1 := layer_varMom_eq_varDev (agg4 h0) h0 W1l W1r b1l g1 be1 hL1
  have hF1 : Fin2 (Spec.layer Spec.varDev (agg4 h0) h0 W1l W1r b1l g1 be1) := fin2_layer_varDev hL1 hg1 hbe1
  have hL2 := fin2_lin (hagg256 _ hF1) hF1 hW2l hW2r hb2l
  unfold Spec.out
  rw [e1, layer_varMom_eq_varDev _ _ W2l W2r b2l g2 be2 hL2]

end Cert.Algebra

end
-- ==== Proof.PreFinite.lean ====
/-
  From the precondition to finiteness. The precondition is the printed predicate "every float argument array has
  all its entries of absolute value strictly below +∞", a chain of `and`s of one all-reduction per array, required
  to be true. Read at the ideal instance, where a float is an extended real and the absolute value of x is
  max(x, −x): the chain being 1 makes each all-reduction 1, an all-reduction by `and` that is 1 has a 1 at every
  index, and max(x, −x) < +∞ fails at x = ⊤ and at x = ⊥ (where −x = ⊤), so x is the coercion of a real number.
  The result is stated in the form the algebra of the two variances takes its hypotheses in.
-/
import proofs.«138899_j10342281249011_1_alg».proof.Defs
import proofs.«138899_j10342281249011_1_alg».proof.Proof.Algebra
import Idealize.ShloMosaic.Lib.ReduceAll
import Idealize.ShloMosaic.Lib.IdealHost

noncomputable section

namespace Cert.PreFinite

open Idealize.ShloMosaic Idealize.ShloMosaic.ValueIdx Cert Cert.Algebra

/-- The float word 0x7F800000 is +∞. -/
theorem inf_word : Ideal.ofBits .f32 0x7F800000#32 = ⊤ := by simp [Ideal.ofBits, Ideal.ieee]

/-- An extended real whose absolute value max(x, −x) is strictly below +∞ is a real number. -/
theorem real_of_abs_lt_inf (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | top => simp [Ideal.cmp] at h
  | coe r => exact ⟨r, rfl⟩

instance : Subsingleton (⟨0, ![]⟩ : Shape).Idx := ⟨fun a b => funext fun d => d.elim0⟩

/-- One conjunct of the precondition: "all |x| < +∞" being true gives that every entry of `x` is a real. -/
theorem finite_of_all {S : Shape} {axes : List (Fin S.rank)}
    (hb : (⟨0, ![]⟩ : Shape).BroadcastsInDim S ![]) (hr : S.ReducesTo axes ⟨0, ![]⟩) (hu : 0 < (⟨0, ![]⟩ : Shape).numel)
    (x : FVec Ideal S .f32)
    (e : Host.reduce IntOp.andi
        (cmpf .olt (Host.absf x) (broadcastInDim S ![] hb (constant (F := Ideal) ⟨0, ![]⟩ .f32 0x7F800000#32)))
        (constantI ⟨0, ![]⟩ 1 1#1) hr hu ix0 = 1#1) :
    ∀ j, ∃ r : ℝ, x j = (r : EReal) := by
  intro j
  have h := Host.reduce_andi_all _ _ hr hu ix0 e j
  rw [cmpf_apply, broadcastInDim_scalar_apply] at h
  exact real_of_abs_lt_inf (x j) h

open Cert.Pre_finite_inputs in
/-- The printed precondition, true at the ideal instance, says that every float argument array is finite: the
    predicate is a conjunction (a chain of `and`s) of one "all |x| < +∞" per float array. -/
theorem finite_of_fn [Cert.Pre_finite_inputs.Facts]
    (a0 : FVec Ideal S50000x4 .f32) (a1 : IVec S2x800000 32) (a2 : FVec Ideal S256x4 .f32) (a3 : FVec Ideal S256 .f32)
    (a4 : FVec Ideal S256x4 .f32) (a5 a6 : FVec Ideal S256 .f32) (a7 : FVec Ideal S256x256 .f32) (a8 : FVec Ideal S256 .f32)
    (a9 : FVec Ideal S256x256 .f32) (a10 a11 : FVec Ideal S256 .f32) (a12 : FVec Ideal S4x256 .f32) (a13 : FVec Ideal S4 .f32)
    (h : Cert.Pre_finite_inputs.fn (F := Ideal) a0 a1 a2 a3 a4 a5 a6 a7 a8 a9 a10 a11 a12 a13 = fun _ => 1#1) :
    Fin2 (a := 50000) (b := 4) a0 ∧ Fin2 (a := 256) (b := 4) a2 ∧ Fin1 (a := 256) a3 ∧ Fin2 (a := 256) (b := 4) a4
      ∧ Fin1 (a := 256) a5 ∧ Fin1 (a := 256) a6 ∧ Fin2 (a := 256) (b := 256) a7 ∧ Fin1 (a := 256) a8
      ∧ Fin2 (a := 256) (b := 256) a9 ∧ Fin1 (a := 256) a10 ∧ Fin1 (a := 256) a11 := by
  have h0 := congrFun h ix0
  dsimp only [Cert.Pre_finite_inputs.fn, fn_part1, fn_part2, fn_part3] at h0
  obtain ⟨h0, -⟩ := IntOp.andi_eq_one.1 h0
  obtain ⟨h0, -⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨finite_of_all _ _ _ a0 e0, finite_of_all _ _ _ a2 e2, finite_of_all _ _ _ a3 e3, finite_of_all _ _ _ a4 e4,
    finite_of_all _ _ _ a5 e5, finite_of_all _ _ _ a6 e6, finite_of_all _ _ _ a7 e7, finite_of_all _ _ _ a8 e8,
    finite_of_all _ _ _ a9 e9, finite_of_all _ _ _ a10 e10, finite_of_all _ _ _ a11 e11⟩

open Idealize.SL.Sem in
/-- Under the kernel's precondition at the ideal instance, on every device, each float argument array the
    network's finiteness law needs (the features, and the parameters of both layers) is finite. -/
theorem pre_finite [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Fin2 (a := 50000) (b := 4) (m ((c.tc : Thread Cert.KernelIdeal.nD Cert.KernelIdeal.τ).loc Cert.KernelIdeal.main_arg0))
      ∧ Fin2 (a := 256) (b := 4) (m ((c.tc : Thread Cert.KernelIdeal.nD Cert.KernelIdeal.τ).loc Cert.KernelIdeal.main_arg2))
      ∧ Fin1 (a := 256) (m ((c.tc : Thread Cert.KernelIdeal.nD Cert.KernelIdeal.τ).loc Cert.KernelIdeal.main_arg3))
      ∧ Fin2 (a := 256) (b := 4) (m ((c.tc : Thread Cert.KernelIdeal.nD Cert.KernelIdeal.τ).loc Cert.KernelIdeal.main_arg4))
      ∧ Fin1 (a := 256) (m ((c.tc : Thread Cert.KernelIdeal.nD Cert.KernelIdeal.τ).loc Cert.KernelIdeal.main_arg5))
      ∧ Fin1 (a := 256) (m ((c.tc : Thread Cert.KernelIdeal.nD Cert.KernelIdeal.τ).loc Cert.KernelIdeal.main_arg6))
      ∧ Fin2 (a := 256) (b := 256) (m ((c.tc : Thread Cert.KernelIdeal.nD Cert.KernelIdeal.τ).loc Cert.KernelIdeal.main_arg7))
      ∧ Fin1 (a := 256) (m ((c.tc : Thread Cert.KernelIdeal.nD Cert.KernelIdeal.τ).loc Cert.KernelIdeal.main_arg8))
      ∧ Fin2 (a := 256) (b := 256) (m ((c.tc : Thread Cert.KernelIdeal.nD Cert.KernelIdeal.τ).loc Cert.KernelIdeal.main_arg9))
      ∧ Fin1 (a := 256) (m ((c.tc : Thread Cert.KernelIdeal.nD Cert.KernelIdeal.τ).loc Cert.KernelIdeal.main_arg10))
      ∧ Fin1 (a := 256) (m ((c.tc : Thread Cert.KernelIdeal.nD Cert.KernelIdeal.τ).loc Cert.KernelIdeal.main_arg11)) :=
  finite_of_fn _ _ _ _ _ _ _ _ _ _ _ _ _ _ (h c)

end Cert.PreFinite

end
-- ==== Proof.LibRowGather.lean ====
/-
  A gather of whole rows of a matrix, read by coordinates, for any extents.

  An `[n, c]` matrix is gathered at `e` start indices laid out as a column `[e, 1]`: every start index names a row,
  the whole row (a `1 × c` slice) is taken, and the result is the `[e, c]` matrix of the taken rows. In gather's
  dimension numbers: the result's axis 1 is the offset axis, the operand's axis 0 is collapsed and is the one axis the
  start index addresses, there are no batching axes, the index vector lies along axis 1 of the start indices, and the
  slice sizes are `[1, c]`. For ANY extents `n`, `e`, `c` (with `n` positive) and any index width, entry `(p, q)` of
  the result is entry `(r, q)` of the operand, where `r` is start index `p` read as a signed integer and clamped into
  `[0, n − 1]` (`rowAt`, `gather_row_apply`). A program's printed gather record with these lists is `rowDims n e c _`
  by `rfl`.
-/
import Idealize.ShloMosaic.PureOps.ShapeOps
import Idealize.ShloMosaic.PureOps.Dims
import Idealize.ShloMosaic.Lib.ValueIdx

namespace Cert.RowGather

open Idealize.ShloMosaic Idealize.ShloMosaic.ValueIdx

variable {α : Type}

/-- The dimension numbers of a gather of whole rows: operand `[n, c]`, start indices `[e, 1]`, result `[e, c]`.
    Their side conditions `wf` are decided on a program's literal extents. -/
abbrev rowDims (n e c : Nat)
    (wf : GatherDims.WF ⟨2, ![n, c]⟩ ⟨2, ![e, 1]⟩ ⟨2, ![e, c]⟩ [1] [0] [] [0] [] 1 ![1, c]) :
    GatherDims ⟨2, ![n, c]⟩ ⟨2, ![e, 1]⟩ ⟨2, ![e, c]⟩ where
  offsetDims := [1]
  collapsedSliceDims := [0]
  operandBatchingDims := []
  startIndicesBatchingDims := []
  startIndexMap := [0]
  indexVectorDim := 1
  sliceSizes := ![1, c]
  wf := wf

/-- The row that start index `p` names: the index read as a signed integer, clamped into `[0, n − 1]`. -/
def rowAt {n e w : Nat} (hn : 0 < n) (idx : IVec ⟨2, ![e, 1]⟩ w) (p : Fin e) : Fin n :=
  ⟨min (idx (ix2 p 0)).toInt.toNat (n - 1), by omega⟩

/-- THE ROW GATHER READ AT `(p, q)`: the operand's entry in column `q` of the row that start index `p` names. -/
theorem gather_row_apply {n e c w : Nat} (hn : 0 < n)
    (wf : GatherDims.WF ⟨2, ![n, c]⟩ ⟨2, ![e, 1]⟩ ⟨2, ![e, c]⟩ [1] [0] [] [0] [] 1 ![1, c])
    (x : (⟨2, ![n, c]⟩ : Shape).Idx → α) (idx : IVec ⟨2, ![e, 1]⟩ w) (p : Fin e) (q : Fin c) :
    Host.gather (rowDims n e c wf) x idx (ix2 p q) = x (ix2 (rowAt hn idx p) q) := by
  unfold Host.gather
  congr 1
  funext a
  refine Fin.ext ?_
  match a with
  | ⟨0, _⟩ =>
    show (rowDims n e c wf).start (ix2 p q) idx 0 + (rowDims n e c wf).batchCoord (ix2 p q) 0
      + (rowDims n e c wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims n e c wf).startIndexMap from List.mem_singleton.mpr rfl)]
    have hsi : (rowDims n e c wf).siIdx (ix2 p q) ⟨List.idxOf (0 : Fin 2) (rowDims n e c wf).startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    rfl
  | ⟨1, _⟩ =>
    show (rowDims n e c wf).start (ix2 p q) idx 1 + (rowDims n e c wf).batchCoord (ix2 p q) 1
      + (rowDims n e c wf).offCoord (ix2 p q) 1 = q.val
    have hk : (1 : Fin 2) ∈ (rowDims n e c wf).sKept :=
      (GatherDims.mem_sKept _ _).mpr ⟨fun h => absurd (List.mem_singleton.mp h) (show ¬ (1 : Fin 2) = 0 by decide), List.not_mem_nil⟩
    rw [GatherDims.batchCoord_eq_zero _ _ _ List.not_mem_nil]
    unfold GatherDims.start
    rw [dif_neg (show (1 : Fin 2) ∉ (rowDims n e c wf).startIndexMap from
      fun h => absurd (List.mem_singleton.mp h) (show ¬ (1 : Fin 2) = 0 by decide))]
    unfold GatherDims.offCoord
    rw [dif_pos hk]
    simp only [Nat.add_zero, Nat.zero_add]
    rfl

end Cert.RowGather
-- ==== Proof.LibRowScatter.lean ====
/-
  An accumulating scatter of whole rows, read at one entry.

  The operand is an n×c matrix, the updates an e×c matrix, and the scatter indices an e×1 column of integers: update
  row r is added into operand row t(r), where t(r) is entry (r, 0) of the indices read as a SIGNED integer and NOT
  clamped; a row whose target is outside [0, n) is dropped. On the extended reals the accumulated result at entry
  (s, q) is therefore the operand's entry plus the sum, over the update rows r whose target is s, of update entry
  (r, q) — written below as a sum over all r of an `if`. Stated for the dimension record `rowDims n e c`
  (update window axis [1], inserted window axis [0], scatter axis to operand axis [0], index vector axis 1), for any
  extents and any integer width; a printed record with those four lists is this record (they differ in a proof field).
-/
import Idealize.ShloMosaic.Lib.ValueIdx
import Idealize.ShloMosaic.PureOps.Ideal.Laws

noncomputable section

open scoped BigOperators

namespace Cert.LibRowScatter

open Idealize.ShloMosaic Idealize.ShloMosaic.ValueIdx

/-- Scatter the rows of an e×c matrix into an n×c matrix at e row numbers laid as a column e×1. -/
def rowDims (n e c : Nat) (wf : ScatterDims.WF ⟨2, ![n, c]⟩ ⟨2, ![e, 1]⟩ ⟨2, ![e, c]⟩ [1] [0] [0] 1) :
    ScatterDims ⟨2, ![n, c]⟩ ⟨2, ![e, 1]⟩ ⟨2, ![e, c]⟩ where
  updateWindowDims := [1]
  insertedWindowDims := [0]
  scatterDimsToOperandDims := [0]
  indexVectorDim := 1
  wf := wf

variable {n e c w : ℕ} (wf : ScatterDims.WF ⟨2, ![n, c]⟩ ⟨2, ![e, 1]⟩ ⟨2, ![e, c]⟩ [1] [0] [0] 1)

/-- On the row axis the window of update entry (r, q) starts at the r-th scatter index, read signed. -/
theorem start_zero (r : Fin e) (q : Fin c) (idx : IVec ⟨2, ![e, 1]⟩ w) :
    (rowDims n e c wf).start (ix2 r q) idx 0 = (idx (ix2 r 0)).toInt := by
  unfold ScatterDims.start
  rw [dif_pos (show (0 : Fin 2) ∈ (rowDims n e c wf).scatterDimsToOperandDims from List.mem_singleton.mpr rfl)]
  refine congrArg (fun k => (idx k).toInt) ?_
  funext b
  match b with
  | ⟨0, _⟩ => rfl
  | ⟨1, _⟩ => rfl

/-- On the column axis the window starts at 0: no scatter index names that axis. -/
theorem start_one (r : Fin e) (q : Fin c) (idx : IVec ⟨2, ![e, 1]⟩ w) :
    (rowDims n e c wf).start (ix2 r q) idx 1 = 0 := by
  unfold ScatterDims.start
  rw [dif_neg (show ¬ (1 : Fin 2) ∈ (rowDims n e c wf).scatterDimsToOperandDims from by
    intro h; exact absurd (congrArg Fin.val (List.mem_singleton.mp h)) (by decide : ¬ (1 : ℕ) = 0))]

/-- The row axis is an inserted axis: the window has no extent along it. -/
theorem window_zero (r : Fin e) (q : Fin c) : (rowDims n e c wf).window (ix2 r q) 0 = 0 := by
  unfold ScatterDims.window
  rw [dif_neg (show ¬ (0 : Fin 2) ∈ (rowDims n e c wf).sKept from by
    show ¬ (0 : Fin 2) ∈ (List.finRange 2).filter (fun a => a ∉ [(0 : Fin 2)])
    decide)]

/-- Along the column axis the window coordinate of update entry (r, q) is q. -/
theorem window_one (r : Fin e) (q : Fin c) : (rowDims n e c wf).window (ix2 r q) 1 = q.val := by
  unfold ScatterDims.window
  rw [dif_pos (show (1 : Fin 2) ∈ (rowDims n e c wf).sKept from by
    show (1 : Fin 2) ∈ (List.finRange 2).filter (fun a => a ∉ [(0 : Fin 2)])
    decide)]
  rfl

/-- Update entry (r, q') lands on operand entry (s, q) exactly when the r-th scatter index, read signed, is s and
    the columns agree. -/
theorem resultIdx?_eq_some_iff (r : Fin e) (q' : Fin c) (idx : IVec ⟨2, ![e, 1]⟩ w) (s : Fin n) (q : Fin c) :
    (rowDims n e c wf).resultIdx? (ix2 r q') idx = some (ix2 s q)
      ↔ (idx (ix2 r 0)).toInt = (s.val : ℤ) ∧ q' = q := by
  have hs0 := start_zero wf r q' idx
  have hs1 := start_one wf r q' idx
  have hw0 := window_zero wf r q'
  have hw1 := window_one wf r q'
  have hsn : s.val < n := s.isLt
  have hqc : q'.val < c := q'.isLt
  unfold ScatterDims.resultIdx?
  constructor
  · intro h
    split at h
    · have h' := Option.some.inj h
      have h0 : ((rowDims n e c wf).start (ix2 r q') idx 0 + ((rowDims n e c wf).window (ix2 r q') 0 : ℕ)).toNat = s.val :=
        congrArg (fun f : (⟨2, ![n, c]⟩ : Shape).Idx => (f 0).val) h'
      have h1 : ((rowDims n e c wf).start (ix2 r q') idx 1 + ((rowDims n e c wf).window (ix2 r q') 1 : ℕ)).toNat = q.val :=
        congrArg (fun f : (⟨2, ![n, c]⟩ : Shape).Idx => (f 1).val) h'
      rename_i hb
      have hb0 := hb 0
      rw [hs0, hw0] at h0 hb0
      rw [hs1, hw1] at h1
      refine ⟨by omega, Fin.ext (by omega)⟩
    · exact absurd h (by simp)
  · rintro ⟨ht, rfl⟩
    have hall : ∀ a, 0 ≤ (rowDims n e c wf).start (ix2 r q') idx a + ((rowDims n e c wf).window (ix2 r q') a : ℕ)
        ∧ (rowDims n e c wf).start (ix2 r q') idx a + ((rowDims n e c wf).window (ix2 r q') a : ℕ) < (⟨2, ![n, c]⟩ : Shape).size a := by
      intro a
      match a with
      | ⟨0, _⟩ =>
        show 0 ≤ (rowDims n e c wf).start (ix2 r q') idx 0 + ((rowDims n e c wf).window (ix2 r q') 0 : ℕ)
          ∧ (rowDims n e c wf).start (ix2 r q') idx 0 + ((rowDims n e c wf).window (ix2 r q') 0 : ℕ) < (n : ℤ)
        rw [hs0, hw0, ht]; omega
      | ⟨1, _⟩ =>
        show 0 ≤ (rowDims n e c wf).start (ix2 r q') idx 1 + ((rowDims n e c wf).window (ix2 r q') 1 : ℕ)
          ∧ (rowDims n e c wf).start (ix2 r q') idx 1 + ((rowDims n e c wf).window (ix2 r q') 1 : ℕ) < (c : ℤ)
        rw [hs1, hw1]; omega
    rw [dif_pos hall]
    refine congrArg some (funext fun a => Fin.ext ?_)
    match a with
    | ⟨0, _⟩ =>
      show ((rowDims n e c wf).start (ix2 r q') idx 0 + ((rowDims n e c wf).window (ix2 r q') 0 : ℕ)).toNat = s.val
      rw [hs0, hw0, ht]; omega
    | ⟨1, _⟩ =>
      show ((rowDims n e c wf).start (ix2 r q') idx 1 + ((rowDims n e c wf).window (ix2 r q') 1 : ℕ)).toNat = q'.val
      rw [hs1, hw1]; omega

/-- The accumulating row scatter at entry (s, q), on the extended reals: the operand's entry plus the sum over the
    update rows whose signed target is s of their entry in column q. -/
theorem scatterAdd_apply {φ : FTy} (x : FVec Ideal ⟨2, ![n, c]⟩ φ) (idx : IVec ⟨2, ![e, 1]⟩ w)
    (upd : FVec Ideal ⟨2, ![e, c]⟩ φ) (s : Fin n) (q : Fin c) :
    Host.scatterAdd (F := Ideal) (rowDims n e c wf) x idx upd (ix2 s q)
      = x (ix2 s q) + ∑ r : Fin e, if (idx (ix2 r 0)).toInt = (s.val : ℤ) then upd (ix2 r q) else 0 := by
  show x (ix2 s q) + ∑ j ∈ Finset.univ.filter (fun j => (rowDims n e c wf).resultIdx? j idx = some (ix2 s q)), upd j = _
  congr 1
  rw [Finset.sum_filter, sum_idx2]
  refine Finset.sum_congr rfl fun r _ => ?_
  simp only [resultIdx?_eq_some_iff]
  by_cases hc : (idx (ix2 r 0)).toInt = (s.val : ℤ)
  · simp only [hc, true_and]
    rw [Finset.sum_ite_eq' Finset.univ q (fun b => upd (ix2 r b))]
    simp
  · simp [hc]

end Cert.LibRowScatter

end
-- ==== Proof.LibVecScatter.lean ====
/-
  An accumulating scatter of single entries into a vector, read at one entry.

  The operand is a vector of length n, the updates a vector of length e, and the scatter indices an e×1 column of
  integers: update entry r is added into operand entry t(r), where t(r) is entry (r, 0) of the indices read as a
  SIGNED integer and NOT clamped; an update whose target is outside [0, n) is dropped. On the extended reals the
  accumulated result at entry s is therefore the operand's entry plus the sum, over the update entries r whose target
  is s, of update entry r — written below as a sum over all r of an `if`. Stated for the dimension record
  `vecDims n e` (no update window axis, inserted window axis [0], scatter axis to operand axis [0], index vector
  axis 1), for any extents and any integer width; a printed record with those four lists is this record (they differ
  in a proof field).
-/
import Idealize.ShloMosaic.Lib.ValueIdx
import Idealize.ShloMosaic.PureOps.Ideal.Laws

noncomputable section

open scoped BigOperators

namespace Cert.VecScatter

open Idealize.ShloMosaic Idealize.ShloMosaic.ValueIdx

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Scatter the entries of a vector of length e into a vector of length n at e positions laid as a column e×1. -/
def vecDims (n e : Nat) (wf : ScatterDims.WF ⟨1, ![n]⟩ ⟨2, ![e, 1]⟩ ⟨1, ![e]⟩ [] [0] [0] 1) :
    ScatterDims ⟨1, ![n]⟩ ⟨2, ![e, 1]⟩ ⟨1, ![e]⟩ where
  updateWindowDims := []
  insertedWindowDims := [0]
  scatterDimsToOperandDims := [0]
  indexVectorDim := 1
  wf := wf

variable {n e w : ℕ} (wf : ScatterDims.WF ⟨1, ![n]⟩ ⟨2, ![e, 1]⟩ ⟨1, ![e]⟩ [] [0] [0] 1)

/-- On the operand's one axis the window of update entry r starts at the r-th scatter index, read signed. -/
theorem start_zero (r : Fin e) (idx : IVec ⟨2, ![e, 1]⟩ w) :
    (vecDims n e wf).start (ix1 r) idx 0 = (idx (ix2 r 0)).toInt := by
  unfold ScatterDims.start
  rw [dif_pos (show (0 : Fin 1) ∈ (vecDims n e wf).scatterDimsToOperandDims from List.mem_singleton.mpr rfl)]
  refine congrArg (fun k => (idx k).toInt) ?_
  funext b
  match b with
  | ⟨0, _⟩ => rfl
  | ⟨1, _⟩ => rfl

/-- The operand's one axis is an inserted axis: the window has no extent along it. -/
theorem window_zero (r : Fin e) : (vecDims n e wf).window (ix1 r) 0 = 0 := by
  unfold ScatterDims.window
  rw [dif_neg (show ¬ (0 : Fin 1) ∈ (vecDims n e wf).sKept from by
    show ¬ (0 : Fin 1) ∈ (List.finRange 1).filter (fun a => a ∉ [(0 : Fin 1)])
    decide)]

/-- Update entry r lands on operand entry s exactly when the r-th scatter index, read signed, is s. -/
theorem resultIdx?_eq_some_iff (r : Fin e) (idx : IVec ⟨2, ![e, 1]⟩ w) (s : Fin n) :
    (vecDims n e wf).resultIdx? (ix1 r) idx = some (ix1 s) ↔ (idx (ix2 r 0)).toInt = (s.val : ℤ) := by
  have hs0 := start_zero wf r idx
  have hw0 := window_zero (n := n) wf r
  have hsn : s.val < n := s.isLt
  unfold ScatterDims.resultIdx?
  constructor
  · intro h
    split at h
    · have h' := Option.some.inj h
      have h0 : ((vecDims n e wf).start (ix1 r) idx 0 + ((vecDims n e wf).window (ix1 r) 0 : ℕ)).toNat = s.val :=
        congrArg (fun f : (⟨1, ![n]⟩ : Shape).Idx => (f 0).val) h'
      rename_i hb
      have hb0 := hb 0
      rw [hs0, hw0] at h0 hb0
      omega
    · exact absurd h (by simp)
  · intro ht
    have hall : ∀ a, 0 ≤ (vecDims n e wf).start (ix1 r) idx a + ((vecDims n e wf).window (ix1 r) a : ℕ)
        ∧ (vecDims n e wf).start (ix1 r) idx a + ((vecDims n e wf).window (ix1 r) a : ℕ) < (⟨1, ![n]⟩ : Shape).size a := by
      intro a
      match a with
      | ⟨0, _⟩ =>
        show 0 ≤ (vecDims n e wf).start (ix1 r) idx 0 + ((vecDims n e wf).window (ix1 r) 0 : ℕ)
          ∧ (vecDims n e wf).start (ix1 r) idx 0 + ((vecDims n e wf).window (ix1 r) 0 : ℕ) < (n : ℤ)
        rw [hs0, hw0, ht]; omega
    rw [dif_pos hall]
    refine congrArg some (funext fun a => Fin.ext ?_)
    match a with
    | ⟨0, _⟩ =>
      show ((vecDims n e wf).start (ix1 r) idx 0 + ((vecDims n e wf).window (ix1 r) 0 : ℕ)).toNat = s.val
      rw [hs0, hw0, ht]; omega

/-- The accumulating entry scatter at entry s, on the extended reals: the operand's entry plus the sum over the
    update entries whose signed target is s. -/
theorem scatterAdd_apply {φ : FTy} (x : FVec Ideal ⟨1, ![n]⟩ φ) (idx : IVec ⟨2, ![e, 1]⟩ w)
    (upd : FVec Ideal ⟨1, ![e]⟩ φ) (s : Fin n) :
    Host.scatterAdd (F := Ideal) (vecDims n e wf) x idx upd (ix1 s)
      = x (ix1 s) + ∑ r : Fin e, if (idx (ix2 r 0)).toInt = (s.val : ℤ) then upd (ix1 r) else 0 := by
  show x (ix1 s) + ∑ j ∈ Finset.univ.filter (fun j => (vecDims n e wf).resultIdx? j idx = some (ix1 s)), upd j = _
  congr 1
  rw [Finset.sum_filter, sum_idx1]
  refine Finset.sum_congr rfl fun r _ => ?_
  simp only [resultIdx?_eq_some_iff]

end Cert.VecScatter

end
-- ==== Proof.AggFinite.lean ====
/-
  The host side of a layer keeps every entry a real number.

  On extended reals an entry is "finite" when it is the image of a real number. The scaled input multiplies each entry
  by 1000 or by 1, both real. The neighbourhood mean is built from three operations: a gather of rows (every entry of
  the result is an entry of the operand), an accumulating scatter from zero (every entry is zero plus a finite sum of
  entries of the updates and zeros), and a division by the clipped in-degree. The in-degree of a node is a finite sum
  of ones and zeros; clipped below at 1 it is a real number at least 1, so it is not zero and dividing by it is the
  division of real numbers.
-/
import proofs.«138899_j10342281249011_1_alg».proof.Proof.Agg
import proofs.«138899_j10342281249011_1_alg».proof.Proof.LibRowGather
import proofs.«138899_j10342281249011_1_alg».proof.Proof.LibRowScatter
import proofs.«138899_j10342281249011_1_alg».proof.Proof.LibVecScatter
import Idealize.ShloMosaic.PureOps.Ideal.Laws
import Idealize.ShloMosaic.Lib.ValueIdx
import Idealize.ShloMosaic.Lib.IdealHost

noncomputable section

namespace Cert.Bridge

open Idealize.ShloMosaic Idealize.ShloMosaic.ValueIdx Cert.KernelIdeal Cert.KernelIdeal.Gen

/-- Every entry is a real number. -/
def Fin2 {ι : Type} (a : ι → EReal) : Prop := ∀ j, ∃ r : ℝ, a j = (r : EReal)

/-- Every entry is a real number other than zero. -/
def Nz {ι : Type} (a : ι → EReal) : Prop := ∀ j, ∃ b : ℝ, a j = (b : EReal) ∧ b ≠ 0

/-! ## Real numbers among the extended reals -/

/-- The float word of 1.0 is the real number 1. -/
theorem one_f32 : Ideal.ofBits .f32 0x3F800000#32 = ((1 : ℝ) : EReal) :=
  Ideal.ofBits_one_f32.trans EReal.coe_one.symm

/-- A 32-bit float word whose exponent field is not all ones is a real number. -/
theorem f32_real (w : BitVec 32) (h : (w.extractLsb' 23 8).toNat ≠ 255) : ∃ r : ℝ, Ideal.ofBits .f32 w = (r : EReal) := by
  show ∃ r : ℝ, Ideal.ieee 8 23 w = (r : EReal)
  unfold Ideal.ieee
  dsimp only
  rw [if_neg (by simpa using h)]
  split
  · exact ⟨_, rfl⟩
  · exact ⟨_, rfl⟩

/-- A finite sum of real numbers is a real number. -/
theorem real_sum {ι : Type} (s : Finset ι) (f : ι → EReal) (h : ∀ i ∈ s, ∃ r : ℝ, f i = (r : EReal)) :
    ∃ r : ℝ, ∑ i ∈ s, f i = (r : EReal) :=
  Finset.sum_induction f (fun x => ∃ r : ℝ, x = (r : EReal))
    (fun a b ⟨ra, ha⟩ ⟨rb, hb⟩ => ⟨ra + rb, by rw [ha, hb, EReal.coe_add]⟩) ⟨0, EReal.coe_zero.symm⟩ h

/-- The quotient of a real number by a real number other than zero is a real number. -/
theorem real_div (x y : EReal) (hx : ∃ a : ℝ, x = (a : EReal)) (hy : ∃ b : ℝ, y = (b : EReal) ∧ b ≠ 0) :
    ∃ r : ℝ, Ideal.div x y = (r : EReal) := by
  obtain ⟨a, rfl⟩ := hx
  obtain ⟨b, rfl, hb⟩ := hy
  refine ⟨a * b⁻¹, ?_⟩
  unfold Ideal.div
  rw [if_neg (fun h => hb (EReal.coe_eq_zero.mp h)), ← EReal.coe_inv, ← EReal.coe_mul]

/-- The product of two real numbers is a real number. -/
theorem real_mul (x y : EReal) (hx : ∃ a : ℝ, x = (a : EReal)) (hy : ∃ b : ℝ, y = (b : EReal)) :
    ∃ r : ℝ, x * y = (r : EReal) := by
  obtain ⟨a, rfl⟩ := hx
  obtain ⟨b, rfl⟩ := hy
  exact ⟨a * b, (EReal.coe_mul a b).symm⟩

/-- A real number clipped below at 1 is a real number at least 1, so not zero. -/
theorem real_max_one (x : EReal) (hx : ∃ a : ℝ, x = (a : EReal)) :
    ∃ b : ℝ, max x (Ideal.ofBits .f32 0x3F800000#32) = (b : EReal) ∧ b ≠ 0 := by
  obtain ⟨a, rfl⟩ := hx
  rw [one_f32]
  refine ⟨max a 1, ?_, ?_⟩
  · rcases le_total a 1 with h | h
    · rw [max_eq_right h, max_eq_right (EReal.coe_le_coe_iff.mpr h)]
    · rw [max_eq_left h, max_eq_left (EReal.coe_le_coe_iff.mpr h)]
  · have : (1 : ℝ) ≤ max a 1 := le_max_right a 1
    intro h0; rw [h0] at this; norm_num at this

/-! ## The operations, one at a time -/

/-- Every entry of a broadcast is an entry of its operand. -/
theorem Fin2.bcast {s t : Shape} {dims : Fin s.rank → Fin t.rank} {h : s.BroadcastsInDim t dims} {x : s.Idx → EReal}
    (hx : Fin2 x) : Fin2 (broadcastInDim t dims h x) := fun _ => hx _

theorem Nz.bcast {s t : Shape} {dims : Fin s.rank → Fin t.rank} {h : s.BroadcastsInDim t dims} {x : s.Idx → EReal}
    (hx : Nz x) : Nz (broadcastInDim t dims h x) := fun _ => hx _

/-- Every entry of a gather is an entry of its operand. -/
theorem Fin2.gather {s si t : Shape} {w : Nat} (D : GatherDims s si t) {x : s.Idx → EReal} (idx : IVec si w)
    (hx : Fin2 x) : Fin2 (Host.gather D x idx) := fun _ => hx _

/-- A splat of the float zero word is real everywhere. -/
theorem Fin2.zero (s : Shape) : Fin2 (constant (F := Ideal) s .f32 0x00000000#32) :=
  fun _ => ⟨0, Ideal.ofBits_zero_f32.trans EReal.coe_zero.symm⟩

/-- A splat of the float word of 1.0 is real everywhere. -/
theorem Fin2.one (s : Shape) : Fin2 (constant (F := Ideal) s .f32 0x3F800000#32) := fun _ => ⟨1, one_f32⟩

/-- An accumulating scatter of rows of real numbers into a matrix of real numbers has real entries: each is the
    operand's entry plus a finite sum of update entries and zeros. -/
theorem Fin2.rowScatter {n e c w : ℕ} (wf : ScatterDims.WF ⟨2, ![n, c]⟩ ⟨2, ![e, 1]⟩ ⟨2, ![e, c]⟩ [1] [0] [0] 1)
    (x : FVec Ideal ⟨2, ![n, c]⟩ .f32) (idx : IVec ⟨2, ![e, 1]⟩ w) (upd : FVec Ideal ⟨2, ![e, c]⟩ .f32)
    (hx : Fin2 x) (hu : Fin2 upd) :
    Fin2 (Host.scatterAdd (F := Ideal) (Cert.LibRowScatter.rowDims n e c wf) x idx upd) := by
  intro j
  obtain ⟨s, q, rfl⟩ : ∃ (s : Fin n) (q : Fin c), j = ix2 s q := ⟨j 0, j 1, eq_ix2 j⟩
  rw [Cert.LibRowScatter.scatterAdd_apply]
  obtain ⟨a, ha⟩ := hx (ix2 s q)
  obtain ⟨b, hb⟩ := real_sum Finset.univ
    (fun r : Fin e => if (idx (ix2 r 0)).toInt = (s.val : ℤ) then upd (ix2 r q) else 0)
    (fun r _ => by
      show ∃ y : ℝ, (if (idx (ix2 r 0)).toInt = (s.val : ℤ) then upd (ix2 r q) else 0) = (y : EReal)
      split
      · exact hu _
      · exact ⟨0, EReal.coe_zero.symm⟩)
  exact ⟨a + b, by rw [ha, hb, EReal.coe_add]⟩

/-- The same for an accumulating scatter of single entries into a vector. -/
theorem Fin2.vecScatter {n e w : ℕ} (wf : ScatterDims.WF ⟨1, ![n]⟩ ⟨2, ![e, 1]⟩ ⟨1, ![e]⟩ [] [0] [0] 1)
    (x : FVec Ideal ⟨1, ![n]⟩ .f32) (idx : IVec ⟨2, ![e, 1]⟩ w) (upd : FVec Ideal ⟨1, ![e]⟩ .f32)
    (hx : Fin2 x) (hu : Fin2 upd) :
    Fin2 (Host.scatterAdd (F := Ideal) (Cert.VecScatter.vecDims n e wf) x idx upd) := by
  intro j
  obtain ⟨s, rfl⟩ : ∃ s : Fin n, j = ix1 s := ⟨j 0, eq_ix1 j⟩
  rw [Cert.VecScatter.scatterAdd_apply]
  obtain ⟨a, ha⟩ := hx (ix1 s)
  obtain ⟨b, hb⟩ := real_sum Finset.univ
    (fun r : Fin e => if (idx (ix2 r 0)).toInt = (s.val : ℤ) then upd (ix1 r) else 0)
    (fun r _ => by
      show ∃ y : ℝ, (if (idx (ix2 r 0)).toInt = (s.val : ℤ) then upd (ix1 r) else 0) = (y : EReal)
      split
      · exact hu _
      · exact ⟨0, EReal.coe_zero.symm⟩)
  exact ⟨a + b, by rw [ha, hb, EReal.coe_add]⟩

/-! ## The scaled input -/

/-- The column scale is 1000 or 1. -/
theorem colScale_real : Fin2 colScale := by
  intro k
  unfold colScale
  rw [select_apply]
  unfold Scalar.select
  split
  · exact f32_real 0x447A0000#32 (by decide)
  · exact f32_real 0x3F800000#32 (by decide)

/-- The scaled input of a finite input is finite. -/
theorem h0_finite (x : Spec.Mat 50000 4) (hx : Fin2 x) : Fin2 (h0 x) := by
  intro j
  unfold h0
  rw [mulf_apply]
  exact real_mul _ _ (hx j) (Fin2.bcast (Fin2.bcast (x := id colScale) colScale_real) j)

/-! ## The clipped in-degree -/

/-- The clipped in-degree is a real number other than zero at every node. -/
theorem deg_nz (e : Edges) : Nz (deg e) := by
  unfold deg
  refine Nz.bcast ?_
  intro j
  rw [maximumf_apply]
  exact real_max_one _
    (Fin2.vecScatter (n := 50000) (e := 800000) scatter_S50000_S800000x1_S800000_n_0_0_1.wf _ (dstIdx e) _
      (Fin2.bcast (Fin2.zero S_)) (Fin2.bcast (Fin2.one S_)) j)

/-! ## The neighbourhood means -/

/-- The rows of a finite matrix gathered at the sources and added into the targets from zero: finite. -/
theorem sums4_finite (e : Edges) (h : Spec.Mat 50000 4) (hh : Fin2 h) :
    Fin2 (Host.scatterAdd (F := Ideal) scatter_S50000x4_S800000x1_S800000x4_1_0_0_1
      (broadcastInDim S50000x4 ![] bcast_S_S50000x4 (constant (F := Ideal) S_ .f32 0x00000000#32)) (dstIdx e)
      (Host.gather gather_S50000x4_S800000x1_S800000x4_1_0_n_n_0_1_14 h (srcIdx e))) :=
  Fin2.rowScatter (n := 50000) (e := 800000) (c := 4) scatter_S50000x4_S800000x1_S800000x4_1_0_0_1.wf _ (dstIdx e) _
    (Fin2.bcast (Fin2.zero S_)) (Fin2.gather _ (srcIdx e) hh)

theorem sums256_finite (e : Edges) (h : Spec.Mat 50000 256) (hh : Fin2 h) :
    Fin2 (Host.scatterAdd (F := Ideal) scatter_S50000x256_S800000x1_S800000x256_1_0_0_1
      (broadcastInDim S50000x256 ![] bcast_S_S50000x256 (constant (F := Ideal) S_ .f32 0x00000000#32)) (dstIdx e)
      (Host.gather gather_S50000x256_S800000x1_S800000x256_1_0_n_n_0_1_1256 h (srcIdx e))) :=
  Fin2.rowScatter (n := 50000) (e := 800000) (c := 256) scatter_S50000x256_S800000x1_S800000x256_1_0_0_1.wf _ (dstIdx e) _
    (Fin2.bcast (Fin2.zero S_)) (Fin2.gather _ (srcIdx e) hh)

/-- The neighbourhood mean on 4 columns of a finite matrix is finite. -/
theorem agg4_finite (e : Edges) (h : Spec.Mat 50000 4) (hh : Fin2 h) : Fin2 (agg4 e h) := by
  intro j
  unfold agg4
  rw [hostDivf_apply]
  exact real_div _ _ (sums4_finite e h hh j) (Nz.bcast (deg_nz e) j)

/-- The neighbourhood mean on 256 columns of a finite matrix is finite. -/
theorem agg256_finite (e : Edges) (h : Spec.Mat 50000 256) (hh : Fin2 h) : Fin2 (agg256 e h) := by
  intro j
  unfold agg256
  rw [hostDivf_apply]
  exact real_div _ _ (sums256_finite e h hh j) (Nz.bcast (deg_nz e) j)

end Cert.Bridge

end
-- ==== Proof.Claims.lean ====
/-
  The five claims. The word-level kernel and its idealization run, faultless, with their arguments unchanged (the
  generated frame runs); the reference runs likewise (its generated run with the result dropped); the idealization
  rewrote nothing; and at the ideal instance the two programs end with the same result: the kernel's is the
  specification's network with each column's variance computed as the mean of the squares minus the square of the
  mean, the reference's the same network with the variance as the mean of the squared deviations, and on finite
  inputs — which keep every linear output finite, through the gathers, the scatter-adds and the divisions by a
  clipped in-degree — the two variances are one number.
-/
import proofs.«138899_j10342281249011_1_alg».proof.Defs
import proofs.«138899_j10342281249011_1_alg».proof.Proof.Gen.Kernel.Frame
import proofs.«138899_j10342281249011_1_alg».proof.Proof.Gen.KernelIdeal.Frame
import proofs.«138899_j10342281249011_1_alg».proof.Proof.Gen.ReferenceIdeal.Run
import proofs.«138899_j10342281249011_1_alg».proof.Proof.Gen.Pre_finite_inputs
import proofs.«138899_j10342281249011_1_alg».proof.Proof.RunBoundary
import proofs.«138899_j10342281249011_1_alg».proof.Proof.Chain
import proofs.«138899_j10342281249011_1_alg».proof.Proof.Region0
import proofs.«138899_j10342281249011_1_alg».proof.Proof.Region1
import proofs.«138899_j10342281249011_1_alg».proof.Proof.Region2
import proofs.«138899_j10342281249011_1_alg».proof.Proof.Region3
import proofs.«138899_j10342281249011_1_alg».proof.Proof.RefSide
import proofs.«138899_j10342281249011_1_alg».proof.Proof.Algebra
import proofs.«138899_j10342281249011_1_alg».proof.Proof.PreFinite
import proofs.«138899_j10342281249011_1_alg».proof.Proof.AggFinite

set_option maxRecDepth 16384

noncomputable section

namespace Cert.Proof.Claims

open Idealize.ShloMosaic Idealize.ShloMosaic.TcCoe Idealize.SL.Sem
open Cert.Spec Cert.Bridge Cert.Algebra

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)
theorem preserves : Cert.preserves_Kernel_KernelIdeal := trivial

/-- What the four regions leave, for any contents at their entries. -/
theorem regionValues : Cert.KernelIdeal.Chain.RegionValues where
  r0_lin := Cert.KernelIdeal.RegionValue.region0_lin
  r0_sum := Cert.KernelIdeal.RegionValue.region0_sum
  r0_sq := Cert.KernelIdeal.RegionValue.region0_sumsq
  r1 := Cert.KernelIdeal.PointwiseRegion.region1_val
  r2_lin := Cert.KernelIdeal.RegionValue.region2_lin
  r2_sum := Cert.KernelIdeal.RegionValue.region2_sum
  r2_sq := Cert.KernelIdeal.RegionValue.region2_sumsq
  r3 := Cert.KernelIdeal.PointwiseRegion.region3_val

theorem algebraic : Cert.algebraic_KernelIdeal_ReferenceIdeal := by
  intro m ρ m' ρ' hpre hagree
  refine ⟨fun c => Spec.out Spec.varMom (agg4 (m ((c.tc : Thread Cert.KernelIdeal.nD Cert.KernelIdeal.τ).loc Cert.KernelIdeal.main_arg1))) (agg256 (m ((c.tc : Thread Cert.KernelIdeal.nD Cert.KernelIdeal.τ).loc Cert.KernelIdeal.main_arg1))) (h0 (m ((c.tc : Thread Cert.KernelIdeal.nD Cert.KernelIdeal.τ).loc Cert.KernelIdeal.main_arg0))) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
    (m ((c.tc : Thread Cert.KernelIdeal.nD Cert.KernelIdeal.τ).loc Cert.KernelIdeal.main_arg7)) (m ((c.tc : Thread Cert.KernelIdeal.nD Cert.KernelIdeal.τ).loc Cert.KernelIdeal.main_arg9)) (m ((c.tc : Thread Cert.KernelIdeal.nD Cert.KernelIdeal.τ).loc Cert.KernelIdeal.main_arg8)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.Chain.result m ρ c regionValues), (h c).2⟩)
      (Cert.KernelIdeal.RunValue.run_boundary (F := Ideal) m ρ)
  · refine (θ_run Cert.ReferenceIdeal.defs _ _).mono (fun r h c => ⟨(h c).1.trans ?_, (h c).2⟩)
      (Cert.ReferenceIdeal.Value.run (F := Ideal) m' ρ')
    obtain ⟨f0, f2, f3, f4, f5, f6, f7, f8, f9, f10, f11⟩ := Cert.PreFinite.pre_finite m hpre c
    obtain ⟨a0, a1, a2, a3, a4, a5, a6, a7, a8, a9, a10, a11, a12, a13⟩ := hagree c
    refine (Cert.RefSide.run_result_eq m' c).trans ?_
    rw [a0, a1, a2, a3, a4, a5, a6, a7, a8, a9, a10, a11, a12, a13]
    exact (out_varMom_eq_varDev _ _ (fun h hh => Cert.Bridge.agg4_finite _ h hh) (fun h hh => Cert.Bridge.agg256_finite _ h hh)
      _ (Cert.Bridge.h0_finite _ f0) _ _ f2 f4 _ _ _ f3 f5 f6 _ _ f7 f9 _ f8 _ _ _ _).symm

end Cert.Proof.Claims

end
-- ==== Proof.lean ====
/-
  The certificate: the word-level kernel, its idealization and the idealized reference each run to the end without a
  fault and leave their arguments as they were; the idealization rewrote nothing; and on finite inputs the idealized
  kernel and the idealized reference end with the same array of extended reals.

  The network is two graph layers and a head. Each layer takes the node features and their neighbourhood mean through
  two linear maps and a bias, normalises every column by its mean and variance over the 50000 nodes, scales, shifts and
  clips at zero. The kernel computes a column's variance as the mean of the squares minus the square of the mean, from
  sums it accumulates block by block; the reference as the mean of the squared deviations from the mean. The two are
  one number when the column is finite, and finite inputs keep every column finite: that is the whole of the
  equivalence (Claims.lean assembles it; Spec.lean states the network; Algebra.lean proves the law).
-/
import proofs.«138899_j10342281249011_1_alg».proof.Defs
import proofs.«138899_j10342281249011_1_alg».proof.Proof.Gen.Kernel
import proofs.«138899_j10342281249011_1_alg».proof.Proof.Gen.KernelIdeal
import proofs.«138899_j10342281249011_1_alg».proof.Proof.Gen.ReferenceIdeal
import proofs.«138899_j10342281249011_1_alg».proof.Proof.Gen.Pre_finite_inputs
import proofs.«138899_j10342281249011_1_alg».proof.Proof.Gen.ReferenceIdeal.Run
import proofs.«138899_j10342281249011_1_alg».proof.Proof.Gen.ReferenceIdeal.Read
import proofs.«138899_j10342281249011_1_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
